-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S64x1 .f32) (main_arg13 : FVec F S1 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S64x1 .f32 := Host.absf main_arg12
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S64x1 .f32) (main_arg9 : FVec F S1 .f32) (main_arg10 : FVec F S64x1 .f32) (main_arg11 : FVec F S1 .f32) (main_arg12 : FVec F S64x1 .f32) (main_arg13 : FVec F S1 .f32) (main_v33 : IVec S_ 1) : IVec S_ 1 :=
  let main_v34 : FVec F S64x1 .f32 := Host.absf main_arg8
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S64x1 .f32 := Host.absf main_arg10
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_arg12 main_arg13 main_v48 main_v49 main_v50

def fn_part1 {F : FTy → Type} [FloatOps F] (main_arg5 : FVec F S64 .f32) (main_arg6 : FVec F S256x64 .f32) (main_arg7 : FVec F S64 .f32) (main_arg8 : FVec F S64x1 .f32) (main_arg9 : FVec F S1 .f32) (main_arg10 : FVec F S64x1 .f32) (main_arg11 : FVec F S1 .f32) (main_arg12 : FVec F S64x1 .f32) (main_arg13 : FVec F S1 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S256x64 .f32 := Host.absf main_arg6
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x256 .f32) (main_arg1 : IVec S2x3200000 32) (main_arg2 : FVec F S256x64 .f32) (main_arg3 : FVec F S64 .f32) (main_arg4 : FVec F S256x64 .f32) (main_arg5 : FVec F S64 .f32) (main_arg6 : FVec F S256x64 .f32) (main_arg7 : FVec F S64 .f32) (main_arg8 : FVec F S64x1 .f32) (main_arg9 : FVec F S1 .f32) (main_arg10 : FVec F S64x1 .f32) (main_arg11 : FVec F S1 .f32) (main_arg12 : FVec F S64x1 .f32) (main_arg13 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_arg6 main_arg7 main_arg8 main_arg9 main_arg10 main_arg11 main_arg12 main_arg13 main_v13 main_v16
-- ==== Kernel.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S1x64 : Shape := ⟨2, ![1, 64]⟩
abbrev S100000x64 : Shape := ⟨2, ![100000, 64]⟩
abbrev S5000x256 : Shape := ⟨2, ![5000, 256]⟩
abbrev S5000x64 : Shape := ⟨2, ![5000, 64]⟩
abbrev S3200000x64 : Shape := ⟨2, ![3200000, 64]⟩
abbrev S100000x1 : Shape := ⟨2, ![100000, 1]⟩
abbrev S1x1 : Shape := ⟨2, ![1, 1]⟩
abbrev S5000 : Shape := ⟨1, ![5000]⟩
abbrev S5000x1 : Shape := ⟨2, ![5000, 1]⟩

abbrev nBuf : Space → Nat
  | .hbm => 103
  | .vmem => 30
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x64, .f32⟩
  | .hbm, ⟨3, _⟩ => ⟨S64, .f32⟩
  | .hbm, ⟨4, _⟩ => ⟨S256x64, .f32⟩
  | .hbm, ⟨5, _⟩ => ⟨S64, .f32⟩
  | .hbm, ⟨6, _⟩ => ⟨S256x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S64x1, .f32⟩
  | .hbm, ⟨11, _⟩ => ⟨S1, .f32⟩
  | .hbm, ⟨12, _⟩ => ⟨S64x1, .f32⟩
  | .hbm, ⟨13, _⟩ => ⟨S1, .f32⟩
  | .hbm, ⟨14, _⟩ => ⟨S1x3200000, .i32⟩
  | .hbm, ⟨15, _⟩ => ⟨S3200000, .i32⟩
  | .hbm, ⟨16, _⟩ => ⟨S1x3200000, .i32⟩
  | .hbm, ⟨17, _⟩ => ⟨S3200000, .i32⟩
  | .hbm, ⟨18, _⟩ => ⟨S_, .f32⟩
  | .hbm, ⟨19, _⟩ => ⟨S3200000, .f32⟩
  | .hbm, ⟨20, _⟩ => ⟨S_, .f32⟩
  | .hbm, ⟨21, _⟩ => ⟨S100000, .f32⟩
  | .hbm, ⟨22, _⟩ => ⟨S3200000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S1x64, .f32⟩
  | .hbm, ⟨32, _⟩ => ⟨S1x64, .f32⟩
  | .hbm, ⟨33, _⟩ => ⟨S1x64, .f32⟩
  | .hbm, ⟨34, _⟩ => ⟨S100000x64, .f32⟩
  | .hbm, ⟨35, _⟩ => ⟨S100000x64, .f32⟩
  | .hbm, ⟨36, _⟩ => ⟨S100000x64, .f32⟩
  | .hbm, ⟨37, _⟩ => ⟨S_, .i32⟩
  | .hbm, ⟨38, _⟩ => ⟨S3200000, .i32⟩
  | .hbm, ⟨39, _⟩ => ⟨S3200000, .i1⟩
  | .hbm, ⟨40, _⟩ => ⟨S_, .i32⟩
  | .hbm, ⟨41, _⟩ => ⟨S3200000, .i32⟩
  | .hbm, ⟨42, _⟩ => ⟨S3200000, .i32⟩
  | .hbm, ⟨43, _⟩ => ⟨S3200000, .i32⟩
  | .hbm, ⟨44, _⟩ => ⟨S3200000x1, .i32⟩
  | .hbm, ⟨45, _⟩ => ⟨S3200000, .f32⟩
  | .hbm, ⟨46, _⟩ => ⟨S_, .i32⟩
  | .hbm, ⟨47, _⟩ => ⟨S3200000, .i32⟩
  | .hbm, ⟨48, _⟩ => ⟨S3200000, .i1⟩
  | .hbm, ⟨49, _⟩ => ⟨S_, .i32⟩
  | .hbm, ⟨50, _⟩ => ⟨S3200000, .i32⟩
  | .hbm, ⟨51, _⟩ => ⟨S3200000, .i32⟩
  | .hbm, ⟨52, _⟩ => ⟨S3200000, .i32⟩
  | .hbm, ⟨53, _⟩ => ⟨S3200000x1, .i32⟩
  | .hbm, ⟨54, _⟩ => ⟨S3200000, .f32⟩
  | .hbm, ⟨55, _⟩ => ⟨S3200000, .f32⟩
  | .hbm, ⟨56, _⟩ => ⟨S_, .i32⟩
  | .hbm, ⟨57, _⟩ => ⟨S3200000, .i32⟩
  | .hbm, ⟨58, _⟩ => ⟨S3200000, .i1⟩
  | .hbm, ⟨59, _⟩ => ⟨S_, .i32⟩
  | .hbm, ⟨60, _⟩ => ⟨S3200000, .i32⟩
  | .hbm, ⟨61, _⟩ => ⟨S3200000, .i32⟩
  | .hbm, ⟨62, _⟩ => ⟨S3200000, .i32⟩
  | .hbm, ⟨63, _⟩ => ⟨S3200000x1, .i32⟩
  | .hbm, ⟨64, _⟩ => ⟨S3200000x64, .f32⟩
  | .hbm, ⟨65, _⟩ => ⟨S3200000x1, .f32⟩
  | .hbm, ⟨66, _⟩ => ⟨S3200000x64, .f32⟩
  | .hbm, ⟨67, _⟩ => ⟨S3200000x64, .f32⟩
  | .hbm, ⟨68, _⟩ => ⟨S_, .f32⟩
  | .hbm, ⟨69, _⟩ => ⟨S100000x64, .f32⟩
  | .hbm, ⟨70, _⟩ => ⟨S3200000x1, .i32⟩
  | .hbm, ⟨71, _⟩ => ⟨S100000x64, .f32⟩
  | .hbm, ⟨72, _⟩ => ⟨S100000x1, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S_, .i32⟩
  | .hbm, ⟨77, _⟩ => ⟨S3200000, .i32⟩
  | .hbm, ⟨78, _⟩ => ⟨S3200000, .i1⟩
  | .hbm, ⟨79, _⟩ => ⟨S_, .i32⟩
  | .hbm, ⟨80, _⟩ => ⟨S3200000, .i32⟩
  | .hbm, ⟨81, _⟩ => ⟨S3200000, .i32⟩
  | .hbm, ⟨82, _⟩ => ⟨S3200000, .i32⟩
  | .hbm, ⟨83, _⟩ => ⟨S3200000x1, .i32⟩
  | .hbm, ⟨84, _⟩ => ⟨S3200000x64, .f32⟩
  | .hbm, ⟨85, _⟩ => ⟨S3200000x1, .f32⟩
  | .hbm, ⟨86, _⟩ => ⟨S3200000x64, .f32⟩
  | .hbm, ⟨87, _⟩ => ⟨S3200000x64, .f32⟩
  | .hbm, ⟨88, _⟩ => ⟨S_, .f32⟩
  | .hbm, ⟨89, _⟩ => ⟨S100000x64, .f32⟩
  | .hbm, ⟨90, _⟩ => ⟨S3200000x1, .i32⟩
  | .hbm, ⟨91, _⟩ => ⟨S100000x64, .f32⟩
  | .hbm, ⟨92, _⟩ => ⟨S100000x1, .f32⟩
  | .hbm, ⟨93, _⟩ => ⟨S100000x64, .f32⟩
  | .hbm, ⟨94, _⟩ => ⟨S100000x64, .f32⟩
  | .hbm, ⟨95, _⟩ => ⟨S100000x64, .f32⟩
  | .hbm, ⟨96, _⟩ => ⟨S1x64, .f32⟩
  | .hbm, ⟨97, _⟩ => ⟨S1x64, .f32⟩
  | .hbm, ⟨98, _⟩ => ⟨S1x64, .f32⟩
  | .hbm, ⟨99, _⟩ => ⟨S1x1, .f32⟩
  | .hbm, ⟨100, _⟩ => ⟨S1x1, .f32⟩
  | .hbm, ⟨101, _⟩ => ⟨S1x1, .f32⟩
  | .hbm, ⟨102, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S1x64, .f32⟩
  | .local _ .vmem, ⟨4, _⟩ => ⟨S256x64, .f32⟩
  | .local _ .vmem, ⟨5, _⟩ => ⟨S1x64, .f32⟩
  | .local _ .vmem, ⟨6, _⟩ => ⟨S256x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S1x64, .f32⟩
  | .local _ .vmem, ⟨23, _⟩ => ⟨S1x1, .f32⟩
  | .local _ .vmem, ⟨24, _⟩ => ⟨S1x64, .f32⟩
  | .local _ .vmem, ⟨25, _⟩ => ⟨S1x1, .f32⟩
  | .local _ .vmem, ⟨26, _⟩ => ⟨S1x64, .f32⟩
  | .local _ .vmem, ⟨27, _⟩ => ⟨S1x1, .f32⟩
  | .local _ .vmem, ⟨28, _⟩ => ⟨S5000x64, .f32⟩
  | .local _ .vmem, ⟨29, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16_0 : Ref sig .tc := ⟨.hbm, 34, rfl⟩
abbrev main_v16_1 : Ref sig .tc := ⟨.hbm, 35, rfl⟩
abbrev main_v16_2 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_3 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_4 : Ref sig .tc := ⟨.hbm, 46, rfl⟩
abbrev main_v24 : Ref sig .tc := ⟨.hbm, 47, rfl⟩
abbrev main_v25 : Ref sig .tc := ⟨.hbm, 48, rfl⟩
abbrev main_c_5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_6 : Ref sig .tc := ⟨.hbm, 56, rfl⟩
abbrev main_v32 : Ref sig .tc := ⟨.hbm, 57, rfl⟩
abbrev main_v33 : Ref sig .tc := ⟨.hbm, 58, rfl⟩
abbrev main_c_7 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_8 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_c_9 : Ref sig .tc := ⟨.hbm, 76, rfl⟩
abbrev main_v49 : Ref sig .tc := ⟨.hbm, 77, rfl⟩
abbrev main_v50 : Ref sig .tc := ⟨.hbm, 78, rfl⟩
abbrev main_c_10 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_11 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg10_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem10_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S5000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S64_S1x64 : S64.ShapeCasts S1x64
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64x1_S1x64 : S64x1.ShapeCasts S1x64
  shapeCasts_S1_S1x1 : S1.ShapeCasts S1x1
  shapeCasts_S5000x64_S5000x64 : S5000x64.ShapeCasts S5000x64
  reduces_S5000x64_S5000 : S5000x64.Reduces [1] S5000
  shapeCasts_S5000_S5000x1 : S5000.ShapeCasts S5000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  broadcasts_S5000x1_S5000x64 : S5000x1.Broadcasts S5000x64
  scatter_S100000_S3200000x1_S3200000_n_0_0_1_wf : ScatterDims.WF S100000 S3200000x1 S3200000 [] [0] [0] 1
  dot_S5000x256_S256x64_S5000x64_1_0_0_1_n_n_wf : DotDims.WF S5000x256 S256x64 S5000x64 [1] [0] [0] [1] [] []
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .f32 = 32 ∨ (Rect.block (s := S256x64) S256x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S256x64.size a
  hwx0_5 : ∀ i : grid0.Coords, EltTy.bits .f32 = 32 ∨ (Rect.block (s := S256x64) S256x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S100000x64.size a
  hwx0_7 : ∀ i : grid0.Coords, EltTy.bits .f32 = 32 ∨ (Rect.block (s := S100000x64) S5000x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x64.size a ≤ S100000x64.size a
  hwx0_8 : ∀ i : grid0.Coords, EltTy.bits .f32 = 32 ∨ (Rect.block (s := S100000x64) S5000x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x64.size a ≤ S100000x64.size a
  hwx0_9 : ∀ i : grid0.Coords, EltTy.bits .f32 = 32 ∨ (Rect.block (s := S100000x64) S5000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1.size a ≤ S1x1.size a
  hwx1_9 : ∀ i : grid1.Coords, EltTy.bits .f32 = 32 ∨ (Rect.block (s := S1x1) S1x1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x64.size a ≤ S100000x64.size a
  hwx1_10 : ∀ i : grid1.Coords, EltTy.bits .f32 = 32 ∨ (Rect.block (s := S100000x64) S5000x64.size (cc1_transform_10 i) (hinb1_10 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16_0) S5000x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v16_1) S5000x64.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v16_2) S5000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v16_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v65) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16_2) S5000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v66) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v69) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v67) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v70) S1x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v68) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v71) S1x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v72) S5000x64.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x64 : Shape := ⟨2, ![256, 64]⟩
abbrev S64 : Shape := ⟨1, ![64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x64 : Shape := ⟨2, ![100000, 64]⟩
abbrev S1x64 : Shape := ⟨2, ![1, 64]⟩
abbrev S3200000x64 : Shape := ⟨2, ![3200000, 64]⟩
abbrev S100000x1 : Shape := ⟨2, ![100000, 1]⟩
abbrev S1x1 : Shape := ⟨2, ![1, 1]⟩

abbrev nBuf : Space → Nat
  | .hbm => 166
  | .vmem => 0
  | .smem => 0
  | _ => 0

abbrev hbmTy0_0 (i : Nat) : BufTy := match i % 128 with
  | 0 => ⟨S100000x256, .f32⟩
  | 1 => ⟨S2x3200000, .i32⟩
  | 2 => ⟨S256x64, .f32⟩
  | 3 => ⟨S64, .f32⟩
  | 4 => ⟨S256x64, .f32⟩
  | 5 => ⟨S64, .f32⟩
  | 6 => ⟨S256x64, .f32⟩
  | 7 => ⟨S64, .f32⟩
  | 8 => ⟨S64x1, .f32⟩
  | 9 => ⟨S1, .f32⟩
  | 10 => ⟨S64x1, .f32⟩
  | 11 => ⟨S1, .f32⟩
  | 12 => ⟨S64x1, .f32⟩
  | 13 => ⟨S1, .f32⟩
  | 14 => ⟨S1x3200000, .i32⟩
  | 15 => ⟨S3200000, .i32⟩
  | 16 => ⟨S1x3200000, .i32⟩
  | 17 => ⟨S3200000, .i32⟩
  | 18 => ⟨S_, .f32⟩
  | 19 => ⟨S3200000, .f32⟩
  | 20 => ⟨S_, .f32⟩
  | 21 => ⟨S100000, .f32⟩
  | 22 => ⟨S3200000x1, .i32⟩
  | 23 => ⟨S100000, .f32⟩
  | 24 => ⟨S_, .f32⟩
  | 25 => ⟨S100000, .f32⟩
  | 26 => ⟨S100000, .f32⟩
  | 27 => ⟨S100000, .f32⟩
  | 28 => ⟨S_, .f32⟩
  | 29 => ⟨S100000, .f32⟩
  | 30 => ⟨S100000, .f32⟩
  | 31 => ⟨S100000x64, .f32⟩
  | 32 => ⟨S1x64, .f32⟩
  | 33 => ⟨S100000x64, .f32⟩
  | 34 => ⟨S100000x64, .f32⟩
  | 35 => ⟨S_, .i32⟩
  | 36 => ⟨S3200000, .i32⟩
  | 37 => ⟨S3200000, .i1⟩
  | 38 => ⟨S_, .i32⟩
  | 39 => ⟨S3200000, .i32⟩
  | 40 => ⟨S3200000, .i32⟩
  | 41 => ⟨S3200000, .i32⟩
  | 42 => ⟨S3200000x1, .i32⟩
  | 43 => ⟨S3200000, .f32⟩
  | 44 => ⟨S_, .i32⟩
  | 45 => ⟨S3200000, .i32⟩
  | 46 => ⟨S3200000, .i1⟩
  | 47 => ⟨S_, .i32⟩
  | 48 => ⟨S3200000, .i32⟩
  | 49 => ⟨S3200000, .i32⟩
  | 50 => ⟨S3200000, .i32⟩
  | 51 => ⟨S3200000x1, .i32⟩
  | 52 => ⟨S3200000, .f32⟩
  | 53 => ⟨S3200000, .f32⟩
  | 54 => ⟨S_, .i32⟩
  | 55 => ⟨S3200000, .i32⟩
  | 56 => ⟨S3200000, .i1⟩
  | 57 => ⟨S_, .i32⟩
  | 58 => ⟨S3200000, .i32⟩
  | 59 => ⟨S3200000, .i32⟩
  | 60 => ⟨S3200000, .i32⟩
  | 61 => ⟨S3200000x1, .i32⟩
  | 62 => ⟨S3200000x64, .f32⟩
  | 63 => ⟨S3200000x1, .f32⟩
  | 64 => ⟨S3200000x64, .f32⟩
  | 65 => ⟨S3200000x64, .f32⟩
  | 66 => ⟨S_, .f32⟩
  | 67 => ⟨S100000x64, .f32⟩
  | 68 => ⟨S3200000x1, .i32⟩
  | 69 => ⟨S100000x64, .f32⟩
  | 70 => ⟨S100000x1, .f32⟩
  | 71 => ⟨S100000x64, .f32⟩
  | 72 => ⟨S100000x64, .f32⟩
  | 73 => ⟨S100000x64, .f32⟩
  | 74 => ⟨S100000x64, .f32⟩
  | 75 => ⟨S_, .f32⟩
  | 76 => ⟨S100000x64, .f32⟩
  | 77 => ⟨S100000x64, .f32⟩
  | 78 => ⟨S100000x64, .f32⟩
  | 79 => ⟨S1x64, .f32⟩
  | 80 => ⟨S100000x64, .f32⟩
  | 81 => ⟨S100000x64, .f32⟩
  | 82 => ⟨S_, .i32⟩
  | 83 => ⟨S3200000, .i32⟩
  | 84 => ⟨S3200000, .i1⟩
  | 85 => ⟨S_, .i32⟩
  | 86 => ⟨S3200000, .i32⟩
  | 87 => ⟨S3200000, .i32⟩
  | 88 => ⟨S3200000, .i32⟩
  | 89 => ⟨S3200000x1, .i32⟩
  | 90 => ⟨S3200000, .f32⟩
  | 91 => ⟨S_, .i32⟩
  | 92 => ⟨S3200000, .i32⟩
  | 93 => ⟨S3200000, .i1⟩
  | 94 => ⟨S_, .i32⟩
  | 95 => ⟨S3200000, .i32⟩
  | 96 => ⟨S3200000, .i32⟩
  | 97 => ⟨S3200000, .i32⟩
  | 98 => ⟨S3200000x1, .i32⟩
  | 99 => ⟨S3200000, .f32⟩
  | 100 => ⟨S3200000, .f32⟩
  | 101 => ⟨S_, .i32⟩
  | 102 => ⟨S3200000, .i32⟩
  | 103 => ⟨S3200000, .i1⟩
  | 104 => ⟨S_, .i32⟩
  | 105 => ⟨S3200000, .i32⟩
  | 106 => ⟨S3200000, .i32⟩
  | 107 => ⟨S3200000, .i32⟩
  | 108 => ⟨S3200000x1, .i32⟩
  | 109 => ⟨S3200000x64, .f32⟩
  | 110 => ⟨S3200000x1, .f32⟩
  | 111 => ⟨S3200000x64, .f32⟩
  | 112 => ⟨S3200000x64, .f32⟩
  | 113 => ⟨S_, .f32⟩
  | 114 => ⟨S100000x64, .f32⟩
  | 115 => ⟨S3200000x1, .i32⟩
  | 116 => ⟨S100000x64, .f32⟩
  | 117 => ⟨S100000x1, .f32⟩
  | 118 => ⟨S100000x64, .f32⟩
  | 119 => ⟨S100000x64, .f32⟩
  | 120 => ⟨S100000x64, .f32⟩
  | 121 => ⟨S_, .f32⟩
  | 122 => ⟨S100000x64, .f32⟩
  | 123 => ⟨S100000x64, .f32⟩
  | 124 => ⟨S100000x64, .f32⟩
  | 125 => ⟨S1x64, .f32⟩
  | 126 => ⟨S100000x64, .f32⟩
  | 127 => ⟨S100000x64, .f32⟩
  | _ => ⟨S100000x256, .f32⟩

abbrev hbmTy0_1 (i : Nat) : BufTy := match i % 128 with
  | 0 => ⟨S_, .f32⟩
  | 1 => ⟨S100000x64, .f32⟩
  | 2 => ⟨S100000x64, .f32⟩
  | 3 => ⟨S100000x1, .f32⟩
  | 4 => ⟨S1x1, .f32⟩
  | 5 => ⟨S100000x1, .f32⟩
  | 6 => ⟨S100000x1, .f32⟩
  | 7 => ⟨S100000x1, .f32⟩
  | 8 => ⟨S1x1, .f32⟩
  | 9 => ⟨S100000x1, .f32⟩
  | 10 => ⟨S100000x1, .f32⟩
  | 11 => ⟨S100000x1, .f32⟩
  | 12 => ⟨S1x1, .f32⟩
  | 13 => ⟨S100000x1, .f32⟩
  | 14 => ⟨S100000x1, .f32⟩
  | 15 => ⟨S100000x64, .f32⟩
  | 16 => ⟨S100000x64, .f32⟩
  | 17 => ⟨S100000x64, .f32⟩
  | 18 => ⟨S100000x64, .f32⟩
  | 19 => ⟨S100000x64, .f32⟩
  | 20 => ⟨S100000x64, .f32⟩
  | 21 => ⟨S100000x64, .f32⟩
  | 22 => ⟨S100000x64, .f32⟩
  | 23 => ⟨S_, .f32⟩
  | 24 => ⟨S100000, .f32⟩
  | 25 => ⟨S_, .f32⟩
  | 26 => ⟨S100000, .f32⟩
  | 27 => ⟨S100000, .f32⟩
  | 28 => ⟨S100000x1, .f32⟩
  | 29 => ⟨S100000x64, .f32⟩
  | 30 => ⟨S100000x64, .f32⟩
  | 31 => ⟨S100000x64, .f32⟩
  | 32 => ⟨S_, .f32⟩
  | 33 => ⟨S100000, .f32⟩
  | 34 => ⟨S100000x1, .f32⟩
  | 35 => ⟨S100000x1, .f32⟩
  | 36 => ⟨S100000x64, .f32⟩
  | 37 => ⟨S100000x64, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_call0_cst : Ref sig .tc := ⟨.hbm, 75, rfl⟩
abbrev main_call0_v0 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_c_9 : Ref sig .tc := ⟨.hbm, 82, rfl⟩
abbrev main_v55 : Ref sig .tc := ⟨.hbm, 83, rfl⟩
abbrev main_v56 : Ref sig .tc := ⟨.hbm, 84, rfl⟩
abbrev main_c_10 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_c_11 : Ref sig .tc := ⟨.hbm, 91, rfl⟩
abbrev main_v62 : Ref sig .tc := ⟨.hbm, 92, rfl⟩
abbrev main_v63 : Ref sig .tc := ⟨.hbm, 93, rfl⟩
abbrev main_c_12 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_13 : Ref sig .tc := ⟨.hbm, 101, rfl⟩
abbrev main_v70 : Ref sig .tc := ⟨.hbm, 102, rfl⟩
abbrev main_v71 : Ref sig .tc := ⟨.hbm, 103, rfl⟩
abbrev main_c_14 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_15 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_call1_cst : Ref sig .tc := ⟨.hbm, 121, rfl⟩
abbrev main_call1_v0 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_call2_cst : Ref sig .tc := ⟨.hbm, 128, rfl⟩
abbrev main_call2_v0 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_call3_cst : Ref sig .tc := ⟨.hbm, 151, rfl⟩
abbrev main_call3_v0 : Ref sig .tc := ⟨.hbm, 152, rfl⟩
abbrev main_call3_cst_0 : Ref sig .tc := ⟨.hbm, 153, rfl⟩
abbrev main_call3_v1 : Ref sig .tc := ⟨.hbm, 154, rfl⟩
abbrev main_call3_v2 : Ref sig .tc := ⟨.hbm, 155, rfl⟩
abbrev main_call3_v3 : Ref sig .tc := ⟨.hbm, 156, rfl⟩
abbrev main_call3_v4 : Ref sig .tc := ⟨.hbm, 157, rfl⟩
abbrev main_call3_v5 : Ref sig .tc := ⟨.hbm, 158, rfl⟩
abbrev main_call3_v6 : Ref sig .tc := ⟨.hbm, 159, rfl⟩
abbrev main_call3_cst_1 : Ref sig .tc := ⟨.hbm, 160, rfl⟩
abbrev main_call3_v7 : Ref sig .tc := ⟨.hbm, 161, rfl⟩
abbrev main_call3_v8 : Ref sig .tc := ⟨.hbm, 162, rfl⟩
abbrev main_call3_v9 : Ref sig .tc := ⟨.hbm, 163, rfl⟩
abbrev main_call3_v10 : Ref sig .tc := ⟨.hbm, 164, rfl⟩
abbrev main_v113 : Ref sig .tc := ⟨.hbm, 165, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x64_S100000_d1 : S100000x64.ReducesTo [1] S100000
  h_S_ : 0 < S_.numel
  scatter_S100000_S3200000x1_S3200000_n_0_0_1_wf : ScatterDims.WF S100000 S3200000x1 S3200000 [] [0] [0] 1
  dot_S100000x256_S256x64_S100000x64_1_0_0_1_n_n_wf : DotDims.WF S100000x256 S256x64 S100000x64 [1] [0] [0] [1] [] []
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x1_S100000x1_1_0_0_1_n_n_wf : DotDims.WF S100000x64 S64x1 S100000x1 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The idealized kernel's run with every buffer named.

  The program is four stretches: host operations, the projection call, host operations, the combine call.
  The contents of the TensorCore's buffers at each boundary are a fold through these stretches: a stretch of host
  operations applies its operations' pure functions, and a call leaves each of its arrays at what its blocks'
  write-backs leave. Every weakly fair execution terminates without a fault, and at the end every buffer that is
  not scoped to a call holds the last boundary's contents. The arguments' and the result's values are read off
  these contents elsewhere.
-/
import proofs.«180817_j34041910788577_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and its final state holds, in every
    buffer not scoped to a call, the contents at the last boundary of the fold through the four stretches. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Whole

end
-- ==== Proof.Spec.lean ====
/-
  The network as functions on the extended reals, index by index.

  A node's three projections are affine maps of its feature row:  h(p, q) = Σ_k x(p, k) · W(k, q) + b(q).
  From three arrays Hh, Hl, Hi of shape [n, o] (the rectified high-pass, low-pass and identity branches) each node p
  gets three scalar gates,  g(p) = Σ_k H(p, k) · w(k) + β,  and its mixed row is
      y(p, q) = gh(p) · Hh(p, q) + gl(p) · Hl(p, q) + gi(p) · Hi(p, q).
  The result is the row-wise log-softmax of y in its shifted form: with  t(p) = max over q of y(p, q)  (folded from
  the float word of -inf),
      out(p, q) = (y(p, q) - t(p)) - log Σ_q' exp (y(p, q') - t(p)).
  Float literals are kept as their words: both programs use the same words, so they are never evaluated.
-/
import Idealize.ShloMosaic.PureOps.Ideal.Laws
import Idealize.ShloMosaic.Lib.ValueIdx

noncomputable section

open scoped BigOperators

namespace Cert.Spec

open Idealize.ShloMosaic Idealize.ShloMosaic.ValueIdx

variable {n d o : Nat}

/-- The float word of zero, as an extended real. -/
abbrev zw : EReal := Ideal.ofBits .f32 0x00000000#32
/-- The float word of -inf, as an extended real. -/
abbrev ninf : EReal := Ideal.ofBits .f32 0xFF800000#32

/-- The affine map of every row:  Σ_k x(p, k) · W(k, q) + b(q). -/
def affine (x : (⟨2, ![n, d]⟩ : Shape).Idx → EReal) (w : (⟨2, ![d, o]⟩ : Shape).Idx → EReal) (b : Fin o → EReal) :
    (⟨2, ![n, o]⟩ : Shape).Idx → EReal :=
  fun i => (∑ k : Fin d, x (ix2 (i 0) k) * w (ix2 k (i 1))) + b (i 1)

theorem affine_apply (x : (⟨2, ![n, d]⟩ : Shape).Idx → EReal) (w : (⟨2, ![d, o]⟩ : Shape).Idx → EReal) (b : Fin o → EReal)
    (p : Fin n) (q : Fin o) : affine x w b (ix2 p q) = (∑ k : Fin d, x (ix2 p k) * w (ix2 k q)) + b q := rfl

/-- The entrywise maximum with the zero word. -/
def relu (h : (⟨2, ![n, o]⟩ : Shape).Idx → EReal) : (⟨2, ![n, o]⟩ : Shape).Idx → EReal := fun i => max (h i) zw

theorem relu_apply (h : (⟨2, ![n, o]⟩ : Shape).Idx → EReal) (i : (⟨2, ![n, o]⟩ : Shape).Idx) : relu h i = max (h i) zw := rfl

/-- The high-pass branch before its cut: the projection less its aggregate. -/
def diff (h a : (⟨2, ![n, o]⟩ : Shape).Idx → EReal) : (⟨2, ![n, o]⟩ : Shape).Idx → EReal := fun i => h i - a i

theorem diff_apply (h a : (⟨2, ![n, o]⟩ : Shape).Idx → EReal) (i : (⟨2, ![n, o]⟩ : Shape).Idx) : diff h a i = h i - a i := rfl

/-- A node's gate:  Σ_k H(p, k) · w(k) + β. -/
def gate (H : (⟨2, ![n, o]⟩ : Shape).Idx → EReal) (w : Fin o → EReal) (β : EReal) (p : Fin n) : EReal :=
  (∑ k : Fin o, H (ix2 p k) * w k) + β

/-- The gated mixture of the three branches. -/
def mix (Hh Hl Hi : (⟨2, ![n, o]⟩ : Shape).Idx → EReal) (wh wl wi : Fin o → EReal) (βh βl βi : EReal) :
    (⟨2, ![n, o]⟩ : Shape).Idx → EReal :=
  fun i => (gate Hh wh βh (i 0) * Hh i + gate Hl wl βl (i 0) * Hl i) + gate Hi wi βi (i 0) * Hi i

theorem mix_apply (Hh Hl Hi : (⟨2, ![n, o]⟩ : Shape).Idx → EReal) (wh wl wi : Fin o → EReal) (βh βl βi : EReal)
    (p : Fin n) (q : Fin o) :
    mix Hh Hl Hi wh wl wi βh βl βi (ix2 p q)
      = (gate Hh wh βh p * Hh (ix2 p q) + gate Hl wl βl p * Hl (ix2 p q)) + gate Hi wi βi p * Hi (ix2 p q) := rfl

/-- A row's maximum, folded from the word of -inf. -/
def rowTop (Y : (⟨2, ![n, o]⟩ : Shape).Idx → EReal) (p : Fin n) : EReal :=
  (Finset.univ : Finset (Fin o)).fold max ninf (fun q => Y (ix2 p q))

/-- The row-wise log-softmax in its shifted form. -/
def logSoftmax (Y : (⟨2, ![n, o]⟩ : Shape).Idx → EReal) : (⟨2, ![n, o]⟩ : Shape).Idx → EReal :=
  fun i => (Y i - rowTop Y (i 0)) - Ideal.log (∑ q : Fin o, Ideal.exp (Y (ix2 (i 0) q) - rowTop Y (i 0)))

theorem logSoftmax_apply (Y : (⟨2, ![n, o]⟩ : Shape).Idx → EReal) (p : Fin n) (q : Fin o) :
    logSoftmax Y (ix2 p q)
      = (Y (ix2 p q) - rowTop Y p) - Ideal.log (∑ q' : Fin o, Ideal.exp (Y (ix2 p q') - rowTop Y p)) := rfl

/-- The whole tail: cut the branches, mix them, take the log-softmax. -/
def tail (h a l Hi : (⟨2, ![n, o]⟩ : Shape).Idx → EReal) (wh wl wi : Fin o → EReal) (βh βl βi : EReal) :
    (⟨2, ![n, o]⟩ : Shape).Idx → EReal :=
  logSoftmax (mix (relu (diff h a)) (relu l) Hi wh wl wi βh βl βi)

end Cert.Spec

end
-- ==== Proof.SpecRows.lean ====
/-
  Row locality: every function of the specification, at an entry (p, q), depends only on row p of its array
  arguments. So a block of rows of an array goes to the same block of rows of the result, which is what lets a
  kernel that works on 5000 rows at a time compute the whole-array function.
-/
import proofs.«180817_j34041910788577_1_alg».proof.Proof.Spec

noncomputable section

open scoped BigOperators

namespace Cert.Spec

open Idealize.ShloMosaic Idealize.ShloMosaic.ValueIdx

variable {n n' d o : Nat}

/-- The affine map at (p, q) reads row p of x only. -/
theorem affine_row (x : (⟨2, ![n, d]⟩ : Shape).Idx → EReal) (x' : (⟨2, ![n', d]⟩ : Shape).Idx → EReal)
    (w : (⟨2, ![d, o]⟩ : Shape).Idx → EReal) (b : Fin o → EReal) (p : Fin n) (p' : Fin n')
    (hx : ∀ k : Fin d, x (ix2 p k) = x' (ix2 p' k)) (q : Fin o) :
    affine x w b (ix2 p q) = affine x' w b (ix2 p' q) := by
  rw [affine_apply, affine_apply]
  simp only [hx]

/-- The gated mixture at (p, q) reads row p of the three branches only. -/
theorem mix_row (Hh Hl Hi : (⟨2, ![n, o]⟩ : Shape).Idx → EReal) (Hh' Hl' Hi' : (⟨2, ![n', o]⟩ : Shape).Idx → EReal)
    (wh wl wi : Fin o → EReal) (βh βl βi : EReal) (p : Fin n) (p' : Fin n')
    (hh : ∀ k : Fin o, Hh (ix2 p k) = Hh' (ix2 p' k)) (hl : ∀ k : Fin o, Hl (ix2 p k) = Hl' (ix2 p' k))
    (hi : ∀ k : Fin o, Hi (ix2 p k) = Hi' (ix2 p' k)) (q : Fin o) :
    mix Hh Hl Hi wh wl wi βh βl βi (ix2 p q) = mix Hh' Hl' Hi' wh wl wi βh βl βi (ix2 p' q) := by
  rw [mix_apply, mix_apply]
  simp only [gate, hh, hl, hi]

/-- The log-softmax at (p, q) reads row p only. -/
theorem logSoftmax_row (Y : (⟨2, ![n, o]⟩ : Shape).Idx → EReal) (Y' : (⟨2, ![n', o]⟩ : Shape).Idx → EReal)
    (p : Fin n) (p' : Fin n') (hY : ∀ k : Fin o, Y (ix2 p k) = Y' (ix2 p' k)) (q : Fin o) :
    logSoftmax Y (ix2 p q) = logSoftmax Y' (ix2 p' q) := by
  rw [logSoftmax_apply, logSoftmax_apply]
  simp only [rowTop, hY]

/-- The whole tail at (p, q) reads row p of its four arrays only. -/
theorem tail_row (h a l Hi : (⟨2, ![n, o]⟩ : Shape).Idx → EReal) (h' a' l' Hi' : (⟨2, ![n', o]⟩ : Shape).Idx → EReal)
    (wh wl wi : Fin o → EReal) (βh βl βi : EReal) (p : Fin n) (p' : Fin n')
    (hh : ∀ k : Fin o, h (ix2 p k) = h' (ix2 p' k)) (ha : ∀ k : Fin o, a (ix2 p k) = a' (ix2 p' k))
    (hl : ∀ k : Fin o, l (ix2 p k) = l' (ix2 p' k)) (hi : ∀ k : Fin o, Hi (ix2 p k) = Hi' (ix2 p' k)) (q : Fin o) :
    tail h a l Hi wh wl wi βh βl βi (ix2 p q) = tail h' a' l' Hi' wh wl wi βh βl βi (ix2 p' q) := by
  unfold tail
  refine logSoftmax_row _ _ p p' (fun k => ?_) q
  refine mix_row _ _ _ _ _ _ wh wl wi βh βl βi p p' (fun k => ?_) (fun k => ?_) hi k
  · rw [relu_apply, relu_apply, diff_apply, diff_apply, hh, ha]
  · rw [relu_apply, relu_apply, hl]

/-- The cut at zero of an affine map at (p, q) reads row p of x only. -/
theorem relu_affine_row (x : (⟨2, ![n, d]⟩ : Shape).Idx → EReal) (x' : (⟨2, ![n', d]⟩ : Shape).Idx → EReal)
    (w : (⟨2, ![d, o]⟩ : Shape).Idx → EReal) (b : Fin o → EReal) (p : Fin n) (p' : Fin n')
    (hx : ∀ k : Fin d, x (ix2 p k) = x' (ix2 p' k)) (q : Fin o) :
    relu (affine x w b) (ix2 p q) = relu (affine x' w b) (ix2 p' q) := by
  rw [relu_apply, relu_apply, affine_row x x' w b p p' hx q]

end Cert.Spec

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.Region0.lean ====
/-
  The projection call: what its three output arrays hold, as whole-array functions of the arrays it finds.

  The call runs over 20 points; point t takes rows 5000·t … 5000·t + 4999 of x, the three weight matrices and the
  three bias rows whole, and writes the same rows of three outputs. Row r of the point's block is row 5000·t + r of
  the array, so each output block is the restriction of one whole-array function: the affine map of every row
  (for the third output, cut at zero). The blocks tile the arrays, so the arrays end holding these functions.
  Rounding the operands to bf16 before the product is the identity on the extended reals.
-/
import proofs.«180817_j34041910788577_1_alg».proof.Proof.Gen.KernelIdeal.Frame
import proofs.«180817_j34041910788577_1_alg».proof.Proof.SpecRows
import proofs.«180817_j34041910788577_1_alg».proof.Proof.LibMatmulPlain
import Idealize.ShloMosaic.Lib.ValueLayout
import Idealize.ShloMosaic.Lib.Pipeline.Value

set_option maxRecDepth 16384

noncomputable section

open scoped BigOperators

namespace Cert.KernelIdeal.Proj

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-! ## The body's three stored values at an entry -/

/-- The product part shared by the three stored values: the block's row against a weight column, plus the bias row. -/
theorem lin_apply (x0 : FVec Ideal S5000x256 .f32) (x1 : FVec Ideal S256x64 .f32) (x2 : FVec Ideal S1x64 .f32)
    (r : Fin 5000) (q : Fin 64) :
    addf (matmul dot_S5000x256_S256x64_S5000x64_1_0_0_1_n_n none (k0_pay1 x0) (truncf .bf16 x1 bitsLt_bf16_f32)
        (constant (F := Ideal) S5000x64 .f32 0x00000000#32))
      (broadcastTo S5000x64 (shapeCast S1x64 x2 shapeCasts_S1x64_S1x64) broadcasts_S1x64_S5000x64) (ix2 r q)
      = (∑ k : Fin 256, x0 (ix2 r k) * x1 (ix2 k q)) + x2 (ix2 (0 : Fin 1) q) := by
  refine (addf_apply _ _ _).trans ?_
  refine congrArg₂ (· + ·) ?_ ?_
  · exact Cert.LibMatmulPlain.matmul_plain_zero_apply (M := 5000) (K := 256) (N := 64)
      dot_S5000x256_S256x64_S5000x64_1_0_0_1_n_n rfl none (k0_pay1 x0) (truncf .bf16 x1 bitsLt_bf16_f32) r q
  · refine (broadcastTo_1b_ab_apply (a := 5000) (b := 64) _ broadcasts_S1x64_S5000x64 r q).trans ?_
    rw [shapeCast_self]

theorem pay2_apply (x0 : FVec Ideal S5000x256 .f32) (x1 : FVec Ideal S256x64 .f32) (x2 : FVec Ideal S1x64 .f32)
    (r : Fin 5000) (q : Fin 64) :
    k0_pay2 (F := Ideal) x0 x1 x2 (ix2 r q) = (∑ k : Fin 256, x0 (ix2 r k) * x1 (ix2 k q)) + x2 (ix2 (0 : Fin 1) q) :=
  lin_apply x0 x1 x2 r q

theorem pay3_apply (x0 : FVec Ideal S5000x256 .f32) (x1 : FVec Ideal S256x64 .f32) (x2 : FVec Ideal S1x64 .f32)
    (r : Fin 5000) (q : Fin 64) :
    k0_pay3 (F := Ideal) x0 x1 x2 (ix2 r q) = (∑ k : Fin 256, x0 (ix2 r k) * x1 (ix2 k q)) + x2 (ix2 (0 : Fin 1) q) :=
  lin_apply x0 x1 x2 r q

theorem pay4_apply (x0 : FVec Ideal S5000x256 .f32) (x1 : FVec Ideal S256x64 .f32) (x2 : FVec Ideal S1x64 .f32)
    (r : Fin 5000) (q : Fin 64) :
    k0_pay4 (F := Ideal) x0 x1 x2 (ix2 r q)
      = max ((∑ k : Fin 256, x0 (ix2 r k) * x1 (ix2 k q)) + x2 (ix2 (0 : Fin 1) q)) zw := by
  refine (maximumf_apply _ _ _).trans ?_
  exact congrArg₂ max (lin_apply x0 x1 x2 r q) rfl

/-! ## From blocks to arrays

  `V` is the contents of the buffers when the call is entered; everything below is stated for any `V`. -/

variable (V : (c : Dev nD) → (b : Ref sig .tc) → Buf (Elt Ideal) ((c : Thread nD τ).loc b))

/-- The printed index maps over the grid: the x window and the three output windows are at block row t, column
    block 0; the weights and bias rows are at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- Row r of point t's block is row 5000·t + r of the array. -/
def rowOf (t : Fin cfg0.N) (r : Fin 5000) : Fin 100000 :=
  ⟨5000 * t.val + r.val, by have ht : t.val < 20 := t.isLt; have hr := r.isLt; omega⟩

/-- Where an entry of the x block sits in x. -/
theorem emb_x (t : Fin cfg0.N) (r : Fin 5000) (k : Fin 256) :
    ((cfg0.win 0).blk t).view.emb (ix2 r k) = ix2 (rowOf t r) k := by
  obtain ⟨e0, e1, -⟩ := idx_facts t
  funext a; apply Fin.ext
  match a with
  | ⟨0, _⟩ => show win0_0.index t (0 : Fin 2) * 5000 + 1 * r.val = 5000 * t.val + r.val; omega
  | ⟨1, _⟩ => show win0_0.index t (1 : Fin 2) * 256 + 1 * k.val = k.val; omega

/-- A weight block is the whole weight matrix. -/
theorem emb_w1 (t : Fin cfg0.N) (k : Fin 256) (q : Fin 64) : ((cfg0.win 1).blk t).view.emb (ix2 k q) = ix2 k q := by
  obtain ⟨-, -, e0, e1, -⟩ := idx_facts t
  funext a; apply Fin.ext
  match a with
  | ⟨0, _⟩ => show win0_1.index t (0 : Fin 2) * 256 + 1 * k.val = k.val; omega
  | ⟨1, _⟩ => show win0_1.index t (1 : Fin 2) * 64 + 1 * q.val = q.val; omega
theorem emb_w3 (t : Fin cfg0.N) (k : Fin 256) (q : Fin 64) : ((cfg0.win 3).blk t).view.emb (ix2 k q) = ix2 k q := by
  obtain ⟨-, -, -, -, -, -, e0, e1, -⟩ := idx_facts t
  funext a; apply Fin.ext
  match a with
  | ⟨0, _⟩ => show win0_3.index t (0 : Fin 2) * 256 + 1 * k.val = k.val; omega
  | ⟨1, _⟩ => show win0_3.index t (1 : Fin 2) * 64 + 1 * q.val = q.val; omega
theorem emb_w5 (t : Fin cfg0.N) (k : Fin 256) (q : Fin 64) : ((cfg0.win 5).blk t).view.emb (ix2 k q) = ix2 k q := by
  obtain ⟨-, -, -, -, -, -, -, -, -, -, e0, e1, -⟩ := idx_facts t
  funext a; apply Fin.ext
  match a with
  | ⟨0, _⟩ => show win0_5.index t (0 : Fin 2) * 256 + 1 * k.val = k.val; omega
  | ⟨1, _⟩ => show win0_5.index t (1 : Fin 2) * 64 + 1 * q.val = q.val; omega

/-- A bias block is the whole bias row. -/
theorem emb_b2 (t : Fin cfg0.N) (u : Fin 1) (q : Fin 64) : ((cfg0.win 2).blk t).view.emb (ix2 u q) = ix2 u q := by
  obtain ⟨-, -, -, -, e0, e1, -⟩ := idx_facts t
  funext a; apply Fin.ext
  match a with
  | ⟨0, _⟩ => show win0_2.index t (0 : Fin 2) * 1 + 1 * u.val = u.val; omega
  | ⟨1, _⟩ => show win0_2.index t (1 : Fin 2) * 64 + 1 * q.val = q.val; omega
theorem emb_b4 (t : Fin cfg0.N) (u : Fin 1) (q : Fin 64) : ((cfg0.win 4).blk t).view.emb (ix2 u q) = ix2 u q := by
  obtain ⟨-, -, -, -, -, -, -, -, e0, e1, -⟩ := idx_facts t
  funext a; apply Fin.ext
  match a with
  | ⟨0, _⟩ => show win0_4.index t (0 : Fin 2) * 1 + 1 * u.val = u.val; omega
  | ⟨1, _⟩ => show win0_4.index t (1 : Fin 2) * 64 + 1 * q.val = q.val; omega
theorem emb_b6 (t : Fin cfg0.N) (u : Fin 1) (q : Fin 64) : ((cfg0.win 6).blk t).view.emb (ix2 u q) = ix2 u q := by
  obtain ⟨-, -, -, -, -, -, -, -, -, -, -, -, e0, e1, -⟩ := idx_facts t
  funext a; apply Fin.ext
  match a with
  | ⟨0, _⟩ => show win0_6.index t (0 : Fin 2) * 1 + 1 * u.val = u.val; omega
  | ⟨1, _⟩ => show win0_6.index t (1 : Fin 2) * 64 + 1 * q.val = q.val; omega

/-- Where an entry of an output block sits in its array. -/
theorem emb_o7 (t : Fin cfg0.N) (r : Fin 5000) (q : Fin 64) : ((cfg0.win 7).blk t).view.emb (ix2 r q) = ix2 (rowOf t r) q := by
  obtain ⟨-, -, -, -, -, -, -, -, -, -, -, -, -, -, e0, e1, -⟩ := idx_facts t
  funext a; apply Fin.ext
  match a with
  | ⟨0, _⟩ => show win0_7.index t (0 : Fin 2) * 5000 + 1 * r.val = 5000 * t.val + r.val; omega
  | ⟨1, _⟩ => show win0_7.index t (1 : Fin 2) * 64 + 1 * q.val = q.val; omega
theorem emb_o8 (t : Fin cfg0.N) (r : Fin 5000) (q : Fin 64) : ((cfg0.win 8).blk t).view.emb (ix2 r q) = ix2 (rowOf t r) q := by
  obtain ⟨-, -, -, -, -, -, -, -, -, -, -, -, -, -, -, -, e0, e1, -⟩ := idx_facts t
  funext a; apply Fin.ext
  match a with
  | ⟨0, _⟩ => show win0_8.index t (0 : Fin 2) * 5000 + 1 * r.val = 5000 * t.val + r.val; omega
  | ⟨1, _⟩ => show win0_8.index t (1 : Fin 2) * 64 + 1 * q.val = q.val; omega
theorem emb_o9 (t : Fin cfg0.N) (r : Fin 5000) (q : Fin 64) : ((cfg0.win 9).blk t).view.emb (ix2 r q) = ix2 (rowOf t r) q := by
  obtain ⟨-, -, -, -, -, -, -, -, -, -, -, -, -, -, -, -, -, -, e0, e1⟩ := idx_facts t
  funext a; apply Fin.ext
  match a with
  | ⟨0, _⟩ => show win0_9.index t (0 : Fin 2) * 5000 + 1 * r.val = 5000 * t.val + r.val; omega
  | ⟨1, _⟩ => show win0_9.index t (1 : Fin 2) * 64 + 1 * q.val = q.val; omega

/-- The first output as one function of the arrays the call finds: the affine map of every row. -/
abbrev G7 (c : Dev nD) : S100000x64.Idx → EReal :=
  affine (n := 100000) (d := 256) (o := 64) (V c main_arg0) (V c main_arg2) (fun q => V c main_v13 (ix2 (0 : Fin 1) q))
abbrev G8 (c : Dev nD) : S100000x64.Idx → EReal :=
  affine (n := 100000) (d := 256) (o := 64) (V c main_arg0) (V c main_arg4) (fun q => V c main_v14 (ix2 (0 : Fin 1) q))
abbrev G9 (c : Dev nD) : S100000x64.Idx → EReal :=
  relu (affine (n := 100000) (d := 256) (o := 64) (V c main_arg0) (V c main_arg6) (fun q => V c main_v15 (ix2 (0 : Fin 1) q)))

/-! ### The blocks the body loads, read in the arrays -/

theorem blk_x (c : Dev nD) (t : Fin cfg0.N) (r : Fin 5000) (k : Fin 256) :
    iblk0 V c 0 t (ix2 r k) = V c main_arg0 (ix2 (rowOf t r) k) := by
  show V c main_arg0 (((cfg0.win 0).blk t).view.emb (ix2 r k)) = _
  rw [emb_x]
theorem blk_w1 (c : Dev nD) (t : Fin cfg0.N) (k : Fin 256) (q : Fin 64) : iblk0 V c 1 t (ix2 k q) = V c main_arg2 (ix2 k q) := by
  show V c main_arg2 (((cfg0.win 1).blk t).view.emb (ix2 k q)) = _
  rw [emb_w1]
theorem blk_w3 (c : Dev nD) (t : Fin cfg0.N) (k : Fin 256) (q : Fin 64) : iblk0 V c 3 t (ix2 k q) = V c main_arg4 (ix2 k q) := by
  show V c main_arg4 (((cfg0.win 3).blk t).view.emb (ix2 k q)) = _
  rw [emb_w3]
theorem blk_w5 (c : Dev nD) (t : Fin cfg0.N) (k : Fin 256) (q : Fin 64) : iblk0 V c 5 t (ix2 k q) = V c main_arg6 (ix2 k q) := by
  show V c main_arg6 (((cfg0.win 5).blk t).view.emb (ix2 k q)) = _
  rw [emb_w5]
theorem blk_b2 (c : Dev nD) (t : Fin cfg0.N) (u : Fin 1) (q : Fin 64) : iblk0 V c 2 t (ix2 u q) = V c main_v13 (ix2 u q) := by
  show V c main_v13 (((cfg0.win 2).blk t).view.emb (ix2 u q)) = _
  rw [emb_b2]
theorem blk_b4 (c : Dev nD) (t : Fin cfg0.N) (u : Fin 1) (q : Fin 64) : iblk0 V c 4 t (ix2 u q) = V c main_v14 (ix2 u q) := by
  show V c main_v14 (((cfg0.win 4).blk t).view.emb (ix2 u q)) = _
  rw [emb_b4]
theorem blk_b6 (c : Dev nD) (t : Fin cfg0.N) (u : Fin 1) (q : Fin 64) : iblk0 V c 6 t (ix2 u q) = V c main_v15 (ix2 u q) := by
  show V c main_v15 (((cfg0.win 6).blk t).view.emb (ix2 u q)) = _
  rw [emb_b6]

/-- What point t writes back to the first output is block t of `G7`. -/
theorem flushed7_eq (c : Dev nD) (t : Fin cfg0.N) :
    (dat0 V c).flushed 7 t = ((cfg0.win 7).blk t).view.read (Elt Ideal) (G7 V c) := by
  show (cfg0.win 7).cut (grid0.coords t) ((dat0 V c).after 7 t) = _
  rw [after0_7]
  unfold out0_7
  rw [View.canon_unit_zero hz]
  simp only [View.ld_unit_zero (S := S5000x256) hz, View.ld_unit_zero (S := S256x64) hz, View.ld_unit_zero (S := S1x64) hz]
  funext j
  obtain ⟨r, q, rfl⟩ : ∃ (r : Fin 5000) (q : Fin 64), j = ix2 r q := ⟨j 0, j 1, eq_ix2 j⟩
  show k0_pay2 (F := Ideal) (iblk0 V c 0 t) (iblk0 V c 1 t) (iblk0 V c 2 t) (ix2 r q) = G7 V c (((cfg0.win 7).blk t).view.emb (ix2 r q))
  rw [emb_o7]
  refine (pay2_apply _ _ _ r q).trans ?_
  simp only [blk_x, blk_w1, blk_b2]
  rfl

/-- What point t writes back to the second output is block t of `G8`. -/
theorem flushed8_eq (c : Dev nD) (t : Fin cfg0.N) :
    (dat0 V c).flushed 8 t = ((cfg0.win 8).blk t).view.read (Elt Ideal) (G8 V c) := by
  show (cfg0.win 8).cut (grid0.coords t) ((dat0 V c).after 8 t) = _
  rw [after0_8]
  unfold out0_8
  rw [View.canon_unit_zero hz]
  simp only [View.ld_unit_zero (S := S5000x256) hz, View.ld_unit_zero (S := S256x64) hz, View.ld_unit_zero (S := S1x64) hz]
  funext j
  obtain ⟨r, q, rfl⟩ : ∃ (r : Fin 5000) (q : Fin 64), j = ix2 r q := ⟨j 0, j 1, eq_ix2 j⟩
  show k0_pay3 (F := Ideal) (iblk0 V c 0 t) (iblk0 V c 3 t) (iblk0 V c 4 t) (ix2 r q) = G8 V c (((cfg0.win 8).blk t).view.emb (ix2 r q))
  rw [emb_o8]
  refine (pay3_apply _ _ _ r q).trans ?_
  simp only [blk_x, blk_w3, blk_b4]
  rfl

/-- What point t writes back to the third output is block t of `G9`. -/
theorem flushed9_eq (c : Dev nD) (t : Fin cfg0.N) :
    (dat0 V c).flushed 9 t = ((cfg0.win 9).blk t).view.read (Elt Ideal) (G9 V c) := by
  show (cfg0.win 9).cut (grid0.coords t) ((dat0 V c).after 9 t) = _
  rw [after0_9]
  unfold out0_9
  rw [View.canon_unit_zero hz]
  simp only [View.ld_unit_zero (S := S5000x256) hz, View.ld_unit_zero (S := S256x64) hz, View.ld_unit_zero (S := S1x64) hz]
  funext j
  obtain ⟨r, q, rfl⟩ : ∃ (r : Fin 5000) (q : Fin 64), j = ix2 r q := ⟨j 0, j 1, eq_ix2 j⟩
  show k0_pay4 (F := Ideal) (iblk0 V c 0 t) (iblk0 V c 5 t) (iblk0 V c 6 t) (ix2 r q) = G9 V c (((cfg0.win 9).blk t).view.emb (ix2 r q))
  rw [emb_o9]
  refine (pay4_apply _ _ _ r q).trans ?_
  simp only [blk_x, blk_w5, blk_b6]
  rfl

/-! ### The output blocks tile their arrays -/

/-- An index is in point t's block of an output iff its row is among the block's 5000 rows. -/
theorem mem_blk7 (t : Fin cfg0.N) (i : S100000x64.Idx) :
    i ∈ ((cfg0.win 7).blk t).view.set ↔ ∀ a : Fin 2, win0_7.index t a * S5000x64.size a ≤ (i a).val ∧ (i a).val < win0_7.index t a * S5000x64.size a + S5000x64.size a := by
  show i ∈ ((View.whole main_v16_0).slice (win0_7.rect t)).set ↔ _
  rw [View.set_slice_whole, Rect.mem_set_unit]
  exact Iff.rfl
theorem mem_blk8 (t : Fin cfg0.N) (i : S100000x64.Idx) :
    i ∈ ((cfg0.win 8).blk t).view.set ↔ ∀ a : Fin 2, win0_8.index t a * S5000x64.size a ≤ (i a).val ∧ (i a).val < win0_8.index t a * S5000x64.size a + S5000x64.size a := by
  show i ∈ ((View.whole main_v16_1).slice (win0_8.rect t)).set ↔ _
  rw [View.set_slice_whole, Rect.mem_set_unit]
  exact Iff.rfl
theorem mem_blk9 (t : Fin cfg0.N) (i : S100000x64.Idx) :
    i ∈ ((cfg0.win 9).blk t).view.set ↔ ∀ a : Fin 2, win0_9.index t a * S5000x64.size a ≤ (i a).val ∧ (i a).val < win0_9.index t a * S5000x64.size a + S5000x64.size a := by
  show i ∈ ((View.whole main_v16_2).slice (win0_9.rect t)).set ↔ _
  rw [View.set_slice_whole, Rect.mem_set_unit]
  exact Iff.rfl

/-- The point whose block holds row p: p / 5000. -/
def pointOf (i : S100000x64.Idx) : Fin cfg0.N :=
  ⟨(i 0).val / 5000, by have h : (i 0).val < 100000 := (i 0).isLt; show (i 0).val / 5000 < 20; omega⟩

theorem cover7 (i : S100000x64.Idx) : ∃ t : Fin cfg0.N, (cfg0.win 7).flush t = true ∧ i ∈ ((cfg0.win 7).blk t).view.set := by
  refine ⟨pointOf i, flush0_7 _, ?_⟩
  rw [mem_blk7]
  obtain ⟨-, -, -, -, -, -, -, -, -, -, -, -, -, -, e0, e1, -⟩ := idx_facts (pointOf i)
  have hv : (pointOf i).val = (i 0).val / 5000 := rfl
  have h0 : (i 0).val < 100000 := (i 0).isLt
  have h1 : (i 1).val < 64 := (i 1).isLt
  intro a
  match a with
  | ⟨0, _⟩ => show win0_7.index (pointOf i) (0 : Fin 2) * 5000 ≤ (i 0).val ∧ (i 0).val < win0_7.index (pointOf i) (0 : Fin 2) * 5000 + 5000; omega
  | ⟨1, _⟩ => show win0_7.index (pointOf i) (1 : Fin 2) * 64 ≤ (i 1).val ∧ (i 1).val < win0_7.index (pointOf i) (1 : Fin 2) * 64 + 64; omega
theorem cover8 (i : S100000x64.Idx) : ∃ t : Fin cfg0.N, (cfg0.win 8).flush t = true ∧ i ∈ ((cfg0.win 8).blk t).view.set := by
  refine ⟨pointOf i, flush0_8 _, ?_⟩
  rw [mem_blk8]
  obtain ⟨-, -, -, -, -, -, -, -, -, -, -, -, -, -, -, -, e0, e1, -⟩ := idx_facts (pointOf i)
  have hv : (pointOf i).val = (i 0).val / 5000 := rfl
  have h0 : (i 0).val < 100000 := (i 0).isLt
  have h1 : (i 1).val < 64 := (i 1).isLt
  intro a
  match a with
  | ⟨0, _⟩ => show win0_8.index (pointOf i) (0 : Fin 2) * 5000 ≤ (i 0).val ∧ (i 0).val < win0_8.index (pointOf i) (0 : Fin 2) * 5000 + 5000; omega
  | ⟨1, _⟩ => show win0_8.index (pointOf i) (1 : Fin 2) * 64 ≤ (i 1).val ∧ (i 1).val < win0_8.index (pointOf i) (1 : Fin 2) * 64 + 64; omega
theorem cover9 (i : S100000x64.Idx) : ∃ t : Fin cfg0.N, (cfg0.win 9).flush t = true ∧ i ∈ ((cfg0.win 9).blk t).view.set := by
  refine ⟨pointOf i, flush0_9 _, ?_⟩
  rw [mem_blk9]
  obtain ⟨-, -, -, -, -, -, -, -, -, -, -, -, -, -, -, -, -, -, e0, e1⟩ := idx_facts (pointOf i)
  have hv : (pointOf i).val = (i 0).val / 5000 := rfl
  have h0 : (i 0).val < 100000 := (i 0).isLt
  have h1 : (i 1).val < 64 := (i 1).isLt
  intro a
  match a with
  | ⟨0, _⟩ => show win0_9.index (pointOf i) (0 : Fin 2) * 5000 ≤ (i 0).val ∧ (i 0).val < win0_9.index (pointOf i) (0 : Fin 2) * 5000 + 5000; omega
  | ⟨1, _⟩ => show win0_9.index (pointOf i) (1 : Fin 2) * 64 ≤ (i 1).val ∧ (i 1).val < win0_9.index (pointOf i) (1 : Fin 2) * 64 + 64; omega

/-! ### The three arrays after the call -/

theorem final7 (c : Dev nD) : (dat0 V c).arrAt 7 cfg0.N = G7 V c :=
  (dat0 V c).arrAt_eq_of_cover 7 (G7 V c) (fun t _ => flushed7_eq V c t) cover7
theorem final8 (c : Dev nD) : (dat0 V c).arrAt 8 cfg0.N = G8 V c :=
  (dat0 V c).arrAt_eq_of_cover 8 (G8 V c) (fun t _ => flushed8_eq V c t) cover8
theorem final9 (c : Dev nD) : (dat0 V c).arrAt 9 cfg0.N = G9 V c :=
  (dat0 V c).arrAt_eq_of_cover 9 (G9 V c) (fun t _ => flushed9_eq V c t) cover9

end Cert.KernelIdeal.Proj

end
-- ==== Proof.LibRows.lean ====
/-
  Layout operations and lane sums read at an index written by coordinates.

  * A three-axis array [a, b, c] taken as the matrix [a·b, c] whose row p·b + k is the array's row (p, k), and back.
  * A matrix [a, c] given a middle unit axis and repeated b times along it: entry (p, k, q) is the matrix's (p, q).
  * A matrix [a, b] given a trailing unit axis and repeated c times along it: entry (p, k, q) is the matrix's (p, k).
  * A vector [a] given a trailing unit axis, and a column [a, 1] repeated c times along it: entry (p, q) is the vector's p.
  * Over the extended reals, a sum over the middle axis of [a, b, c] at (p, q) is Σ_k of the array at (p, k, q), and a sum
    over the last axis of [a, c] at p is Σ_q of the matrix at (p, q); both from the zero accumulator.
  Every statement is generic in the extents; the row number of the flattened matrix is passed with its equation.
-/
import Idealize.ShloMosaic.Lib.Pipeline.Value
import Idealize.ShloMosaic.Lib.ValueIdx
import Idealize.ShloMosaic.PureOps.Ideal.Laws

noncomputable section

open scoped BigOperators

namespace Cert.LibRows

open Idealize.ShloMosaic Idealize.ShloMosaic.ValueIdx

variable {α : Type}

/-- [a, b, c] as the matrix [n, c], n = a·b: the matrix's row r = p·b + k is the array's row (p, k). -/
theorem flatten_rows_apply {a b c n : Nat} (x : (⟨3, ![a, b, c]⟩ : Shape).Idx → α)
    (h : (⟨3, ![a, b, c]⟩ : Shape).ShapeCasts ⟨2, ![n, c]⟩) (p : Fin a) (k : Fin b) (q : Fin c) (r : Fin n)
    (hr : r.val = p.val * b + k.val) :
    shapeCast ⟨2, ![n, c]⟩ x h (ix2 r q) = x (ix3 p k q) :=
  shapeCast_apply x h _ _ (by
    rw [Shape.rowMajor_val_three, Shape.rowMajor_val_two]
    show (p.val * b + k.val) * c + q.val = r.val * c + q.val
    rw [hr])

/-- The matrix [n, c], n = a·b, as [a, b, c]: entry (p, k, q) is the matrix's row r = p·b + k at column q. -/
theorem unflatten_rows_apply {a b c n : Nat} (x : (⟨2, ![n, c]⟩ : Shape).Idx → α)
    (h : (⟨2, ![n, c]⟩ : Shape).ShapeCasts ⟨3, ![a, b, c]⟩) (p : Fin a) (k : Fin b) (q : Fin c) (r : Fin n)
    (hr : r.val = p.val * b + k.val) :
    shapeCast ⟨3, ![a, b, c]⟩ x h (ix3 p k q) = x (ix2 r q) :=
  shapeCast_apply x h _ _ (by
    rw [Shape.rowMajor_val_two, Shape.rowMajor_val_three]
    show r.val * c + q.val = (p.val * b + k.val) * c + q.val
    rw [hr])

/-- [a, c] given a middle unit axis. -/
theorem insert_mid_apply {a c : Nat} (x : (⟨2, ![a, c]⟩ : Shape).Idx → α)
    (h : (⟨2, ![a, c]⟩ : Shape).ShapeCasts ⟨3, ![a, 1, c]⟩) (p : Fin a) (u : Fin 1) (q : Fin c) :
    shapeCast ⟨3, ![a, 1, c]⟩ x h (ix3 p u q) = x (ix2 p q) :=
  shapeCast_apply x h _ _ (by
    have hu : u.val = 0 := by omega
    rw [Shape.rowMajor_val_two, Shape.rowMajor_val_three]
    show p.val * c + q.val = (p.val * 1 + u.val) * c + q.val
    rw [hu, Nat.mul_one, Nat.add_zero])

/-- [a, 1, c] repeated along its middle axis. -/
theorem bcast_mid_apply {a b c : Nat} (x : (⟨3, ![a, 1, c]⟩ : Shape).Idx → α)
    (h : (⟨3, ![a, 1, c]⟩ : Shape).Broadcasts ⟨3, ![a, b, c]⟩) (p : Fin a) (k : Fin b) (q : Fin c) :
    broadcastTo ⟨3, ![a, b, c]⟩ x h (ix3 p k q) = x (ix3 p (0 : Fin 1) q) :=
  broadcastTo_apply x h _ _ (fun ax => match ax with
    | ⟨0, _⟩ => by
        show p.val = if a = 1 then 0 else p.val
        have := p.isLt
        split_ifs <;> omega
    | ⟨1, _⟩ => by show 0 = if (1 : Nat) = 1 then 0 else k.val; rw [if_pos rfl]
    | ⟨2, _⟩ => by
        show q.val = if c = 1 then 0 else q.val
        have := q.isLt
        split_ifs <;> omega)

/-- [a, b] given a trailing unit axis. -/
theorem append_unit_apply {a b : Nat} (x : (⟨2, ![a, b]⟩ : Shape).Idx → α)
    (h : (⟨2, ![a, b]⟩ : Shape).ShapeCasts ⟨3, ![a, b, 1]⟩) (p : Fin a) (k : Fin b) (u : Fin 1) :
    shapeCast ⟨3, ![a, b, 1]⟩ x h (ix3 p k u) = x (ix2 p k) :=
  shapeCast_apply x h _ _ (by
    have hu : u.val = 0 := by omega
    rw [Shape.rowMajor_val_two, Shape.rowMajor_val_three]
    show p.val * b + k.val = (p.val * b + k.val) * 1 + u.val
    rw [hu, Nat.mul_one, Nat.add_zero])

/-- [a, b, 1] repeated along its last axis. -/
theorem bcast_last_apply {a b c : Nat} (x : (⟨3, ![a, b, 1]⟩ : Shape).Idx → α)
    (h : (⟨3, ![a, b, 1]⟩ : Shape).Broadcasts ⟨3, ![a, b, c]⟩) (p : Fin a) (k : Fin b) (q : Fin c) :
    broadcastTo ⟨3, ![a, b, c]⟩ x h (ix3 p k q) = x (ix3 p k (0 : Fin 1)) :=
  broadcastTo_apply x h _ _ (fun ax => match ax with
    | ⟨0, _⟩ => by
        show p.val = if a = 1 then 0 else p.val
        have := p.isLt
        split_ifs <;> omega
    | ⟨1, _⟩ => by
        show k.val = if b = 1 then 0 else k.val
        have := k.isLt
        split_ifs <;> omega
    | ⟨2, _⟩ => by show 0 = if (1 : Nat) = 1 then 0 else q.val; rw [if_pos rfl])

/-- A vector [a] as the column [a, 1]. -/
theorem col_cast_apply {a : Nat} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column [a, 1] repeated along its unit axis. -/
theorem bcast_col_apply {a c : Nat} (x : (⟨2, ![a, 1]⟩ : Shape).Idx → α)
    (h : (⟨2, ![a, 1]⟩ : Shape).Broadcasts ⟨2, ![a, c]⟩) (p : Fin a) (q : Fin c) :
    broadcastTo ⟨2, ![a, c]⟩ x h (ix2 p q) = x (ix2 p (0 : Fin 1)) :=
  broadcastTo_apply x h _ _ (fun ax => match ax with
    | ⟨0, _⟩ => by
        show p.val = if a = 1 then 0 else p.val
        have := p.isLt
        split_ifs <;> omega
    | ⟨1, _⟩ => by show 0 = if (1 : Nat) = 1 then 0 else q.val; rw [if_pos rfl])

/-- The sum over the middle axis of [a, b, c], from the zero accumulator, at (p, q). -/
theorem lane_sum_mid_apply {a b c : Nat} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (p : Fin a) (q : Fin c) :
    multiReduction .add [1] ⟨2, ![a, c]⟩ src 0x00000000#32 h hφ hacc (ix2 p q) = ∑ k : Fin b, src (ix3 p k q) := by
  refine (Ideal.multiReduction_add_single src 0x00000000#32 h hφ hacc (ix2 p q)).trans ?_
  exact Finset.sum_congr rfl fun k _ => congrArg src (funext fun ax => Fin.ext (by
    match ax with
    | ⟨0, _⟩ => rfl
    | ⟨1, _⟩ => rfl
    | ⟨2, _⟩ => rfl))

/-- The sum over the last axis of [a, c], from the zero accumulator, at p. -/
theorem lane_sum_last_apply {a c : Nat} (src : FVec Ideal ⟨2, ![a, c]⟩ .f32)
    (h : (⟨2, ![a, c]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ q : Fin c, src (ix2 p q) := by
  refine (Ideal.multiReduction_add_single src 0x00000000#32 h hφ hacc (ix1 p)).trans ?_
  exact Finset.sum_congr rfl fun q _ => congrArg src (funext fun ax => Fin.ext (by
    match ax with
    | ⟨0, _⟩ => rfl
    | ⟨1, _⟩ => rfl))

end Cert.LibRows

end
-- ==== Proof.LibRowMax.lean ====
/-
  The largest entry of each row of a matrix, read at a row.

  A kernel takes the maximum over the last axis of an [a, c] matrix by a lane reduction from an accumulator word; the
  host takes it by a reduce whose body is the maximum, from an initial value held in a rank-0 array. Over the extended
  reals both are, at row p, the fold of `max` from the starting value over the c entries (p, q) of that row, in any
  order. Generic in a and c; the host form takes the witness that names the inserted coordinate as an argument.
-/
import Idealize.ShloMosaic.PureOps.Ideal.Laws
import Idealize.ShloMosaic.Lib.ValueIdx

noncomputable section

namespace Cert.LibRowMax

open Idealize.ShloMosaic Idealize.ShloMosaic.ValueIdx

/-- The index of row `p` with the column `q` put back is `(p, q)`. -/
theorem lift_last {a c : Nat} (h : (⟨2, ![a, c]⟩ : Shape).Reduces [1] ⟨1, ![a]⟩) (p : Fin a) (q : Fin c) :
    h.lift (ix1 p) q = ix2 p q :=
  funext fun ax => Fin.ext (by
    match ax with
    | ⟨0, _⟩ => rfl
    | ⟨1, _⟩ => rfl)

/-- A lane maximum over the last axis of [a, c], from the accumulator word `acc`, at row `p`. -/
theorem lane_max_last_apply {a c : Nat} (src : FVec Ideal ⟨2, ![a, c]⟩ .f32) (acc : BitVec 32)
    (h : (⟨2, ![a, c]⟩ : Shape).Reduces [1] ⟨1, ![a]⟩) (hφ : FKind.Formats .f32)
    (hacc : acc = FKind.maximumf.neutral .f32 hφ) (p : Fin a) :
    multiReduction .maximumf [1] ⟨1, ![a]⟩ src acc h hφ hacc (ix1 p)
      = (Finset.univ : Finset (Fin c)).fold max (Ideal.ofBits .f32 acc) (fun q => src (ix2 p q)) := by
  refine (Ideal.multiReduction_maximumf_single src acc h hφ hacc (ix1 p)).trans ?_
  exact Finset.fold_congr fun q _ => congrArg src (lift_last h p q)

/-- The host's reduce with the maximum as its body over the last axis of [a, c], from the initial value `init`, at
    row `p`. -/
theorem host_max_last_apply {a c : Nat} {u : Shape} (x : FVec Ideal ⟨2, ![a, c]⟩ .f32) (init : FVec Ideal u .f32)
    (h' : (⟨2, ![a, c]⟩ : Shape).ReducesTo [1] ⟨1, ![a]⟩) (h : (⟨2, ![a, c]⟩ : Shape).Reduces [1] ⟨1, ![a]⟩)
    (hu : 0 < u.numel) (p : Fin a) :
    Host.reduce (FloatOps.maximumf (F := Ideal) (φ := .f32)) x init h' hu (ix1 p)
      = (Finset.univ : Finset (Fin c)).fold max (init (Shape.Idx.first hu)) (fun q => x (ix2 p q)) := by
  refine (Host.reduce_eq_fold_single (FloatOps.maximumf (F := Ideal) (φ := .f32)) x init h' h hu (ix1 p)).trans ?_
  exact Finset.fold_congr fun q _ => congrArg x (lift_last h p q)

end Cert.LibRowMax

end
-- ==== Proof.CombineBody.lean ====
/-
  The second body on one block of 5000 rows by 64 lanes, read entry by entry over the extended reals.

  From the projection block h, the high-pass aggregate a, the low-pass aggregate l and the identity branch Hi, three
  weight rows wh, wl, wi of 64 lanes and three biases βh, βl, βi, the body forms
      Hh(p, q) = max (h(p, q) - a(p, q)) 0,      Hl(p, q) = max (l(p, q)) 0,
  a gate per row and branch,  g(p) = Σ_k H(p, k) · w(k) + β,  the mixed row
      y(p, q) = gh(p) · Hh(p, q) + gl(p) · Hl(p, q) + gi(p) · Hi(p, q),
  and stores the shifted row-wise log-softmax of y: with t(p) the maximum of row p of y, folded from the word of -inf,
      out(p, q) = (y(p, q) - t(p)) - log Σ_q' exp (y(p, q') - t(p)).
  Every step below reads one operation at an entry (p, q): a cast between equal shapes is the identity, a row [1, 64]
  or a column [5000, 1] repeated along its unit axis reads its one row or column, a lane sum is the sum over the 64
  lanes and a lane maximum the fold of max over them. Both sides are the same arithmetic in the same order.
-/
import proofs.«180817_j34041910788577_1_alg».proof.Proof.Gen.KernelIdeal.Skeleton
import proofs.«180817_j34041910788577_1_alg».proof.Proof.Spec
import proofs.«180817_j34041910788577_1_alg».proof.Proof.LibRows
import proofs.«180817_j34041910788577_1_alg».proof.Proof.LibRowMax
import Idealize.ShloMosaic.Lib.ValueLayout
import Idealize.ShloMosaic.Lib.Pipeline.Value
import Idealize.ShloMosaic.Lib.ValueIdx
import Idealize.ShloMosaic.PureOps.Ideal.Laws

noncomputable section

open scoped BigOperators

namespace Cert.KernelIdeal.Comb

open Cert.KernelIdeal Cert.KernelIdeal.Gen Idealize.ShloMosaic Idealize.ShloMosaic.ValueIdx

/-- The identity branch passes through a cast between equal shapes. -/
theorem pay2_eq (x : FVec Ideal S5000x64 .f32) : k1_pay2 (F := Ideal) x = x :=
  shapeCast_self x shapeCasts_S5000x64_S5000x64

/-- The high-pass branch: the projection less its aggregate, cut at zero. -/
theorem pay3_eq (x0 x1 : FVec Ideal S5000x64 .f32) :
    k1_pay3 (F := Ideal) x0 x1 = Cert.Spec.relu (Cert.Spec.diff x0 x1) := by
  have h0 : shapeCast S5000x64 x0 shapeCasts_S5000x64_S5000x64 = x0 := shapeCast_self x0 _
  have h1 : shapeCast S5000x64 x1 shapeCasts_S5000x64_S5000x64 = x1 := shapeCast_self x1 _
  show maximumf (subf (shapeCast S5000x64 x0 shapeCasts_S5000x64_S5000x64)
      (shapeCast S5000x64 x1 shapeCasts_S5000x64_S5000x64))
    (broadcast S5000x64 (Scalar.ofBits (F := Ideal) .f32 0x00000000#32)) = _
  rw [h0, h1]
  rfl

/-- The low-pass branch: the aggregate cut at zero. -/
theorem pay4_eq (x2 : FVec Ideal S5000x64 .f32) : k1_pay4 (F := Ideal) x2 = Cert.Spec.relu x2 := by
  have h2 : shapeCast S5000x64 x2 shapeCasts_S5000x64_S5000x64 = x2 := shapeCast_self x2 _
  show maximumf (shapeCast S5000x64 x2 shapeCasts_S5000x64_S5000x64)
    (broadcast S5000x64 (Scalar.ofBits (F := Ideal) .f32 0x00000000#32)) = _
  rw [h2]
  rfl

/-- A weight row repeated over the 5000 rows reads its lane. -/
theorem wrow_apply (w : FVec Ideal S1x64 .f32) (r : Fin 5000) (k : Fin 64) :
    broadcastTo S5000x64 (shapeCast S1x64 w shapeCasts_S1x64_S1x64) broadcasts_S1x64_S5000x64 (ix2 r k)
      = w (ix2 (0 : Fin 1) k) := by
  refine (broadcastTo_1b_ab_apply (a := 5000) (b := 64) _ broadcasts_S1x64_S5000x64 r k).trans ?_
  exact congrFun (shapeCast_self w shapeCasts_S1x64_S1x64) _

/-- A bias repeated over the 5000 rows reads its one entry. -/
theorem bias_apply (b : FVec Ideal S1x1 .f32) (r : Fin 5000) :
    broadcastTo S5000x1 (shapeCast S1x1 b shapeCasts_S1x1_S1x1) broadcasts_S1x1_S5000x1 (ix2 r (0 : Fin 1))
      = b (ix2 (0 : Fin 1) (0 : Fin 1)) := by
  refine (broadcastTo_1b_ab_apply (a := 5000) (b := 1) _ broadcasts_S1x1_S5000x1 r (0 : Fin 1)).trans ?_
  exact congrFun (shapeCast_self b shapeCasts_S1x1_S1x1) _

/-- A gate: the lane sum of a branch times a weight row, as a column, plus the bias. -/
theorem gate_apply (H : FVec Ideal S5000x64 .f32) (w : FVec Ideal S1x64 .f32) (b : FVec Ideal S1x1 .f32) (r : Fin 5000) :
    addf
        (shapeCast S5000x1
          (multiReduction (F := Ideal) .add [1] S5000
            (mulf H (broadcastTo S5000x64 (shapeCast S1x64 w shapeCasts_S1x64_S1x64) broadcasts_S1x64_S5000x64))
            0x00000000#32 reduces_S5000x64_S5000 (.inl rfl) rfl)
          shapeCasts_S5000_S5000x1)
        (broadcastTo S5000x1 (shapeCast S1x1 b shapeCasts_S1x1_S1x1) broadcasts_S1x1_S5000x1)
        (ix2 r (0 : Fin 1))
      = Cert.Spec.gate H (fun k => w (ix2 (0 : Fin 1) k)) (b (ix2 (0 : Fin 1) (0 : Fin 1))) r := by
  refine (addf_apply _ _ _).trans ?_
  refine congrArg₂ (· + ·) ?_ (bias_apply b r)
  refine (Cert.LibRows.col_cast_apply _ shapeCasts_S5000_S5000x1 r (0 : Fin 1)).trans ?_
  refine (Cert.LibRows.lane_sum_last_apply (a := 5000) (c := 64) _ reduces_S5000x64_S5000 (.inl rfl) rfl r).trans ?_
  refine Finset.sum_congr rfl fun k _ => ?_
  refine (mulf_apply _ _ _).trans ?_
  exact congrArg (fun t => H (ix2 r k) * t) (wrow_apply w r k)

/-- A column of row values repeated over the 64 lanes reads the row's value. -/
theorem col_apply (v : FVec Ideal S5000 .f32) (r : Fin 5000) (q : Fin 64) :
    broadcastTo S5000x64 (shapeCast S5000x1 v shapeCasts_S5000_S5000x1) broadcasts_S5000x1_S5000x64 (ix2 r q)
      = v (ix1 r) := by
  refine (Cert.LibRows.bcast_col_apply (a := 5000) (c := 64) _ broadcasts_S5000x1_S5000x64 r q).trans ?_
  exact Cert.LibRows.col_cast_apply v shapeCasts_S5000_S5000x1 r (0 : Fin 1)

/-- The row maximum, as a column repeated over the lanes. -/
theorem top_apply (Y : FVec Ideal S5000x64 .f32) (r : Fin 5000) (q : Fin 64) :
    broadcastTo S5000x64
        (shapeCast S5000x1
          (multiReduction (F := Ideal) .maximumf [1] S5000 Y 0xFF800000#32 reduces_S5000x64_S5000 (.inl rfl) rfl)
          shapeCasts_S5000_S5000x1)
        broadcasts_S5000x1_S5000x64 (ix2 r q)
      = Cert.Spec.rowTop Y r := by
  refine (col_apply _ r q).trans ?_
  exact Cert.LibRowMax.lane_max_last_apply (a := 5000) (c := 64) Y 0xFF800000#32 reduces_S5000x64_S5000 (.inl rfl) rfl r

/-- A row less its maximum. -/
theorem shift_apply (Y : FVec Ideal S5000x64 .f32) (r : Fin 5000) (q : Fin 64) :
    subf Y
        (broadcastTo S5000x64
          (shapeCast S5000x1
            (multiReduction (F := Ideal) .maximumf [1] S5000 Y 0xFF800000#32 reduces_S5000x64_S5000 (.inl rfl) rfl)
            shapeCasts_S5000_S5000x1)
          broadcasts_S5000x1_S5000x64) (ix2 r q)
      = Y (ix2 r q) - Cert.Spec.rowTop Y r := by
  refine (subf_apply _ _ _).trans ?_
  exact congrArg (fun t => Y (ix2 r q) - t) (top_apply Y r q)

/-- The logarithm of a row's sum of exponentials, as a column repeated over the lanes. -/
theorem logsum_apply (Z : FVec Ideal S5000x64 .f32) (r : Fin 5000) (q : Fin 64) :
    broadcastTo S5000x64
        (log (shapeCast S5000x1
          (multiReduction (F := Ideal) .add [1] S5000 (exp Z) 0x00000000#32 reduces_S5000x64_S5000 (.inl rfl) rfl)
          shapeCasts_S5000_S5000x1))
        broadcasts_S5000x1_S5000x64 (ix2 r q)
      = Ideal.log (∑ q' : Fin 64, Ideal.exp (Z (ix2 r q'))) := by
  refine (Cert.LibRows.bcast_col_apply (a := 5000) (c := 64) _ broadcasts_S5000x1_S5000x64 r q).trans ?_
  show Ideal.log (shapeCast S5000x1
      (multiReduction (F := Ideal) .add [1] S5000 (exp Z) 0x00000000#32 reduces_S5000x64_S5000 (.inl rfl) rfl)
      shapeCasts_S5000_S5000x1 (ix2 r (0 : Fin 1))) = _
  refine congrArg Ideal.log ?_
  refine (Cert.LibRows.col_cast_apply _ shapeCasts_S5000_S5000x1 r (0 : Fin 1)).trans ?_
  exact Cert.LibRows.lane_sum_last_apply (a := 5000) (c := 64) (exp Z) reduces_S5000x64_S5000 (.inl rfl) rfl r

/-- The shifted row-wise log-softmax of a block, read at an entry. -/
theorem lsm_apply (Y : FVec Ideal S5000x64 .f32) (r : Fin 5000) (q : Fin 64) :
    subf
        (subf Y
          (broadcastTo S5000x64
            (shapeCast S5000x1
              (multiReduction (F := Ideal) .maximumf [1] S5000 Y 0xFF800000#32 reduces_S5000x64_S5000 (.inl rfl) rfl)
              shapeCasts_S5000_S5000x1)
            broadcasts_S5000x1_S5000x64))
        (broadcastTo S5000x64
          (log (shapeCast S5000x1
            (multiReduction (F := Ideal) .add [1] S5000
              (exp (subf Y
                (broadcastTo S5000x64
                  (shapeCast S5000x1
                    (multiReduction (F := Ideal) .maximumf [1] S5000 Y 0xFF800000#32 reduces_S5000x64_S5000 (.inl rfl) rfl)
                    shapeCasts_S5000_S5000x1)
                  broadcasts_S5000x1_S5000x64)))
              0x00000000#32 reduces_S5000x64_S5000 (.inl rfl) rfl)
            shapeCasts_S5000_S5000x1))
          broadcasts_S5000x1_S5000x64)
        (ix2 r q)
      = Cert.Spec.logSoftmax Y (ix2 r q) := by
  refine (subf_apply _ _ _).trans ?_
  refine (congrArg₂ (· - ·) (shift_apply Y r q) (logsum_apply _ r q)).trans ?_
  refine (congrArg (fun s => (Y (ix2 r q) - Cert.Spec.rowTop Y r) - Ideal.log s) ?_).trans
    (Cert.Spec.logSoftmax_apply Y r q).symm
  exact Finset.sum_congr rfl fun q' _ => congrArg Ideal.exp (shift_apply Y r q')

/-- A gate column repeated over the lanes, times a branch, read at an entry. -/
theorem gated_apply (g : FVec Ideal S5000x1 .f32) (H : FVec Ideal S5000x64 .f32) (r : Fin 5000) (q : Fin 64) :
    mulf (broadcastTo S5000x64 g broadcasts_S5000x1_S5000x64) H (ix2 r q) = g (ix2 r (0 : Fin 1)) * H (ix2 r q) := by
  refine (mulf_apply _ _ _).trans ?_
  exact congrArg (fun t => t * H (ix2 r q))
    (Cert.LibRows.bcast_col_apply (a := 5000) (c := 64) g broadcasts_S5000x1_S5000x64 r q)

/-- The high-pass gate. -/
theorem pay5_apply (x0 x1 : FVec Ideal S5000x64 .f32) (x4 : FVec Ideal S1x64 .f32) (x5 : FVec Ideal S1x1 .f32)
    (r : Fin 5000) :
    k1_pay5 (F := Ideal) x0 x1 x4 x5 (ix2 r (0 : Fin 1))
      = Cert.Spec.gate (Cert.Spec.relu (Cert.Spec.diff x0 x1)) (fun k => x4 (ix2 (0 : Fin 1) k))
          (x5 (ix2 (0 : Fin 1) (0 : Fin 1))) r := by
  refine (gate_apply (k1_pay3 (F := Ideal) x0 x1) x4 x5 r).trans ?_
  rw [pay3_eq]

/-- The low-pass gate. -/
theorem pay6_apply (x2 : FVec Ideal S5000x64 .f32) (x6 : FVec Ideal S1x64 .f32) (x7 : FVec Ideal S1x1 .f32)
    (r : Fin 5000) :
    k1_pay6 (F := Ideal) x2 x6 x7 (ix2 r (0 : Fin 1))
      = Cert.Spec.gate (Cert.Spec.relu x2) (fun k => x6 (ix2 (0 : Fin 1) k)) (x7 (ix2 (0 : Fin 1) (0 : Fin 1))) r := by
  refine (gate_apply (k1_pay4 (F := Ideal) x2) x6 x7 r).trans ?_
  rw [pay4_eq]

/-- The identity gate: the lane sum of the identity branch times its weight row, plus the bias. -/
theorem gate3_apply (x3 : FVec Ideal S5000x64 .f32) (x8 : FVec Ideal S1x64 .f32) (x9 : FVec Ideal S1x1 .f32)
    (r : Fin 5000) :
    addf
        (shapeCast S5000x1
          (multiReduction (F := Ideal) .add [1] S5000 (k1_pay7 (F := Ideal) x3 x8)
            0x00000000#32 reduces_S5000x64_S5000 (.inl rfl) rfl)
          shapeCasts_S5000_S5000x1)
        (broadcastTo S5000x1 (shapeCast S1x1 x9 shapeCasts_S1x1_S1x1) broadcasts_S1x1_S5000x1)
        (ix2 r (0 : Fin 1))
      = Cert.Spec.gate x3 (fun k => x8 (ix2 (0 : Fin 1) k)) (x9 (ix2 (0 : Fin 1) (0 : Fin 1))) r := by
  refine (gate_apply (k1_pay2 (F := Ideal) x3) x8 x9 r).trans ?_
  rw [pay2_eq]

/-- The mixed block is the gated mixture of the three branches. -/
theorem mix_eq (x0 x1 x2 x3 : FVec Ideal S5000x64 .f32) (x4 : FVec Ideal S1x64 .f32) (x5 : FVec Ideal S1x1 .f32)
    (x6 : FVec Ideal S1x64 .f32) (x7 : FVec Ideal S1x1 .f32) (x8 : FVec Ideal S1x64 .f32) (x9 : FVec Ideal S1x1 .f32) :
    addf
        (addf
          (mulf (broadcastTo S5000x64 (k1_pay5 (F := Ideal) x0 x1 x4 x5) broadcasts_S5000x1_S5000x64)
            (k1_pay3 (F := Ideal) x0 x1))
          (mulf (broadcastTo S5000x64 (k1_pay6 (F := Ideal) x2 x6 x7) broadcasts_S5000x1_S5000x64)
            (k1_pay4 (F := Ideal) x2)))
        (mulf
          (broadcastTo S5000x64
            (addf
              (shapeCast S5000x1
                (multiReduction (F := Ideal) .add [1] S5000 (k1_pay7 (F := Ideal) x3 x8)
                  0x00000000#32 reduces_S5000x64_S5000 (.inl rfl) rfl)
                shapeCasts_S5000_S5000x1)
              (broadcastTo S5000x1 (shapeCast S1x1 x9 shapeCasts_S1x1_S1x1) broadcasts_S1x1_S5000x1))
            broadcasts_S5000x1_S5000x64)
          (k1_pay2 (F := Ideal) x3))
      = Cert.Spec.mix (Cert.Spec.relu (Cert.Spec.diff x0 x1)) (Cert.Spec.relu x2) x3
          (fun k => x4 (ix2 (0 : Fin 1) k)) (fun k => x6 (ix2 (0 : Fin 1) k)) (fun k => x8 (ix2 (0 : Fin 1) k))
          (x5 (ix2 (0 : Fin 1) (0 : Fin 1))) (x7 (ix2 (0 : Fin 1) (0 : Fin 1))) (x9 (ix2 (0 : Fin 1) (0 : Fin 1))) := by
  funext j
  obtain ⟨r, q, rfl⟩ : ∃ (r : Fin 5000) (q : Fin 64), j = ix2 r q := ⟨j 0, j 1, eq_ix2 j⟩
  refine (addf_apply _ _ _).trans ?_
  refine (congrArg₂ (· + ·) ((addf_apply _ _ _).trans (congrArg₂ (· + ·) (gated_apply _ _ r q) (gated_apply _ _ r q)))
    (gated_apply _ _ r q)).trans ?_
  rw [pay5_apply, pay6_apply, gate3_apply, pay3_eq, pay4_eq, pay2_eq]
  exact (Cert.Spec.mix_apply _ _ _ _ _ _ _ _ _ r q).symm

/-- The value the body stores is the specification's tail of its ten loaded blocks. -/
theorem body_eq (x0 x1 x2 x3 : FVec Ideal S5000x64 .f32) (x4 : FVec Ideal S1x64 .f32) (x5 : FVec Ideal S1x1 .f32)
    (x6 : FVec Ideal S1x64 .f32) (x7 : FVec Ideal S1x1 .f32) (x8 : FVec Ideal S1x64 .f32) (x9 : FVec Ideal S1x1 .f32) :
    k1_pay1 (F := Ideal) (k1_pay2 x3) (k1_pay3 x0 x1) (k1_pay4 x2) (k1_pay5 x0 x1 x4 x5) (k1_pay6 x2 x6 x7) (k1_pay7 x3 x8) x9
      = Cert.Spec.tail (n := 5000) (o := 64) x0 x1 x2 x3
          (fun k => x4 (ix2 (0 : Fin 1) k)) (fun k => x6 (ix2 (0 : Fin 1) k)) (fun k => x8 (ix2 (0 : Fin 1) k))
          (x5 (ix2 (0 : Fin 1) (0 : Fin 1))) (x7 (ix2 (0 : Fin 1) (0 : Fin 1))) (x9 (ix2 (0 : Fin 1) (0 : Fin 1))) := by
  funext j
  obtain ⟨r, q, rfl⟩ : ∃ (r : Fin 5000) (q : Fin 64), j = ix2 r q := ⟨j 0, j 1, eq_ix2 j⟩
  refine (lsm_apply _ r q).trans ?_
  exact congrArg (fun Y => Cert.Spec.logSoftmax Y (ix2 r q)) (mix_eq x0 x1 x2 x3 x4 x5 x6 x7 x8 x9)

end Cert.KernelIdeal.Comb

end
-- ==== Proof.Region1.lean ====
/-
  The combine call: what its output array holds, as one whole-array function of the arrays it finds.

  The call runs over 20 points; point t takes rows 5000·t … 5000·t + 4999 of the projection, of the two aggregates and
  of the identity branch, the three weight rows and the three biases whole, and writes the same rows of the output.
  Row r of the point's block is row 5000·t + r of the array, and the tail of the network at an entry (p, q) reads row p
  of its four arrays only; so the block a point writes is the restriction of one whole-array function, the tail of the
  whole arrays. The blocks tile the output, so the output ends holding that function.
-/
import proofs.«180817_j34041910788577_1_alg».proof.Proof.Gen.KernelIdeal.Frame
import proofs.«180817_j34041910788577_1_alg».proof.Proof.SpecRows
import proofs.«180817_j34041910788577_1_alg».proof.Proof.CombineBody
import Idealize.ShloMosaic.Lib.ValueLayout
import Idealize.ShloMosaic.Lib.Pipeline.Value

set_option maxRecDepth 16384

noncomputable section

open scoped BigOperators

namespace Cert.KernelIdeal.Comb

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-! ## From blocks to arrays

  `V` is the contents of the buffers when the call is entered; everything below is stated for any `V`. -/

variable (V : (c : Dev nD) → (b : Ref sig .tc) → Buf (Elt Ideal) ((c : Thread nD τ).loc b))

/-! ### The index maps over the grid

  The four row-blocked inputs and the output are at block row t, column block 0; the weight rows and the biases are
  at block (0, 0). -/

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 2) = t.val ∧ win1_3.index t (1 : Fin 2) = 0 :=
  (by decide +kernel : ∀ t : Fin grid1.N, _)
theorem idx1_10 : ∀ t : Fin cfg1.N, win1_10.index t (0 : Fin 2) = t.val ∧ win1_10.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)
theorem idx1_9 : ∀ t : Fin cfg1.N, win1_9.index t (0 : Fin 2) = 0 ∧ win1_9.index t (1 : Fin 2) = 0 :=
  (by decide +kernel : ∀ t : Fin grid1.N, _)

/-- Row r of point t's block is row 5000·t + r of the array. -/
def rowOf (t : Fin cfg1.N) (r : Fin 5000) : Fin 100000 :=
  ⟨5000 * t.val + r.val, by have ht : t.val < 20 := t.isLt; have hr := r.isLt; omega⟩

/-! ### Where an entry of a block sits in its array -/

theorem emb_0 (t : Fin cfg1.N) (r : Fin 5000) (k : Fin 64) :
    ((cfg1.win 0).blk t).view.emb (ix2 r k) = ix2 (rowOf t r) k := by
  obtain ⟨e0, e1⟩ := idx1_0 t
  funext a; apply Fin.ext
  match a with
  | ⟨0, _⟩ => show win1_0.index t (0 : Fin 2) * 5000 + 1 * r.val = 5000 * t.val + r.val; omega
  | ⟨1, _⟩ => show win1_0.index t (1 : Fin 2) * 64 + 1 * k.val = k.val; omega
theorem emb_1 (t : Fin cfg1.N) (r : Fin 5000) (k : Fin 64) :
    ((cfg1.win 1).blk t).view.emb (ix2 r k) = ix2 (rowOf t r) k := by
  obtain ⟨e0, e1⟩ := idx1_1 t
  funext a; apply Fin.ext
  match a with
  | ⟨0, _⟩ => show win1_1.index t (0 : Fin 2) * 5000 + 1 * r.val = 5000 * t.val + r.val; omega
  | ⟨1, _⟩ => show win1_1.index t (1 : Fin 2) * 64 + 1 * k.val = k.val; omega
theorem emb_2 (t : Fin cfg1.N) (r : Fin 5000) (k : Fin 64) :
    ((cfg1.win 2).blk t).view.emb (ix2 r k) = ix2 (rowOf t r) k := by
  obtain ⟨e0, e1⟩ := idx1_2 t
  funext a; apply Fin.ext
  match a with
  | ⟨0, _⟩ => show win1_2.index t (0 : Fin 2) * 5000 + 1 * r.val = 5000 * t.val + r.val; omega
  | ⟨1, _⟩ => show win1_2.index t (1 : Fin 2) * 64 + 1 * k.val = k.val; omega
theorem emb_3 (t : Fin cfg1.N) (r : Fin 5000) (k : Fin 64) :
    ((cfg1.win 3).blk t).view.emb (ix2 r k) = ix2 (rowOf t r) k := by
  obtain ⟨e0, e1⟩ := idx1_3 t
  funext a; apply Fin.ext
  match a with
  | ⟨0, _⟩ => show win1_3.index t (0 : Fin 2) * 5000 + 1 * r.val = 5000 * t.val + r.val; omega
  | ⟨1, _⟩ => show win1_3.index t (1 : Fin 2) * 64 + 1 * k.val = k.val; omega
theorem emb_10 (t : Fin cfg1.N) (r : Fin 5000) (k : Fin 64) :
    ((cfg1.win 10).blk t).view.emb (ix2 r k) = ix2 (rowOf t r) k := by
  obtain ⟨e0, e1⟩ := idx1_10 t
  funext a; apply Fin.ext
  match a with
  | ⟨0, _⟩ => show win1_10.index t (0 : Fin 2) * 5000 + 1 * r.val = 5000 * t.val + r.val; omega
  | ⟨1, _⟩ => show win1_10.index t (1 : Fin 2) * 64 + 1 * k.val = k.val; omega
theorem emb_4 (t : Fin cfg1.N) (u : Fin 1) (k : Fin 64) : ((cfg1.win 4).blk t).view.emb (ix2 u k) = ix2 u k := by
  obtain ⟨e0, e1⟩ := idx1_4 t
  funext a; apply Fin.ext
  match a with
  | ⟨0, _⟩ => show win1_4.index t (0 : Fin 2) * 1 + 1 * u.val = u.val; omega
  | ⟨1, _⟩ => show win1_4.index t (1 : Fin 2) * 64 + 1 * k.val = k.val; omega
theorem emb_6 (t : Fin cfg1.N) (u : Fin 1) (k : Fin 64) : ((cfg1.win 6).blk t).view.emb (ix2 u k) = ix2 u k := by
  obtain ⟨e0, e1⟩ := idx1_6 t
  funext a; apply Fin.ext
  match a with
  | ⟨0, _⟩ => show win1_6.index t (0 : Fin 2) * 1 + 1 * u.val = u.val; omega
  | ⟨1, _⟩ => show win1_6.index t (1 : Fin 2) * 64 + 1 * k.val = k.val; omega
theorem emb_8 (t : Fin cfg1.N) (u : Fin 1) (k : Fin 64) : ((cfg1.win 8).blk t).view.emb (ix2 u k) = ix2 u k := by
  obtain ⟨e0, e1⟩ := idx1_8 t
  funext a; apply Fin.ext
  match a with
  | ⟨0, _⟩ => show win1_8.index t (0 : Fin 2) * 1 + 1 * u.val = u.val; omega
  | ⟨1, _⟩ => show win1_8.index t (1 : Fin 2) * 64 + 1 * k.val = k.val; omega
theorem emb_5 (t : Fin cfg1.N) (u v : Fin 1) : ((cfg1.win 5).blk t).view.emb (ix2 u v) = ix2 u v := by
  obtain ⟨e0, e1⟩ := idx1_5 t
  funext a; apply Fin.ext
  match a with
  | ⟨0, _⟩ => show win1_5.index t (0 : Fin 2) * 1 + 1 * u.val = u.val; omega
  | ⟨1, _⟩ => show win1_5.index t (1 : Fin 2) * 1 + 1 * v.val = v.val; omega
theorem emb_7 (t : Fin cfg1.N) (u v : Fin 1) : ((cfg1.win 7).blk t).view.emb (ix2 u v) = ix2 u v := by
  obtain ⟨e0, e1⟩ := idx1_7 t
  funext a; apply Fin.ext
  match a with
  | ⟨0, _⟩ => show win1_7.index t (0 : Fin 2) * 1 + 1 * u.val = u.val; omega
  | ⟨1, _⟩ => show win1_7.index t (1 : Fin 2) * 1 + 1 * v.val = v.val; omega
theorem emb_9 (t : Fin cfg1.N) (u v : Fin 1) : ((cfg1.win 9).blk t).view.emb (ix2 u v) = ix2 u v := by
  obtain ⟨e0, e1⟩ := idx1_9 t
  funext a; apply Fin.ext
  match a with
  | ⟨0, _⟩ => show win1_9.index t (0 : Fin 2) * 1 + 1 * u.val = u.val; omega
  | ⟨1, _⟩ => show win1_9.index t (1 : Fin 2) * 1 + 1 * v.val = v.val; omega

/-- The output as one function of the arrays the call finds: the tail of the whole arrays. -/
abbrev G10 (c : Dev nD) : S100000x64.Idx → EReal :=
  Cert.Spec.tail (n := 100000) (o := 64) (V c main_v16_0) (V c main_v48) (V c main_v65) (V c main_v16_2)
    (fun k => V c main_v66 (ix2 (0 : Fin 1) k)) (fun k => V c main_v67 (ix2 (0 : Fin 1) k)) (fun k => V c main_v68 (ix2 (0 : Fin 1) k))
    (V c main_v69 (ix2 (0 : Fin 1) (0 : Fin 1))) (V c main_v70 (ix2 (0 : Fin 1) (0 : Fin 1))) (V c main_v71 (ix2 (0 : Fin 1) (0 : Fin 1)))

/-! ### The blocks the body loads, read in the arrays -/

theorem blk1_0 (c : Dev nD) (t : Fin cfg1.N) (r : Fin 5000) (k : Fin 64) :
    iblk1 V c 0 t (ix2 r k) = V c main_v16_0 (ix2 (rowOf t r) k) := by
  show V c main_v16_0 (((cfg1.win 0).blk t).view.emb (ix2 r k)) = _
  rw [emb_0]
theorem blk1_1 (c : Dev nD) (t : Fin cfg1.N) (r : Fin 5000) (k : Fin 64) :
    iblk1 V c 1 t (ix2 r k) = V c main_v48 (ix2 (rowOf t r) k) := by
  show V c main_v48 (((cfg1.win 1).blk t).view.emb (ix2 r k)) = _
  rw [emb_1]
theorem blk1_2 (c : Dev nD) (t : Fin cfg1.N) (r : Fin 5000) (k : Fin 64) :
    iblk1 V c 2 t (ix2 r k) = V c main_v65 (ix2 (rowOf t r) k) := by
  show V c main_v65 (((cfg1.win 2).blk t).view.emb (ix2 r k)) = _
  rw [emb_2]
theorem blk1_3 (c : Dev nD) (t : Fin cfg1.N) (r : Fin 5000) (k : Fin 64) :
    iblk1 V c 3 t (ix2 r k) = V c main_v16_2 (ix2 (rowOf t r) k) := by
  show V c main_v16_2 (((cfg1.win 3).blk t).view.emb (ix2 r k)) = _
  rw [emb_3]
theorem blk1_4 (c : Dev nD) (t : Fin cfg1.N) (u : Fin 1) (k : Fin 64) : iblk1 V c 4 t (ix2 u k) = V c main_v66 (ix2 u k) := by
  show V c main_v66 (((cfg1.win 4).blk t).view.emb (ix2 u k)) = _
  rw [emb_4]
theorem blk1_6 (c : Dev nD) (t : Fin cfg1.N) (u : Fin 1) (k : Fin 64) : iblk1 V c 6 t (ix2 u k) = V c main_v67 (ix2 u k) := by
  show V c main_v67 (((cfg1.win 6).blk t).view.emb (ix2 u k)) = _
  rw [emb_6]
theorem blk1_8 (c : Dev nD) (t : Fin cfg1.N) (u : Fin 1) (k : Fin 64) : iblk1 V c 8 t (ix2 u k) = V c main_v68 (ix2 u k) := by
  show V c main_v68 (((cfg1.win 8).blk t).view.emb (ix2 u k)) = _
  rw [emb_8]
theorem blk1_5 (c : Dev nD) (t : Fin cfg1.N) (u v : Fin 1) : iblk1 V c 5 t (ix2 u v) = V c main_v69 (ix2 u v) := by
  show V c main_v69 (((cfg1.win 5).blk t).view.emb (ix2 u v)) = _
  rw [emb_5]
theorem blk1_7 (c : Dev nD) (t : Fin cfg1.N) (u v : Fin 1) : iblk1 V c 7 t (ix2 u v) = V c main_v70 (ix2 u v) := by
  show V c main_v70 (((cfg1.win 7).blk t).view.emb (ix2 u v)) = _
  rw [emb_7]
theorem blk1_9 (c : Dev nD) (t : Fin cfg1.N) (u v : Fin 1) : iblk1 V c 9 t (ix2 u v) = V c main_v71 (ix2 u v) := by
  show V c main_v71 (((cfg1.win 9).blk t).view.emb (ix2 u v)) = _
  rw [emb_9]

/-- What point t writes back to the output is block t of `G10`. -/
theorem flushed10_eq (c : Dev nD) (t : Fin cfg1.N) :
    (dat1 V c).flushed 10 t = ((cfg1.win 10).blk t).view.read (Elt Ideal) (G10 V c) := by
  show (cfg1.win 10).cut (grid1.coords t) ((dat1 V c).after 10 t) = _
  rw [after1_10]
  unfold out1_10
  rw [View.canon_unit_zero hz]
  simp only [View.ld_unit_zero (S := S5000x64) hz, View.ld_unit_zero (S := S1x64) hz, View.ld_unit_zero (S := S1x1) hz]
  funext j
  obtain ⟨r, q, rfl⟩ : ∃ (r : Fin 5000) (q : Fin 64), j = ix2 r q := ⟨j 0, j 1, eq_ix2 j⟩
  show k1_pay1 (F := Ideal) (k1_pay2 (iblk1 V c 3 t)) (k1_pay3 (iblk1 V c 0 t) (iblk1 V c 1 t)) (k1_pay4 (iblk1 V c 2 t))
      (k1_pay5 (iblk1 V c 0 t) (iblk1 V c 1 t) (iblk1 V c 4 t) (iblk1 V c 5 t))
      (k1_pay6 (iblk1 V c 2 t) (iblk1 V c 6 t) (iblk1 V c 7 t)) (k1_pay7 (iblk1 V c 3 t) (iblk1 V c 8 t)) (iblk1 V c 9 t) (ix2 r q)
    = G10 V c (((cfg1.win 10).blk t).view.emb (ix2 r q))
  rw [emb_10]
  refine (congrFun (body_eq (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t)) (ix2 r q)).trans ?_
  simp only [blk1_4, blk1_5, blk1_6, blk1_7, blk1_8, blk1_9]
  exact Cert.Spec.tail_row (n := 5000) (n' := 100000) (o := 64) _ _ _ _ _ _ _ _ _ _ _ _ _ _ r (rowOf t r)
    (fun k => blk1_0 V c t r k) (fun k => blk1_1 V c t r k) (fun k => blk1_2 V c t r k) (fun k => blk1_3 V c t r k) q

/-! ### The output blocks tile the array -/

/-- An index is in point t's block of the output iff its row is among the block's 5000 rows. -/
theorem mem_blk10 (t : Fin cfg1.N) (i : S100000x64.Idx) :
    i ∈ ((cfg1.win 10).blk t).view.set ↔ ∀ a : Fin 2, win1_10.index t a * S5000x64.size a ≤ (i a).val ∧ (i a).val < win1_10.index t a * S5000x64.size a + S5000x64.size a := by
  show i ∈ ((View.whole main_v72).slice (win1_10.rect t)).set ↔ _
  rw [View.set_slice_whole, Rect.mem_set_unit]
  exact Iff.rfl

/-- The point whose block holds row p: p / 5000. -/
def pointOf (i : S100000x64.Idx) : Fin cfg1.N :=
  ⟨(i 0).val / 5000, by have h : (i 0).val < 100000 := (i 0).isLt; show (i 0).val / 5000 < 20; omega⟩

theorem cover10 (i : S100000x64.Idx) : ∃ t : Fin cfg1.N, (cfg1.win 10).flush t = true ∧ i ∈ ((cfg1.win 10).blk t).view.set := by
  refine ⟨pointOf i, flush1_10 _, ?_⟩
  rw [mem_blk10]
  obtain ⟨e0, e1⟩ := idx1_10 (pointOf i)
  have hv : (pointOf i).val = (i 0).val / 5000 := rfl
  have h0 : (i 0).val < 100000 := (i 0).isLt
  have h1 : (i 1).val < 64 := (i 1).isLt
  intro a
  match a with
  | ⟨0, _⟩ => show win1_10.index (pointOf i) (0 : Fin 2) * 5000 ≤ (i 0).val ∧ (i 0).val < win1_10.index (pointOf i) (0 : Fin 2) * 5000 + 5000; omega
  | ⟨1, _⟩ => show win1_10.index (pointOf i) (1 : Fin 2) * 64 ≤ (i 1).val ∧ (i 1).val < win1_10.index (pointOf i) (1 : Fin 2) * 64 + 64; omega

/-! ### The output array after the call -/

theorem final10 (c : Dev nD) : (dat1 V c).arrAt 10 cfg1.N = G10 V c :=
  (dat1 V c).arrAt_eq_of_cover 10 (G10 V c) (fun t _ => flushed10_eq V c t) cover10

end Cert.KernelIdeal.Comb

end
-- ==== Proof.RefAgg.lean ====
/-
  The graph aggregate as a function of the edge array and of the array it aggregates.

  For a node array h of shape [100000, 64] the aggregate is
      agg(h)(i, :) = Σ over edges (s → i) of norm(s, i) · h(s, :)  +  (1 / deg(i)) · h(i, :),
  where deg counts the edges into a node plus one and norm(s, i) = deg(s)^(-1/2) · deg(i)^(-1/2): a gather of the source
  rows, a product with the edge weights, a scatter-add over the destinations, plus the self-loop term. The edge
  weights, the clamped source indices and the degrees depend on the edge array only. The reference computes the
  aggregate twice, of the high-pass and of the low-pass projection, with the same operations; here each is named as a
  function of (edges, h), so that it can be compared with another program's without opening the gather and the
  scatter-add.
-/
import proofs.«180817_j34041910788577_1_alg».proof.Proof.RefRead

noncomputable section

namespace Cert.ReferenceIdeal.Agg

open Cert.ReferenceIdeal Cert.ReferenceIdeal.Read Idealize.ShloMosaic

/-- The aggregate as the reference computes it for the high-pass branch. -/
def agg1 (e : (⟨S2x3200000, .i32⟩ : BufTy).Contents (Elt Ideal)) (h : FVec Ideal S100000x64 .f32) :
    FVec Ideal S100000x64 .f32 :=
  addf (F := Ideal) (Host.scatterAdd (F := Ideal) scatter_S100000x64_S3200000x1_S3200000x64_1_0_0_1 (val_main_v42 (F := Ideal)) (val_main_v43 (F := Ideal) e)
      (mulf (F := Ideal) (Host.gather gather_S100000x64_S3200000x1_S3200000x64_1_0_n_n_0_1_164 h (val_main_v37 (F := Ideal) e)) (val_main_v40 (F := Ideal) e)))
    (mulf (F := Ideal) (val_main_v46 (F := Ideal) e) h)

/-- The aggregate as the reference computes it for the low-pass branch. -/
def agg2 (e : (⟨S2x3200000, .i32⟩ : BufTy).Contents (Elt Ideal)) (h : FVec Ideal S100000x64 .f32) :
    FVec Ideal S100000x64 .f32 :=
  addf (F := Ideal) (Host.scatterAdd (F := Ideal) scatter_S100000x64_S3200000x1_S3200000x64_1_0_0_1 (val_main_v80 (F := Ideal)) (val_main_v81 (F := Ideal) e)
      (mulf (F := Ideal) (Host.gather gather_S100000x64_S3200000x1_S3200000x64_1_0_n_n_0_1_164 h (val_main_v75 (F := Ideal) e)) (val_main_v78 (F := Ideal) e)))
    (mulf (F := Ideal) (val_main_v84 (F := Ideal) e) h)

/-- The reference's high-pass aggregate is `agg1` of its high-pass projection. -/
theorem v48_eq (x0 : (⟨S100000x256, .f32⟩ : BufTy).Contents (Elt Ideal)) (x1 : (⟨S2x3200000, .i32⟩ : BufTy).Contents (Elt Ideal))
    (x2 : (⟨S256x64, .f32⟩ : BufTy).Contents (Elt Ideal)) (x3 : (⟨S64, .f32⟩ : BufTy).Contents (Elt Ideal)) :
    val_main_v48 (F := Ideal) x0 x1 x2 x3 = agg1 x1 (val_main_v16 (F := Ideal) x0 x2 x3) := rfl

/-- The reference's low-pass aggregate is `agg2` of its low-pass projection. -/
theorem v86_eq (x0 : (⟨S100000x256, .f32⟩ : BufTy).Contents (Elt Ideal)) (x1 : (⟨S2x3200000, .i32⟩ : BufTy).Contents (Elt Ideal))
    (x4 : (⟨S256x64, .f32⟩ : BufTy).Contents (Elt Ideal)) (x5 : (⟨S64, .f32⟩ : BufTy).Contents (Elt Ideal)) :
    val_main_v86 (F := Ideal) x0 x1 x4 x5 = agg2 x1 (val_main_v54 (F := Ideal) x0 x4 x5) := rfl

end Cert.ReferenceIdeal.Agg

end
-- ==== Proof.HostK.lean ====
/-
  The kernel program's host operations, read back.

  Before the projection call the program slices the edge array into sources and destinations, counts the degrees
  and forms deg^(-1/2) and 1/deg, and lays the three bias vectors out as rows. Between the two calls it aggregates the
  high-pass and the low-pass projection over the graph and lays the gate weights out as rows and the gate biases as
  [1, 1] arrays. None of these operations touches an argument. The degree terms, the clamped indices and the two
  aggregates are the same operations, in the same order, as the reference's: they are identified with the
  reference's stage functions of the edge array, and with its two aggregates as functions of (edges, projection),
  by unfolding both sides. The edge weights norm are computed once here and twice in the reference, from the same
  expression.
-/
import proofs.«180817_j34041910788577_1_alg».proof.Proof.Gen.KernelIdeal.Frame
import proofs.«180817_j34041910788577_1_alg».proof.Proof.RefAgg

set_option maxRecDepth 16384

noncomputable section

namespace Cert.KernelIdeal.Glue

open Cert.KernelIdeal Cert.KernelIdeal.Gen
open Cert.ReferenceIdeal.Read Cert.ReferenceIdeal.Agg
open Idealize.ShloMosaic Idealize.ShloMosaic.TcCoe Idealize.ShloMosaic.StableHlo Idealize.SL.Sem

variable (m : (ℓ : Loc nD τ sig) → Buf (Elt Ideal) ℓ) (ρ : Dev nD → PrngReg)

/-! ## What the projection call finds -/

theorem V1_arg0 (c : Dev nD) : V1 m ρ c main_arg0 = m ((c : Thread nD τ).loc main_arg0) := by
  show StableHlo.after hostOps0 (W0 m ρ c) (Proc.devRef .tc main_arg0) = _
  after_results_simp <;> rfl
theorem V1_arg2 (c : Dev nD) : V1 m ρ c main_arg2 = m ((c : Thread nD τ).loc main_arg2) := by
  show StableHlo.after hostOps0 (W0 m ρ c) (Proc.devRef .tc main_arg2) = _
  after_results_simp <;> rfl
theorem V1_arg4 (c : Dev nD) : V1 m ρ c main_arg4 = m ((c : Thread nD τ).loc main_arg4) := by
  show StableHlo.after hostOps0 (W0 m ρ c) (Proc.devRef .tc main_arg4) = _
  after_results_simp <;> rfl
theorem V1_arg6 (c : Dev nD) : V1 m ρ c main_arg6 = m ((c : Thread nD τ).loc main_arg6) := by
  show StableHlo.after hostOps0 (W0 m ρ c) (Proc.devRef .tc main_arg6) = _
  after_results_simp <;> rfl
/-- The three bias rows are the bias vectors laid out as [1, 64]. -/
theorem V1_v13 (c : Dev nD) : V1 m ρ c main_v13 = shapeCast S1x64 (m ((c : Thread nD τ).loc main_arg3)) shapeCasts_S64_S1x64 := by
  show StableHlo.after hostOps0 (W0 m ρ c) (Proc.devRef .tc main_v13) = _
  after_results_simp <;> rfl
theorem V1_v14 (c : Dev nD) : V1 m ρ c main_v14 = shapeCast S1x64 (m ((c : Thread nD τ).loc main_arg5)) shapeCasts_S64_S1x64 := by
  show StableHlo.after hostOps0 (W0 m ρ c) (Proc.devRef .tc main_v14) = _
  after_results_simp <;> rfl
theorem V1_v15 (c : Dev nD) : V1 m ρ c main_v15 = shapeCast S1x64 (m ((c : Thread nD τ).loc main_arg7)) shapeCasts_S64_S1x64 := by
  show StableHlo.after hostOps0 (W0 m ρ c) (Proc.devRef .tc main_v15) = _
  after_results_simp <;> rfl

/-! ## What the second stretch of host operations reads: left by the first stretch, or by the projection call -/

/-- The sources, as the reference's stage of the edge array. -/
theorem W2_v1 (c : Dev nD) : W2 m ρ c (Proc.devRef .tc main_v1) = val_main_v1 (F := Ideal) (m ((c : Thread nD τ).loc main_arg1)) :=
  (W2_of_ne m ρ c main_v1 (by decide)).trans (by
    show StableHlo.after hostOps0 (W0 m ρ c) (Proc.devRef .tc main_v1) = _
    after_results_simp <;> rfl)
/-- The destinations. -/
theorem W2_v3 (c : Dev nD) : W2 m ρ c (Proc.devRef .tc main_v3) = val_main_v3 (F := Ideal) (m ((c : Thread nD τ).loc main_arg1)) :=
  (W2_of_ne m ρ c main_v3 (by decide)).trans (by
    show StableHlo.after hostOps0 (W0 m ρ c) (Proc.devRef .tc main_v3) = _
    after_results_simp <;> rfl)
/-- deg^(-1/2). -/
theorem W2_v10 (c : Dev nD) : W2 m ρ c (Proc.devRef .tc main_v10) = val_main_v10 (F := Ideal) (m ((c : Thread nD τ).loc main_arg1)) :=
  (W2_of_ne m ρ c main_v10 (by decide)).trans (by
    show StableHlo.after hostOps0 (W0 m ρ c) (Proc.devRef .tc main_v10) = _
    after_results_simp <;> rfl)
/-- 1 / deg. -/
theorem W2_v12 (c : Dev nD) : W2 m ρ c (Proc.devRef .tc main_v12) = val_main_v12 (F := Ideal) (m ((c : Thread nD τ).loc main_arg1)) :=
  (W2_of_ne m ρ c main_v12 (by decide)).trans (by
    show StableHlo.after hostOps0 (W0 m ρ c) (Proc.devRef .tc main_v12) = _
    after_results_simp <;> rfl)

theorem W2_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results_simp <;> rfl)
theorem W2_arg9 (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results_simp <;> rfl)
theorem W2_arg10 (c : Dev nD) : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = _
    after_results_simp <;> rfl)
theorem W2_arg11 (c : Dev nD) : W2 m ρ c (Proc.devRef .tc main_arg11) = m ((c : Thread nD τ).loc main_arg11) :=
  (W2_of_ne m ρ c main_arg11 (by decide)).trans (by
    show StableHlo.after hostOps0 (W0 m ρ c) (Proc.devRef .tc main_arg11) = _
    after_results_simp <;> rfl)
theorem W2_arg12 (c : Dev nD) : W2 m ρ c (Proc.devRef .tc main_arg12) = m ((c : Thread nD τ).loc main_arg12) :=
  (W2_of_ne m ρ c main_arg12 (by decide)).trans (by
    show StableHlo.after hostOps0 (W0 m ρ c) (Proc.devRef .tc main_arg12) = _
    after_results_simp <;> rfl)
theorem W2_arg13 (c : Dev nD) : W2 m ρ c (Proc.devRef .tc main_arg13) = m ((c : Thread nD τ).loc main_arg13) :=
  (W2_of_ne m ρ c main_arg13 (by decide)).trans (by
    show StableHlo.after hostOps0 (W0 m ρ c) (Proc.devRef .tc main_arg13) = _
    after_results_simp <;> rfl)

/-- The projection call's three outputs, as its write-backs leave them. -/
theorem W2_v16_0 (c : Dev nD) : W2 m ρ c (Proc.devRef .tc main_v16_0) = (dat0 (V1 m ρ) c).arrAt 7 cfg0.N := W2_arr m ρ c 7
theorem W2_v16_1 (c : Dev nD) : W2 m ρ c (Proc.devRef .tc main_v16_1) = (dat0 (V1 m ρ) c).arrAt 8 cfg0.N := W2_arr m ρ c 8
theorem W2_v16_2 (c : Dev nD) : W2 m ρ c (Proc.devRef .tc main_v16_2) = (dat0 (V1 m ρ) c).arrAt 9 cfg0.N := W2_arr m ρ c 9

/-! ## What the combine call finds -/

theorem V3_v16_0 (c : Dev nD) : V3 m ρ c main_v16_0 = (dat0 (V1 m ρ) c).arrAt 7 cfg0.N := by
  show StableHlo.after hostOps1 (W2 m ρ c) (Proc.devRef .tc main_v16_0) = _
  after_results_simp
  exact W2_v16_0 m ρ c
theorem V3_v16_2 (c : Dev nD) : V3 m ρ c main_v16_2 = (dat0 (V1 m ρ) c).arrAt 9 cfg0.N := by
  show StableHlo.after hostOps1 (W2 m ρ c) (Proc.devRef .tc main_v16_2) = _
  after_results_simp
  exact W2_v16_2 m ρ c

/-- The high-pass aggregate is the reference's, of the projection call's first output. -/
theorem V3_v48 (c : Dev nD) :
    V3 m ρ c main_v48 = agg1 (m ((c : Thread nD τ).loc main_arg1)) ((dat0 (V1 m ρ) c).arrAt 7 cfg0.N) := by
  show StableHlo.after hostOps1 (W2 m ρ c) (Proc.devRef .tc main_v48) = _
  after_results_simp
  rw [W2_v1 m ρ c, W2_v3 m ρ c, W2_v10 m ρ c, W2_v12 m ρ c, W2_v16_0 m ρ c]
  rfl

/-- The low-pass aggregate is the reference's, of the projection call's second output. -/
theorem V3_v65 (c : Dev nD) :
    V3 m ρ c main_v65 = agg2 (m ((c : Thread nD τ).loc main_arg1)) ((dat0 (V1 m ρ) c).arrAt 8 cfg0.N) := by
  show StableHlo.after hostOps1 (W2 m ρ c) (Proc.devRef .tc main_v65) = _
  after_results_simp
  rw [W2_v1 m ρ c, W2_v3 m ρ c, W2_v10 m ρ c, W2_v12 m ρ c, W2_v16_1 m ρ c]
  rfl

/-- The gate weights laid out as rows, the gate biases as [1, 1] arrays. -/
theorem V3_v66 (c : Dev nD) : V3 m ρ c main_v66 = shapeCast S1x64 (m ((c : Thread nD τ).loc main_arg8)) shapeCasts_S64x1_S1x64 := by
  show StableHlo.after hostOps1 (W2 m ρ c) (Proc.devRef .tc main_v66) = _
  after_results_simp
  rw [W2_arg8 m ρ c]
  rfl
theorem V3_v67 (c : Dev nD) : V3 m ρ c main_v67 = shapeCast S1x64 (m ((c : Thread nD τ).loc main_arg10)) shapeCasts_S64x1_S1x64 := by
  show StableHlo.after hostOps1 (W2 m ρ c) (Proc.devRef .tc main_v67) = _
  after_results_simp
  rw [W2_arg10 m ρ c]
  rfl
theorem V3_v68 (c : Dev nD) : V3 m ρ c main_v68 = shapeCast S1x64 (m ((c : Thread nD τ).loc main_arg12)) shapeCasts_S64x1_S1x64 := by
  show StableHlo.after hostOps1 (W2 m ρ c) (Proc.devRef .tc main_v68) = _
  after_results_simp
  rw [W2_arg12 m ρ c]
  rfl
theorem V3_v69 (c : Dev nD) : V3 m ρ c main_v69 = shapeCast S1x1 (m ((c : Thread nD τ).loc main_arg9)) shapeCasts_S1_S1x1 := by
  show StableHlo.after hostOps1 (W2 m ρ c) (Proc.devRef .tc main_v69) = _
  after_results_simp
  rw [W2_arg9 m ρ c]
  rfl
theorem V3_v70 (c : Dev nD) : V3 m ρ c main_v70 = shapeCast S1x1 (m ((c : Thread nD τ).loc main_arg11)) shapeCasts_S1_S1x1 := by
  show StableHlo.after hostOps1 (W2 m ρ c) (Proc.devRef .tc main_v70) = _
  after_results_simp
  rw [W2_arg11 m ρ c]
  rfl
theorem V3_v71 (c : Dev nD) : V3 m ρ c main_v71 = shapeCast S1x1 (m ((c : Thread nD τ).loc main_arg13)) shapeCasts_S1_S1x1 := by
  show StableHlo.after hostOps1 (W2 m ρ c) (Proc.devRef .tc main_v71) = _
  after_results_simp
  rw [W2_arg13 m ρ c]
  rfl

end Cert.KernelIdeal.Glue

end
-- ==== Proof.RefSide.lean ====
import proofs.«180817_j34041910788577_1_alg».proof.Proof.RefRead
import proofs.«180817_j34041910788577_1_alg».proof.Proof.Spec
import proofs.«180817_j34041910788577_1_alg».proof.Proof.LibRowMax
/-
  The reference network, stage by stage, is the specification's functions.

  The reference program computes, on the extended reals and entry by entry:
    * three projections of the feature array x [100000, 256]: the matrix product with a weight [256, 64] plus the bias
      [64] spread over the rows, so  h(p, q) = Σ_k x(p, k) · W(k, q) + b(q): the specification's affine map;
    * the high-pass branch: its projection less that projection's graph aggregate, cut below at the zero word; the
      low-pass branch: its projection's graph aggregate, cut at the zero word; the identity branch: its projection cut
      at the zero word. The aggregates are left as they are: nothing here looks inside them;
    * three gates, each the product of a branch [100000, 64] with a weight column [64, 1] plus a bias [1] spread down
      the column:  g(p) = Σ_k H(p, k) · w(k, 0) + β(0): the specification's gate;
    * the mixture  (gh(p) · Hh(p, q) + gl(p) · Hl(p, q)) + gi(p) · Hi(p, q), each gate spread along its row;
    * the row-wise log-softmax of the mixture y: the row maximum folded from the word of -inf, taken once more against
      that word (which changes nothing: the fold already lies above its starting value), the shifted entries
      y(p, q) - t(p), their exponentials, the row sum of those from the zero word (which is 0), its logarithm taken on
      the column and spread back along the row, and the final subtraction.
  Every step reads an operation at an entry from its operands at an entry; no arithmetic law is used beyond
  0 + s = s and max a b = b for a ≤ b.
-/

noncomputable section

open scoped BigOperators

namespace Cert.ReferenceIdeal.Bridge

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- Two rank-1 indices with the same coordinate are equal. -/
local macro "idx1" : tactic =>
  `(tactic| exact funext fun a => Fin.ext (by match a with | ⟨0, _⟩ => rfl))
/-- Two rank-2 indices with the same coordinates are equal. -/
local macro "idx2" : tactic =>
  `(tactic| exact funext fun a => Fin.ext (by match a with | ⟨0, _⟩ => rfl | ⟨1, _⟩ => rfl))

/-! ## The three projections -/

/-- The high-pass projection at an entry. -/
theorem hp_apply (x0 : (⟨S100000x256, .f32⟩ : BufTy).Contents (Elt Ideal)) (x2 : (⟨S256x64, .f32⟩ : BufTy).Contents (Elt Ideal)) (x3 : (⟨S64, .f32⟩ : BufTy).Contents (Elt Ideal)) (p : Fin 100000) (q : Fin 64) :
    val_main_v16 (F := Ideal) x0 x2 x3 (ix2 p q) = (∑ k : Fin 256, x0 (ix2 p k) * x2 (ix2 k q)) + x3 (ix1 q) := by
  rw [val_main_v16_apply, val_main_v13_apply, val_main_v15_apply, val_main_v14_apply]
  have eb : idx_main_v14 (idx_main_v15 (ix2 p q)) = ix1 q := by idx1
  rw [eb]
  refine congrArg (fun s : EReal => s + x3 (ix1 q)) (Finset.sum_congr rfl fun k _ => ?_)
  have el : lidx_main_v13 (ix2 p q) k = ix2 p k := by idx2
  have er : ridx_main_v13 (ix2 p q) k = ix2 k q := by idx2
  rw [el, er]

/-- The low-pass projection at an entry. -/
theorem lp_apply (x0 : (⟨S100000x256, .f32⟩ : BufTy).Contents (Elt Ideal)) (x4 : (⟨S256x64, .f32⟩ : BufTy).Contents (Elt Ideal)) (x5 : (⟨S64, .f32⟩ : BufTy).Contents (Elt Ideal)) (p : Fin 100000) (q : Fin 64) :
    val_main_v54 (F := Ideal) x0 x4 x5 (ix2 p q) = (∑ k : Fin 256, x0 (ix2 p k) * x4 (ix2 k q)) + x5 (ix1 q) := by
  rw [val_main_v54_apply, val_main_v51_apply, val_main_v53_apply, val_main_v52_apply]
  have eb : idx_main_v52 (idx_main_v53 (ix2 p q)) = ix1 q := by idx1
  rw [eb]
  refine congrArg (fun s : EReal => s + x5 (ix1 q)) (Finset.sum_congr rfl fun k _ => ?_)
  have el : lidx_main_v51 (ix2 p q) k = ix2 p k := by idx2
  have er : ridx_main_v51 (ix2 p q) k = ix2 k q := by idx2
  rw [el, er]

/-- The identity projection at an entry. -/
theorem ip_apply (x0 : (⟨S100000x256, .f32⟩ : BufTy).Contents (Elt Ideal)) (x6 : (⟨S256x64, .f32⟩ : BufTy).Contents (Elt Ideal)) (x7 : (⟨S64, .f32⟩ : BufTy).Contents (Elt Ideal)) (p : Fin 100000) (q : Fin 64) :
    val_main_v91 (F := Ideal) x0 x6 x7 (ix2 p q) = (∑ k : Fin 256, x0 (ix2 p k) * x6 (ix2 k q)) + x7 (ix1 q) := by
  rw [val_main_v91_apply, val_main_v88_apply, val_main_v90_apply, val_main_v89_apply]
  have eb : idx_main_v89 (idx_main_v90 (ix2 p q)) = ix1 q := by idx1
  rw [eb]
  refine congrArg (fun s : EReal => s + x7 (ix1 q)) (Finset.sum_congr rfl fun k _ => ?_)
  have el : lidx_main_v88 (ix2 p q) k = ix2 p k := by idx2
  have er : ridx_main_v88 (ix2 p q) k = ix2 k q := by idx2
  rw [el, er]

/-- The high-pass projection is the affine map  x · W_hp + b_hp. -/
theorem hp_eq (x0 : (⟨S100000x256, .f32⟩ : BufTy).Contents (Elt Ideal)) (x2 : (⟨S256x64, .f32⟩ : BufTy).Contents (Elt Ideal)) (x3 : (⟨S64, .f32⟩ : BufTy).Contents (Elt Ideal)) :
    val_main_v16 (F := Ideal) x0 x2 x3
      = Cert.Spec.affine (n := 100000) (d := 256) (o := 64) x0 x2 (fun q => x3 (ix1 q)) := by
  funext i
  obtain ⟨p, q, rfl⟩ : ∃ (p : Fin 100000) (q : Fin 64), i = ix2 p q := ⟨i 0, i 1, eq_ix2 i⟩
  rw [hp_apply, Cert.Spec.affine_apply]

/-- The low-pass projection is the affine map  x · W_lp + b_lp. -/
theorem lp_eq (x0 : (⟨S100000x256, .f32⟩ : BufTy).Contents (Elt Ideal)) (x4 : (⟨S256x64, .f32⟩ : BufTy).Contents (Elt Ideal)) (x5 : (⟨S64, .f32⟩ : BufTy).Contents (Elt Ideal)) :
    val_main_v54 (F := Ideal) x0 x4 x5
      = Cert.Spec.affine (n := 100000) (d := 256) (o := 64) x0 x4 (fun q => x5 (ix1 q)) := by
  funext i
  obtain ⟨p, q, rfl⟩ : ∃ (p : Fin 100000) (q : Fin 64), i = ix2 p q := ⟨i 0, i 1, eq_ix2 i⟩
  rw [lp_apply, Cert.Spec.affine_apply]

/-! ## The three cuts at the zero word -/

/-- The identity branch is the cut affine map  relu (x · W_i + b_i). -/
theorem id_eq (x0 : (⟨S100000x256, .f32⟩ : BufTy).Contents (Elt Ideal)) (x6 : (⟨S256x64, .f32⟩ : BufTy).Contents (Elt Ideal)) (x7 : (⟨S64, .f32⟩ : BufTy).Contents (Elt Ideal)) :
    val_main_v92 (F := Ideal) x0 x6 x7
      = Cert.Spec.relu (Cert.Spec.affine (n := 100000) (d := 256) (o := 64) x0 x6 (fun q => x7 (ix1 q))) := by
  funext i
  obtain ⟨p, q, rfl⟩ : ∃ (p : Fin 100000) (q : Fin 64), i = ix2 p q := ⟨i 0, i 1, eq_ix2 i⟩
  rw [Cert.Spec.relu_apply, Cert.Spec.affine_apply, val_main_v92_apply, val_main_call2_v0_apply, ip_apply]
  rfl

/-- The high-pass branch is the projection less its aggregate, cut at the zero word. -/
theorem high_eq (x0 : (⟨S100000x256, .f32⟩ : BufTy).Contents (Elt Ideal)) (x1 : (⟨S2x3200000, .i32⟩ : BufTy).Contents (Elt Ideal)) (x2 : (⟨S256x64, .f32⟩ : BufTy).Contents (Elt Ideal)) (x3 : (⟨S64, .f32⟩ : BufTy).Contents (Elt Ideal)) :
    val_main_v50 (F := Ideal) x0 x1 x2 x3
      = Cert.Spec.relu (n := 100000) (o := 64) (Cert.Spec.diff (val_main_v16 (F := Ideal) x0 x2 x3) (val_main_v48 (F := Ideal) x0 x1 x2 x3)) := by
  funext i
  rw [Cert.Spec.relu_apply, Cert.Spec.diff_apply, val_main_v50_apply, val_main_v49_apply, val_main_call0_v0_apply]
  rfl

/-- The low-pass branch is the aggregate cut at the zero word. -/
theorem low_eq (x0 : (⟨S100000x256, .f32⟩ : BufTy).Contents (Elt Ideal)) (x1 : (⟨S2x3200000, .i32⟩ : BufTy).Contents (Elt Ideal)) (x4 : (⟨S256x64, .f32⟩ : BufTy).Contents (Elt Ideal)) (x5 : (⟨S64, .f32⟩ : BufTy).Contents (Elt Ideal)) :
    val_main_v87 (F := Ideal) x0 x1 x4 x5
      = Cert.Spec.relu (n := 100000) (o := 64) (val_main_v86 (F := Ideal) x0 x1 x4 x5) := by
  funext i
  rw [Cert.Spec.relu_apply, val_main_v87_apply, val_main_call1_v0_apply]
  rfl

/-! ## The three gates -/

/-- The high-pass gate of a node. -/
theorem gate_h (x0 : (⟨S100000x256, .f32⟩ : BufTy).Contents (Elt Ideal)) (x1 : (⟨S2x3200000, .i32⟩ : BufTy).Contents (Elt Ideal)) (x2 : (⟨S256x64, .f32⟩ : BufTy).Contents (Elt Ideal)) (x3 : (⟨S64, .f32⟩ : BufTy).Contents (Elt Ideal)) (x8 : (⟨S64x1, .f32⟩ : BufTy).Contents (Elt Ideal)) (x9 : (⟨S1, .f32⟩ : BufTy).Contents (Elt Ideal)) (p : Fin 100000) :
    val_main_v96 (F := Ideal) x0 x1 x2 x3 x8 x9 (ix2 p (0 : Fin 1))
      = Cert.Spec.gate (n := 100000) (o := 64) (val_main_v50 (F := Ideal) x0 x1 x2 x3) (fun k => x8 (ix2 k (0 : Fin 1))) (x9 (ix1 (0 : Fin 1))) p := by
  rw [val_main_v96_apply, val_main_v93_apply, val_main_v95_apply, val_main_v94_apply]
  have eb : idx_main_v94 (idx_main_v95 (ix2 p (0 : Fin 1))) = ix1 (0 : Fin 1) := by idx1
  rw [eb]
  refine congrArg (fun s : EReal => s + x9 (ix1 (0 : Fin 1))) (Finset.sum_congr rfl fun k _ => ?_)
  have el : lidx_main_v93 (ix2 p (0 : Fin 1)) k = ix2 p k := by idx2
  have er : ridx_main_v93 (ix2 p (0 : Fin 1)) k = ix2 k (0 : Fin 1) := by idx2
  rw [el, er]

/-- The low-pass gate of a node. -/
theorem gate_l (x0 : (⟨S100000x256, .f32⟩ : BufTy).Contents (Elt Ideal)) (x1 : (⟨S2x3200000, .i32⟩ : BufTy).Contents (Elt Ideal)) (x4 : (⟨S256x64, .f32⟩ : BufTy).Contents (Elt Ideal)) (x5 : (⟨S64, .f32⟩ : BufTy).Contents (Elt Ideal)) (x10 : (⟨S64x1, .f32⟩ : BufTy).Contents (Elt Ideal)) (x11 : (⟨S1, .f32⟩ : BufTy).Contents (Elt Ideal)) (p : Fin 100000) :
    val_main_v100 (F := Ideal) x0 x1 x4 x5 x10 x11 (ix2 p (0 : Fin 1))
      = Cert.Spec.gate (n := 100000) (o := 64) (val_main_v87 (F := Ideal) x0 x1 x4 x5) (fun k => x10 (ix2 k (0 : Fin 1))) (x11 (ix1 (0 : Fin 1))) p := by
  rw [val_main_v100_apply, val_main_v97_apply, val_main_v99_apply, val_main_v98_apply]
  have eb : idx_main_v98 (idx_main_v99 (ix2 p (0 : Fin 1))) = ix1 (0 : Fin 1) := by idx1
  rw [eb]
  refine congrArg (fun s : EReal => s + x11 (ix1 (0 : Fin 1))) (Finset.sum_congr rfl fun k _ => ?_)
  have el : lidx_main_v97 (ix2 p (0 : Fin 1)) k = ix2 p k := by idx2
  have er : ridx_main_v97 (ix2 p (0 : Fin 1)) k = ix2 k (0 : Fin 1) := by idx2
  rw [el, er]

/-- The identity gate of a node. -/
theorem gate_i (x0 : (⟨S100000x256, .f32⟩ : BufTy).Contents (Elt Ideal)) (x6 : (⟨S256x64, .f32⟩ : BufTy).Contents (Elt Ideal)) (x7 : (⟨S64, .f32⟩ : BufTy).Contents (Elt Ideal)) (x12 : (⟨S64x1, .f32⟩ : BufTy).Contents (Elt Ideal)) (x13 : (⟨S1, .f32⟩ : BufTy).Contents (Elt Ideal)) (p : Fin 100000) :
    val_main_v104 (F := Ideal) x0 x6 x7 x12 x13 (ix2 p (0 : Fin 1))
      = Cert.Spec.gate (n := 100000) (o := 64) (val_main_v92 (F := Ideal) x0 x6 x7) (fun k => x12 (ix2 k (0 : Fin 1))) (x13 (ix1 (0 : Fin 1))) p := by
  rw [val_main_v104_apply, val_main_v101_apply, val_main_v103_apply, val_main_v102_apply]
  have eb : idx_main_v102 (idx_main_v103 (ix2 p (0 : Fin 1))) = ix1 (0 : Fin 1) := by idx1
  rw [eb]
  refine congrArg (fun s : EReal => s + x13 (ix1 (0 : Fin 1))) (Finset.sum_congr rfl fun k _ => ?_)
  have el : lidx_main_v101 (ix2 p (0 : Fin 1)) k = ix2 p k := by idx2
  have er : ridx_main_v101 (ix2 p (0 : Fin 1)) k = ix2 k (0 : Fin 1) := by idx2
  rw [el, er]

/-! ## The mixture -/

/-- The mixed array is the specification's mixture of the three branches. -/
theorem mix_eq (x0 : (⟨S100000x256, .f32⟩ : BufTy).Contents (Elt Ideal)) (x1 : (⟨S2x3200000, .i32⟩ : BufTy).Contents (Elt Ideal)) (x2 : (⟨S256x64, .f32⟩ : BufTy).Contents (Elt Ideal)) (x3 : (⟨S64, .f32⟩ : BufTy).Contents (Elt Ideal)) (x4 : (⟨S256x64, .f32⟩ : BufTy).Contents (Elt Ideal)) (x5 : (⟨S64, .f32⟩ : BufTy).Contents (Elt Ideal)) (x6 : (⟨S256x64, .f32⟩ : BufTy).Contents (Elt Ideal)) (x7 : (⟨S64, .f32⟩ : BufTy).Contents (Elt Ideal)) (x8 : (⟨S64x1, .f32⟩ : BufTy).Contents (Elt Ideal)) (x9 : (⟨S1, .f32⟩ : BufTy).Contents (Elt Ideal)) (x10 : (⟨S64x1, .f32⟩ : BufTy).Contents (Elt Ideal)) (x11 : (⟨S1, .f32⟩ : BufTy).Contents (Elt Ideal)) (x12 : (⟨S64x1, .f32⟩ : BufTy).Contents (Elt Ideal)) (x13 : (⟨S1, .f32⟩ : BufTy).Contents (Elt Ideal)) :
    val_main_v112 (F := Ideal) x0 x1 x2 x3 x4 x5 x6 x7 x8 x9 x10 x11 x12 x13
      = Cert.Spec.mix (n := 100000) (o := 64) (val_main_v50 (F := Ideal) x0 x1 x2 x3) (val_main_v87 (F := Ideal) x0 x1 x4 x5)
          (val_main_v92 (F := Ideal) x0 x6 x7)
          (fun k => x8 (ix2 k (0 : Fin 1))) (fun k => x10 (ix2 k (0 : Fin 1))) (fun k => x12 (ix2 k (0 : Fin 1)))
          (x9 (ix1 (0 : Fin 1))) (x11 (ix1 (0 : Fin 1))) (x13 (ix1 (0 : Fin 1))) := by
  funext i
  obtain ⟨p, q, rfl⟩ : ∃ (p : Fin 100000) (q : Fin 64), i = ix2 p q := ⟨i 0, i 1, eq_ix2 i⟩
  rw [Cert.Spec.mix_apply, val_main_v112_apply, val_main_v109_apply, val_main_v106_apply, val_main_v108_apply,
    val_main_v111_apply, val_main_v105_apply, val_main_v107_apply, val_main_v110_apply]
  have e1 : idx_main_v105 (ix2 p q) = ix2 p (0 : Fin 1) := by idx2
  have e2 : idx_main_v107 (ix2 p q) = ix2 p (0 : Fin 1) := by idx2
  have e3 : idx_main_v110 (ix2 p q) = ix2 p (0 : Fin 1) := by idx2
  rw [e1, e2, e3, gate_h, gate_l, gate_i]
  rfl

/-! ## The log-softmax of the mixed array -/

/-- The row maximum of the mixed array, folded from the word of -inf. -/
theorem rowmax_apply (x0 : (⟨S100000x256, .f32⟩ : BufTy).Contents (Elt Ideal)) (x1 : (⟨S2x3200000, .i32⟩ : BufTy).Contents (Elt Ideal)) (x2 : (⟨S256x64, .f32⟩ : BufTy).Contents (Elt Ideal)) (x3 : (⟨S64, .f32⟩ : BufTy).Contents (Elt Ideal)) (x4 : (⟨S256x64, .f32⟩ : BufTy).Contents (Elt Ideal)) (x5 : (⟨S64, .f32⟩ : BufTy).Contents (Elt Ideal)) (x6 : (⟨S256x64, .f32⟩ : BufTy).Contents (Elt Ideal)) (x7 : (⟨S64, .f32⟩ : BufTy).Contents (Elt Ideal)) (x8 : (⟨S64x1, .f32⟩ : BufTy).Contents (Elt Ideal)) (x9 : (⟨S1, .f32⟩ : BufTy).Contents (Elt Ideal)) (x10 : (⟨S64x1, .f32⟩ : BufTy).Contents (Elt Ideal)) (x11 : (⟨S1, .f32⟩ : BufTy).Contents (Elt Ideal)) (x12 : (⟨S64x1, .f32⟩ : BufTy).Contents (Elt Ideal)) (x13 : (⟨S1, .f32⟩ : BufTy).Contents (Elt Ideal)) (p : Fin 100000) :
    val_main_call3_v0 (F := Ideal) x0 x1 x2 x3 x4 x5 x6 x7 x8 x9 x10 x11 x12 x13 (ix1 p) = Cert.Spec.rowTop (n := 100000) (o := 64) (val_main_v112 (F := Ideal) x0 x1 x2 x3 x4 x5 x6 x7 x8 x9 x10 x11 x12 x13) p := by
  unfold val_main_call3_v0
  exact Cert.LibRowMax.host_max_last_apply (a := 100000) (c := 64) (u := S_) (val_main_v112 (F := Ideal) x0 x1 x2 x3 x4 x5 x6 x7 x8 x9 x10 x11 x12 x13)
    (val_main_call3_cst (F := Ideal)) reducesTo_S100000x64_S100000_d1 (by decide) h_S_ p

/-- Taking the maximum with the word of -inf once more changes nothing: the fold lies above its starting value. -/
theorem top_apply (x0 : (⟨S100000x256, .f32⟩ : BufTy).Contents (Elt Ideal)) (x1 : (⟨S2x3200000, .i32⟩ : BufTy).Contents (Elt Ideal)) (x2 : (⟨S256x64, .f32⟩ : BufTy).Contents (Elt Ideal)) (x3 : (⟨S64, .f32⟩ : BufTy).Contents (Elt Ideal)) (x4 : (⟨S256x64, .f32⟩ : BufTy).Contents (Elt Ideal)) (x5 : (⟨S64, .f32⟩ : BufTy).Contents (Elt Ideal)) (x6 : (⟨S256x64, .f32⟩ : BufTy).Contents (Elt Ideal)) (x7 : (⟨S64, .f32⟩ : BufTy).Contents (Elt Ideal)) (x8 : (⟨S64x1, .f32⟩ : BufTy).Contents (Elt Ideal)) (x9 : (⟨S1, .f32⟩ : BufTy).Contents (Elt Ideal)) (x10 : (⟨S64x1, .f32⟩ : BufTy).Contents (Elt Ideal)) (x11 : (⟨S1, .f32⟩ : BufTy).Contents (Elt Ideal)) (x12 : (⟨S64x1, .f32⟩ : BufTy).Contents (Elt Ideal)) (x13 : (⟨S1, .f32⟩ : BufTy).Contents (Elt Ideal)) (p : Fin 100000) :
    val_main_call3_v2 (F := Ideal) x0 x1 x2 x3 x4 x5 x6 x7 x8 x9 x10 x11 x12 x13 (ix1 p) = Cert.Spec.rowTop (n := 100000) (o := 64) (val_main_v112 (F := Ideal) x0 x1 x2 x3 x4 x5 x6 x7 x8 x9 x10 x11 x12 x13) p := by
  rw [val_main_call3_v2_apply, rowmax_apply, val_main_call3_v1_apply]
  have h : Cert.Spec.ninf ≤ Cert.Spec.rowTop (n := 100000) (o := 64) (val_main_v112 (F := Ideal) x0 x1 x2 x3 x4 x5 x6 x7 x8 x9 x10 x11 x12 x13) p :=
    (Finset.le_fold_max _).mpr (Or.inl le_rfl)
  exact max_eq_right h

/-- The shifted entries: the mixed array less its row maximum. -/
theorem shift_apply (x0 : (⟨S100000x256, .f32⟩ : BufTy).Contents (Elt Ideal)) (x1 : (⟨S2x3200000, .i32⟩ : BufTy).Contents (Elt Ideal)) (x2 : (⟨S256x64, .f32⟩ : BufTy).Contents (Elt Ideal)) (x3 : (⟨S64, .f32⟩ : BufTy).Contents (Elt Ideal)) (x4 : (⟨S256x64, .f32⟩ : BufTy).Contents (Elt Ideal)) (x5 : (⟨S64, .f32⟩ : BufTy).Contents (Elt Ideal)) (x6 : (⟨S256x64, .f32⟩ : BufTy).Contents (Elt Ideal)) (x7 : (⟨S64, .f32⟩ : BufTy).Contents (Elt Ideal)) (x8 : (⟨S64x1, .f32⟩ : BufTy).Contents (Elt Ideal)) (x9 : (⟨S1, .f32⟩ : BufTy).Contents (Elt Ideal)) (x10 : (⟨S64x1, .f32⟩ : BufTy).Contents (Elt Ideal)) (x11 : (⟨S1, .f32⟩ : BufTy).Contents (Elt Ideal)) (x12 : (⟨S64x1, .f32⟩ : BufTy).Contents (Elt Ideal)) (x13 : (⟨S1, .f32⟩ : BufTy).Contents (Elt Ideal)) (p : Fin 100000) (q : Fin 64) :
    val_main_call3_v5 (F := Ideal) x0 x1 x2 x3 x4 x5 x6 x7 x8 x9 x10 x11 x12 x13 (ix2 p q)
      = (val_main_v112 (F := Ideal) x0 x1 x2 x3 x4 x5 x6 x7 x8 x9 x10 x11 x12 x13) (ix2 p q) - Cert.Spec.rowTop (n := 100000) (o := 64) (val_main_v112 (F := Ideal) x0 x1 x2 x3 x4 x5 x6 x7 x8 x9 x10 x11 x12 x13) p := by
  rw [val_main_call3_v5_apply, val_main_call3_v4_apply, val_main_call3_v3_apply]
  have e : idx_main_call3_v3 (idx_main_call3_v4 (ix2 p q)) = ix1 p := by idx1
  rw [e, top_apply]
  rfl

/-- The row sum of the exponentials of the shifted entries: the zero word adds nothing. -/
theorem rowsum_apply (x0 : (⟨S100000x256, .f32⟩ : BufTy).Contents (Elt Ideal)) (x1 : (⟨S2x3200000, .i32⟩ : BufTy).Contents (Elt Ideal)) (x2 : (⟨S256x64, .f32⟩ : BufTy).Contents (Elt Ideal)) (x3 : (⟨S64, .f32⟩ : BufTy).Contents (Elt Ideal)) (x4 : (⟨S256x64, .f32⟩ : BufTy).Contents (Elt Ideal)) (x5 : (⟨S64, .f32⟩ : BufTy).Contents (Elt Ideal)) (x6 : (⟨S256x64, .f32⟩ : BufTy).Contents (Elt Ideal)) (x7 : (⟨S64, .f32⟩ : BufTy).Contents (Elt Ideal)) (x8 : (⟨S64x1, .f32⟩ : BufTy).Contents (Elt Ideal)) (x9 : (⟨S1, .f32⟩ : BufTy).Contents (Elt Ideal)) (x10 : (⟨S64x1, .f32⟩ : BufTy).Contents (Elt Ideal)) (x11 : (⟨S1, .f32⟩ : BufTy).Contents (Elt Ideal)) (x12 : (⟨S64x1, .f32⟩ : BufTy).Contents (Elt Ideal)) (x13 : (⟨S1, .f32⟩ : BufTy).Contents (Elt Ideal)) (p : Fin 100000) :
    val_main_call3_v7 (F := Ideal) x0 x1 x2 x3 x4 x5 x6 x7 x8 x9 x10 x11 x12 x13 (ix1 p)
      = ∑ q : Fin 64, Ideal.exp ((val_main_v112 (F := Ideal) x0 x1 x2 x3 x4 x5 x6 x7 x8 x9 x10 x11 x12 x13) (ix2 p q) - Cert.Spec.rowTop (n := 100000) (o := 64) (val_main_v112 (F := Ideal) x0 x1 x2 x3 x4 x5 x6 x7 x8 x9 x10 x11 x12 x13) p) := by
  rw [val_main_call3_v7_apply, val_main_call3_cst_1_apply]
  refine (congrArg (fun z : EReal => z + _) Ideal.ofBits_zero_f32).trans ?_
  refine (zero_add _).trans (Finset.sum_congr rfl fun k _ => ?_)
  have e : idx_main_call3_v7 (ix1 p) k = ix2 p k := by idx2
  rw [e, val_main_call3_v6_apply, shift_apply]
  rfl

/-- The logarithm of the row sum, spread back along the row. -/
theorem logsum_apply (x0 : (⟨S100000x256, .f32⟩ : BufTy).Contents (Elt Ideal)) (x1 : (⟨S2x3200000, .i32⟩ : BufTy).Contents (Elt Ideal)) (x2 : (⟨S256x64, .f32⟩ : BufTy).Contents (Elt Ideal)) (x3 : (⟨S64, .f32⟩ : BufTy).Contents (Elt Ideal)) (x4 : (⟨S256x64, .f32⟩ : BufTy).Contents (Elt Ideal)) (x5 : (⟨S64, .f32⟩ : BufTy).Contents (Elt Ideal)) (x6 : (⟨S256x64, .f32⟩ : BufTy).Contents (Elt Ideal)) (x7 : (⟨S64, .f32⟩ : BufTy).Contents (Elt Ideal)) (x8 : (⟨S64x1, .f32⟩ : BufTy).Contents (Elt Ideal)) (x9 : (⟨S1, .f32⟩ : BufTy).Contents (Elt Ideal)) (x10 : (⟨S64x1, .f32⟩ : BufTy).Contents (Elt Ideal)) (x11 : (⟨S1, .f32⟩ : BufTy).Contents (Elt Ideal)) (x12 : (⟨S64x1, .f32⟩ : BufTy).Contents (Elt Ideal)) (x13 : (⟨S1, .f32⟩ : BufTy).Contents (Elt Ideal)) (p : Fin 100000) (q : Fin 64) :
    val_main_call3_v10 (F := Ideal) x0 x1 x2 x3 x4 x5 x6 x7 x8 x9 x10 x11 x12 x13 (ix2 p q)
      = Ideal.log (∑ q' : Fin 64, Ideal.exp ((val_main_v112 (F := Ideal) x0 x1 x2 x3 x4 x5 x6 x7 x8 x9 x10 x11 x12 x13) (ix2 p q') - Cert.Spec.rowTop (n := 100000) (o := 64) (val_main_v112 (F := Ideal) x0 x1 x2 x3 x4 x5 x6 x7 x8 x9 x10 x11 x12 x13) p)) := by
  rw [val_main_call3_v10_apply, val_main_call3_v9_apply, val_main_call3_v8_apply]
  have e : idx_main_call3_v8 (idx_main_call3_v10 (ix2 p q)) = ix1 p := by idx1
  rw [e, rowsum_apply]
  rfl

/-- The result is the specification's log-softmax of the mixed array. -/
theorem lsm_eq (x0 : (⟨S100000x256, .f32⟩ : BufTy).Contents (Elt Ideal)) (x1 : (⟨S2x3200000, .i32⟩ : BufTy).Contents (Elt Ideal)) (x2 : (⟨S256x64, .f32⟩ : BufTy).Contents (Elt Ideal)) (x3 : (⟨S64, .f32⟩ : BufTy).Contents (Elt Ideal)) (x4 : (⟨S256x64, .f32⟩ : BufTy).Contents (Elt Ideal)) (x5 : (⟨S64, .f32⟩ : BufTy).Contents (Elt Ideal)) (x6 : (⟨S256x64, .f32⟩ : BufTy).Contents (Elt Ideal)) (x7 : (⟨S64, .f32⟩ : BufTy).Contents (Elt Ideal)) (x8 : (⟨S64x1, .f32⟩ : BufTy).Contents (Elt Ideal)) (x9 : (⟨S1, .f32⟩ : BufTy).Contents (Elt Ideal)) (x10 : (⟨S64x1, .f32⟩ : BufTy).Contents (Elt Ideal)) (x11 : (⟨S1, .f32⟩ : BufTy).Contents (Elt Ideal)) (x12 : (⟨S64x1, .f32⟩ : BufTy).Contents (Elt Ideal)) (x13 : (⟨S1, .f32⟩ : BufTy).Contents (Elt Ideal)) :
    val_main_v113 (F := Ideal) x0 x1 x2 x3 x4 x5 x6 x7 x8 x9 x10 x11 x12 x13 = Cert.Spec.logSoftmax (n := 100000) (o := 64) (val_main_v112 (F := Ideal) x0 x1 x2 x3 x4 x5 x6 x7 x8 x9 x10 x11 x12 x13) := by
  funext i
  obtain ⟨p, q, rfl⟩ : ∃ (p : Fin 100000) (q : Fin 64), i = ix2 p q := ⟨i 0, i 1, eq_ix2 i⟩
  rw [Cert.Spec.logSoftmax_apply, val_main_v113_apply, shift_apply, logsum_apply]
  rfl

/-! ## The whole tail -/

/-- The result is the specification's tail of the two projections' stages: the high-pass projection and its
    aggregate, the low-pass aggregate and the identity branch. -/
theorem tail_eq (x0 : (⟨S100000x256, .f32⟩ : BufTy).Contents (Elt Ideal)) (x1 : (⟨S2x3200000, .i32⟩ : BufTy).Contents (Elt Ideal)) (x2 : (⟨S256x64, .f32⟩ : BufTy).Contents (Elt Ideal)) (x3 : (⟨S64, .f32⟩ : BufTy).Contents (Elt Ideal)) (x4 : (⟨S256x64, .f32⟩ : BufTy).Contents (Elt Ideal)) (x5 : (⟨S64, .f32⟩ : BufTy).Contents (Elt Ideal)) (x6 : (⟨S256x64, .f32⟩ : BufTy).Contents (Elt Ideal)) (x7 : (⟨S64, .f32⟩ : BufTy).Contents (Elt Ideal)) (x8 : (⟨S64x1, .f32⟩ : BufTy).Contents (Elt Ideal)) (x9 : (⟨S1, .f32⟩ : BufTy).Contents (Elt Ideal)) (x10 : (⟨S64x1, .f32⟩ : BufTy).Contents (Elt Ideal)) (x11 : (⟨S1, .f32⟩ : BufTy).Contents (Elt Ideal)) (x12 : (⟨S64x1, .f32⟩ : BufTy).Contents (Elt Ideal)) (x13 : (⟨S1, .f32⟩ : BufTy).Contents (Elt Ideal)) :
    val_main_v113 (F := Ideal) x0 x1 x2 x3 x4 x5 x6 x7 x8 x9 x10 x11 x12 x13
      = Cert.Spec.tail (n := 100000) (o := 64) (val_main_v16 (F := Ideal) x0 x2 x3) (val_main_v48 (F := Ideal) x0 x1 x2 x3)
          (val_main_v86 (F := Ideal) x0 x1 x4 x5) (val_main_v92 (F := Ideal) x0 x6 x7)
          (fun k => x8 (ix2 k (0 : Fin 1))) (fun k => x10 (ix2 k (0 : Fin 1))) (fun k => x12 (ix2 k (0 : Fin 1)))
          (x9 (ix1 (0 : Fin 1))) (x11 (ix1 (0 : Fin 1))) (x13 (ix1 (0 : Fin 1))) := by
  rw [lsm_eq, mix_eq, high_eq, low_eq]
  rfl

end Cert.ReferenceIdeal.Bridge

end
-- ==== Proof.LibColumns.lean ====
/-
  Column-shaped arrays read at an index given by coordinates.

  A row reduction that keeps its axis (a sum over the columns of an [a, b] matrix, kept as an [a, 1] column) is
  spelt, in a kernel, as a reduction to [a], a cast to [a, 1] and a broadcast back to [a, b]; on the host the
  column is a broadcast of [a] into [a, 1], and a column turned into a row is a reshape of [a, 1] to [1, a].
  Each of these four layout operations moves no data: entry (i, u) of the column is entry i of the vector,
  entry (p, c) of the broadcast is entry (p, 0) of the column, entry (u, i) of the row is entry (i, 0) of the
  column. The lemmas below say so with every index written by its coordinates.
-/
import Idealize.ShloMosaic.Lib.Pipeline.Value
import Idealize.ShloMosaic.Lib.ValueIdx

namespace Cert.Columns

open Idealize.ShloMosaic Idealize.ShloMosaic.ValueIdx

variable {α : Type}

/-- A vector of length `a` cast to an [a, 1] column reads, at (i, u), the vector at i: both sit at row-major
    position i, the unit coordinate u being 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column reshaped to a [1, a] row reads, at (u, i), the column at (i, 0): both sit at row-major
    position i. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An [a, 1] column broadcast over b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length `a` broadcast along axis 0 into an [a, 1] column reads, at (i, u), the vector at i. -/
theorem broadcastInDim_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (i : Fin a) (u : Fin 1) : broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else (ix2 i u (dims ⟨0, Nat.one_pos⟩)).val
    rw [hd]
    show i.val = if a = 1 then 0 else i.val
    split
    · have := i.isLt; omega
    · rfl

end Cert.Columns
-- ==== Proof.Bridge.lean ====
/-
  Both programs' results as ONE function of the argument arrays.

  With a_k the k-th argument array, write
      hp = x·W_hp + b_hp,   lp = x·W_lp + b_lp,   Hi = max(x·W_i + b_i, 0)        (affine maps of every row),
      A1 = the graph aggregate of hp,   A2 = the graph aggregate of lp,
      out = the specification's tail of (hp, A1, A2, Hi) with the three gate weight columns and gate biases.
  The kernel program reaches `out` through its two calls and the host operations around them: the projection call
  leaves hp, lp, Hi in its three output arrays; the host operations between the calls form A1 and A2 from them with
  the reference's own operations; the combine call leaves the tail of what it finds. The reference reaches `out`
  stage by stage. A weight column [64, 1] laid out as a row [1, 64] has entry (0, k) equal to the column's (k, 0); a
  vector [n] laid out as [1, n] has entry (0, k) equal to the vector's k.
-/
import proofs.«180817_j34041910788577_1_alg».proof.Proof.KernelRun
import proofs.«180817_j34041910788577_1_alg».proof.Proof.Region0
import proofs.«180817_j34041910788577_1_alg».proof.Proof.Region1
import proofs.«180817_j34041910788577_1_alg».proof.Proof.HostK
import proofs.«180817_j34041910788577_1_alg».proof.Proof.RefSide
import proofs.«180817_j34041910788577_1_alg».proof.Proof.RefAgg
import proofs.«180817_j34041910788577_1_alg».proof.Proof.LibColumns
import Idealize.ShloMosaic.Lib.ValueLayout

set_option maxRecDepth 16384

noncomputable section

namespace Cert.Bridge

open Idealize.ShloMosaic Idealize.ShloMosaic.TcCoe Idealize.ShloMosaic.ValueIdx Idealize.SL.Sem
open Cert.ReferenceIdeal.Read Cert.ReferenceIdeal.Agg

/-- The result both programs compute, as a function of the fourteen argument arrays. -/
def out (a0 : (⟨Cert.ReferenceIdeal.S100000x256, .f32⟩ : BufTy).Contents (Elt Ideal))
    (a1 : (⟨Cert.ReferenceIdeal.S2x3200000, .i32⟩ : BufTy).Contents (Elt Ideal))
    (a2 : (⟨Cert.ReferenceIdeal.S256x64, .f32⟩ : BufTy).Contents (Elt Ideal)) (a3 : (⟨Cert.ReferenceIdeal.S64, .f32⟩ : BufTy).Contents (Elt Ideal))
    (a4 : (⟨Cert.ReferenceIdeal.S256x64, .f32⟩ : BufTy).Contents (Elt Ideal)) (a5 : (⟨Cert.ReferenceIdeal.S64, .f32⟩ : BufTy).Contents (Elt Ideal))
    (a6 : (⟨Cert.ReferenceIdeal.S256x64, .f32⟩ : BufTy).Contents (Elt Ideal)) (a7 : (⟨Cert.ReferenceIdeal.S64, .f32⟩ : BufTy).Contents (Elt Ideal))
    (a8 : (⟨Cert.ReferenceIdeal.S64x1, .f32⟩ : BufTy).Contents (Elt Ideal)) (a9 : (⟨Cert.ReferenceIdeal.S1, .f32⟩ : BufTy).Contents (Elt Ideal))
    (a10 : (⟨Cert.ReferenceIdeal.S64x1, .f32⟩ : BufTy).Contents (Elt Ideal)) (a11 : (⟨Cert.ReferenceIdeal.S1, .f32⟩ : BufTy).Contents (Elt Ideal))
    (a12 : (⟨Cert.ReferenceIdeal.S64x1, .f32⟩ : BufTy).Contents (Elt Ideal)) (a13 : (⟨Cert.ReferenceIdeal.S1, .f32⟩ : BufTy).Contents (Elt Ideal)) :
    (⟨Cert.ReferenceIdeal.S100000x64, .f32⟩ : BufTy).Contents (Elt Ideal) :=
  Cert.Spec.tail (n := 100000) (o := 64) (val_main_v16 (F := Ideal) a0 a2 a3) (agg1 a1 (val_main_v16 (F := Ideal) a0 a2 a3))
    (agg2 a1 (val_main_v54 (F := Ideal) a0 a4 a5)) (val_main_v92 (F := Ideal) a0 a6 a7)
    (fun k => a8 (ix2 k (0 : Fin 1))) (fun k => a10 (ix2 k (0 : Fin 1))) (fun k => a12 (ix2 k (0 : Fin 1)))
    (a9 (ix1 (0 : Fin 1))) (a11 (ix1 (0 : Fin 1))) (a13 (ix1 (0 : Fin 1)))

/-! ## The reference -/

/-- The reference's last stage is `out` of the arguments: its tail is the specification's, and its two aggregates are
    `agg1`, `agg2` of its two projections. -/
theorem ref_value (a0 : (⟨Cert.ReferenceIdeal.S100000x256, .f32⟩ : BufTy).Contents (Elt Ideal))
    (a1 : (⟨Cert.ReferenceIdeal.S2x3200000, .i32⟩ : BufTy).Contents (Elt Ideal))
    (a2 : (⟨Cert.ReferenceIdeal.S256x64, .f32⟩ : BufTy).Contents (Elt Ideal)) (a3 : (⟨Cert.ReferenceIdeal.S64, .f32⟩ : BufTy).Contents (Elt Ideal))
    (a4 : (⟨Cert.ReferenceIdeal.S256x64, .f32⟩ : BufTy).Contents (Elt Ideal)) (a5 : (⟨Cert.ReferenceIdeal.S64, .f32⟩ : BufTy).Contents (Elt Ideal))
    (a6 : (⟨Cert.ReferenceIdeal.S256x64, .f32⟩ : BufTy).Contents (Elt Ideal)) (a7 : (⟨Cert.ReferenceIdeal.S64, .f32⟩ : BufTy).Contents (Elt Ideal))
    (a8 : (⟨Cert.ReferenceIdeal.S64x1, .f32⟩ : BufTy).Contents (Elt Ideal)) (a9 : (⟨Cert.ReferenceIdeal.S1, .f32⟩ : BufTy).Contents (Elt Ideal))
    (a10 : (⟨Cert.ReferenceIdeal.S64x1, .f32⟩ : BufTy).Contents (Elt Ideal)) (a11 : (⟨Cert.ReferenceIdeal.S1, .f32⟩ : BufTy).Contents (Elt Ideal))
    (a12 : (⟨Cert.ReferenceIdeal.S64x1, .f32⟩ : BufTy).Contents (Elt Ideal)) (a13 : (⟨Cert.ReferenceIdeal.S1, .f32⟩ : BufTy).Contents (Elt Ideal)) :
    val_main_v113 (F := Ideal) a0 a1 a2 a3 a4 a5 a6 a7 a8 a9 a10 a11 a12 a13 = out a0 a1 a2 a3 a4 a5 a6 a7 a8 a9 a10 a11 a12 a13 := by
  rw [Cert.ReferenceIdeal.Bridge.tail_eq, v48_eq, v86_eq]
  rfl

/-! ## The kernel program -/

section Kernel

open Cert.KernelIdeal Cert.KernelIdeal.Gen Cert.KernelIdeal.Glue

variable (m : (ℓ : Loc nD τ sig) → Buf (Elt Ideal) ℓ) (ρ : Dev nD → PrngReg)

/-- A vector laid out as a row, read at an entry of the row. -/
theorem row_of_vec (x : (⟨1, ![64]⟩ : Shape).Idx → EReal) (h : (⟨1, ![64]⟩ : Shape).ShapeCasts ⟨2, ![1, 64]⟩) :
    (fun q : Fin 64 => shapeCast ⟨2, ![1, 64]⟩ x h (ix2 (0 : Fin 1) q)) = fun q => x (ix1 q) :=
  funext fun q => shapeCast_a_1a_apply x h 0 q

/-- A column laid out as a row, read at an entry of the row. -/
theorem row_of_col (x : (⟨2, ![64, 1]⟩ : Shape).Idx → EReal) (h : (⟨2, ![64, 1]⟩ : Shape).ShapeCasts ⟨2, ![1, 64]⟩) :
    (fun k : Fin 64 => shapeCast ⟨2, ![1, 64]⟩ x h (ix2 (0 : Fin 1) k)) = fun k => x (ix2 k (0 : Fin 1)) :=
  funext fun k => Cert.Columns.shapeCast_a1_1a_apply x h 0 k

/-- A one-entry vector laid out as [1, 1]. -/
theorem one_of_vec (x : (⟨1, ![1]⟩ : Shape).Idx → EReal) (h : (⟨1, ![1]⟩ : Shape).ShapeCasts ⟨2, ![1, 1]⟩) :
    shapeCast ⟨2, ![1, 1]⟩ x h (ix2 (0 : Fin 1) (0 : Fin 1)) = x (ix1 (0 : Fin 1)) :=
  shapeCast_a_1a_apply x h 0 0

/-- The projection call's first output is the reference's high-pass projection of the arguments. -/
theorem hp_value (c : Dev nD) : (dat0 (V1 m ρ) c).arrAt 7 cfg0.N
    = val_main_v16 (F := Ideal) (m ((c : Thread nD τ).loc main_arg0)) (m ((c : Thread nD τ).loc main_arg2)) (m ((c : Thread nD τ).loc main_arg3)) := by
  rw [Cert.KernelIdeal.Proj.final7 (V1 m ρ) c, Cert.ReferenceIdeal.Bridge.hp_eq]
  unfold Cert.KernelIdeal.Proj.G7
  rw [V1_arg0 m ρ c, V1_arg2 m ρ c, V1_v13 m ρ c, row_of_vec]

/-- Its second output is the low-pass projection. -/
theorem lp_value (c : Dev nD) : (dat0 (V1 m ρ) c).arrAt 8 cfg0.N
    = val_main_v54 (F := Ideal) (m ((c : Thread nD τ).loc main_arg0)) (m ((c : Thread nD τ).loc main_arg4)) (m ((c : Thread nD τ).loc main_arg5)) := by
  rw [Cert.KernelIdeal.Proj.final8 (V1 m ρ) c, Cert.ReferenceIdeal.Bridge.lp_eq]
  unfold Cert.KernelIdeal.Proj.G8
  rw [V1_arg0 m ρ c, V1_arg4 m ρ c, V1_v14 m ρ c, row_of_vec]

/-- Its third output is the rectified identity projection. -/
theorem id_value (c : Dev nD) : (dat0 (V1 m ρ) c).arrAt 9 cfg0.N
    = val_main_v92 (F := Ideal) (m ((c : Thread nD τ).loc main_arg0)) (m ((c : Thread nD τ).loc main_arg6)) (m ((c : Thread nD τ).loc main_arg7)) := by
  rw [Cert.KernelIdeal.Proj.final9 (V1 m ρ) c, Cert.ReferenceIdeal.Bridge.id_eq]
  unfold Cert.KernelIdeal.Proj.G9
  rw [V1_arg0 m ρ c, V1_arg6 m ρ c, V1_v15 m ρ c, row_of_vec]

/-- The gate weight rows the combine call finds are the weight columns, entry (0, k) the column's (k, 0). -/
theorem wgh_row (c : Dev nD) : (fun k : Fin 64 => V3 m ρ c main_v66 (ix2 (0 : Fin 1) k))
    = fun k : Fin 64 => m ((c : Thread nD τ).loc main_arg8) (ix2 k (0 : Fin 1)) := by
  rw [V3_v66 m ρ c]; exact row_of_col _ _
theorem wgl_row (c : Dev nD) : (fun k : Fin 64 => V3 m ρ c main_v67 (ix2 (0 : Fin 1) k))
    = fun k : Fin 64 => m ((c : Thread nD τ).loc main_arg10) (ix2 k (0 : Fin 1)) := by
  rw [V3_v67 m ρ c]; exact row_of_col _ _
theorem wgi_row (c : Dev nD) : (fun k : Fin 64 => V3 m ρ c main_v68 (ix2 (0 : Fin 1) k))
    = fun k : Fin 64 => m ((c : Thread nD τ).loc main_arg12) (ix2 k (0 : Fin 1)) := by
  rw [V3_v68 m ρ c]; exact row_of_col _ _
/-- The gate biases it finds are the one-entry bias vectors. -/
theorem bgh_one (c : Dev nD) : V3 m ρ c main_v69 (ix2 (0 : Fin 1) (0 : Fin 1)) = m ((c : Thread nD τ).loc main_arg9) (ix1 (0 : Fin 1)) := by
  rw [V3_v69 m ρ c]; exact one_of_vec _ _
theorem bgl_one (c : Dev nD) : V3 m ρ c main_v70 (ix2 (0 : Fin 1) (0 : Fin 1)) = m ((c : Thread nD τ).loc main_arg11) (ix1 (0 : Fin 1)) := by
  rw [V3_v70 m ρ c]; exact one_of_vec _ _
theorem bgi_one (c : Dev nD) : V3 m ρ c main_v71 (ix2 (0 : Fin 1) (0 : Fin 1)) = m ((c : Thread nD τ).loc main_arg13) (ix1 (0 : Fin 1)) := by
  rw [V3_v71 m ρ c]; exact one_of_vec _ _

/-- The four arrays the combine call finds, as the reference's stages of the arguments. -/
theorem in_hp (c : Dev nD) : V3 m ρ c main_v16_0
    = val_main_v16 (F := Ideal) (m ((c : Thread nD τ).loc main_arg0)) (m ((c : Thread nD τ).loc main_arg2)) (m ((c : Thread nD τ).loc main_arg3)) :=
  (V3_v16_0 m ρ c).trans (hp_value m ρ c)
theorem in_id (c : Dev nD) : V3 m ρ c main_v16_2
    = val_main_v92 (F := Ideal) (m ((c : Thread nD τ).loc main_arg0)) (m ((c : Thread nD τ).loc main_arg6)) (m ((c : Thread nD τ).loc main_arg7)) :=
  (V3_v16_2 m ρ c).trans (id_value m ρ c)
theorem in_a1 (c : Dev nD) : V3 m ρ c main_v48
    = agg1 (m ((c : Thread nD τ).loc main_arg1))
        (val_main_v16 (F := Ideal) (m ((c : Thread nD τ).loc main_arg0)) (m ((c : Thread nD τ).loc main_arg2)) (m ((c : Thread nD τ).loc main_arg3))) := by
  rw [V3_v48 m ρ c, hp_value m ρ c]
theorem in_a2 (c : Dev nD) : V3 m ρ c main_v65
    = agg2 (m ((c : Thread nD τ).loc main_arg1))
        (val_main_v54 (F := Ideal) (m ((c : Thread nD τ).loc main_arg0)) (m ((c : Thread nD τ).loc main_arg4)) (m ((c : Thread nD τ).loc main_arg5))) := by
  rw [V3_v65 m ρ c, lp_value m ρ c]

/-- The kernel program's result buffer ends holding `out` of its arguments. -/
theorem kernel_value (c : Dev nD) :
    W4 m ρ c (Proc.devRef .tc main_v72)
      = out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) := by
  refine (W4_arr m ρ c 10).trans ?_
  rw [Cert.KernelIdeal.Comb.final10 (V3 m ρ) c]
  unfold Cert.KernelIdeal.Comb.G10 out
  rw [wgh_row m ρ c, wgl_row m ρ c, wgi_row m ρ c, bgh_one m ρ c, bgl_one m ρ c, bgi_one m ρ c,
    in_hp m ρ c, in_a1 m ρ c, in_a2 m ρ c, in_id m ρ c]

end Kernel

end Cert.Bridge

end
-- ==== Proof.LibLocalEq.lean ====
/- A straight line of host operations in single-assignment form, read one operation at a time.

   `StableHlo.after l V` is what the buffers hold once the operations `l` have run in order from contents `V`. When operation
   `n` of the line writes exactly the reference `W[n]`, and the references `W` carry strictly increasing numbers
   (`key`: a reference's index in its space), the final contents satisfy each operation's own equation: an operation
   `y := f x` whose operand has a smaller number than its result (so it is written earlier, or never) ends with
   `after l V y = f (after l V x)` — the operand is not written again after it is read, and the result is not written
   again after it is made. With one such equation per operation, what a buffer holds at the end is read back through
   exactly the operations that lead to it, by rewriting, without unfolding the rest of the line. Nothing here depends on a
   particular program, topology or signature. -/
import Idealize.ShloMosaic.Lib.StableHlo.Run

noncomputable section

namespace Cert.LibLocalEq

open Idealize.ShloMosaic Idealize.ShloMosaic.StableHlo Idealize.SL.Sem

variable {τ : Topo} {sig : RefSig} {Val : EltTy → Type}

/-- The fold over joined lists is the folds in turn. -/
theorem after_join (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- The operation writes exactly the reference `y`. -/
def WritesRef (op : HloOp τ sig Val) (y : Ref sig .tc) : Prop := op.writes = {Proc.devRef (τ := τ) .tc y}

/-- A line whose operations write, one each and in order, the references `W` leaves every other reference alone. -/
theorem after_keep {l : List (HloOp τ sig Val)} {W : List (Ref sig .tc)} (h : List.Forall₂ WritesRef l W) {r : Ref sig .tc}
    (hr : r ∉ W) (V : Valuation τ sig Val) : after l V (Proc.devRef .tc r) = V (Proc.devRef .tc r) := by
  induction h generalizing V with
  | nil => rfl
  | @cons op y l W hop _ ih =>
    rw [after_cons, ih (fun hm => hr (List.mem_cons_of_mem _ hm)),
      op.result_of_not_mem V (by
        rw [hop, Finset.mem_singleton]
        exact devRef_ne_of_ne fun e => hr (e ▸ List.mem_cons_self))]

/-- A reference's number: its index in its memory space. -/
def key (r : Ref sig .tc) : Nat := r.idx.val

/-- A line in single-assignment form: operation `n` writes exactly the reference `W[n]`, and the references' numbers
    increase strictly along `W`. -/
structure Numbered (l : List (HloOp τ sig Val)) (W : List (Ref sig .tc)) : Prop where
  writes : List.Forall₂ WritesRef l W
  keys : (W.map key).Pairwise (· < ·)

/-- The numbers `base, base + 1, …` in order are strictly increasing: the usual way to give `Numbered.keys` for a literal
    list (the equation by `decide`). -/
theorem Numbered.of_range {l : List (HloOp τ sig Val)} {W : List (Ref sig .tc)} (hw : List.Forall₂ WritesRef l W) (base : Nat)
    (hk : W.map key = List.range' base W.length) : Numbered l W :=
  ⟨hw, hk ▸ List.pairwise_lt_range'⟩

/-- A reference numbered no higher than the `n`-th written one is not written after it. -/
theorem not_mem_drop {W : List (Ref sig .tc)} (hk : (W.map key).Pairwise (· < ·)) {n : Nat} {y : Ref sig .tc} (hy : W[n]? = some y)
    {r : Ref sig .tc} (hr : key r ≤ key y) : r ∉ W.drop (n + 1) := by
  intro hm
  obtain ⟨i, hi⟩ := List.mem_iff_getElem?.mp hm
  rw [List.getElem?_drop] at hi
  obtain ⟨hn, rfl⟩ := List.getElem?_eq_some_iff.mp hy
  obtain ⟨hj, rfl⟩ := List.getElem?_eq_some_iff.mp hi
  have h := List.pairwise_iff_getElem.mp hk n (n + 1 + i) (by simpa using hn) (by simpa using hj) (by omega)
  simp only [List.getElem_map] at h
  omega

variable {l : List (HloOp τ sig Val)} {W : List (Ref sig .tc)}

/-- The contents of a lower-numbered reference when operation `n` runs are its final contents. -/
theorem after_take (hN : Numbered l W) {n : Nat} {y : Ref sig .tc} (hy : W[n]? = some y) {x : Ref sig .tc} (hx : key x < key y)
    (V : Valuation τ sig Val) : after (l.take n) V (Proc.devRef .tc x) = after l V (Proc.devRef .tc x) := by
  conv_rhs => rw [← List.take_append_drop n l, after_join]
  refine (after_keep (List.forall₂_drop n hN.writes) ?_ _).symm
  obtain ⟨hn, e⟩ := List.getElem?_eq_some_iff.mp hy
  rw [List.drop_eq_getElem_cons hn, e, List.mem_cons, not_or]
  exact ⟨fun h => by rw [h] at hx; exact Nat.lt_irrefl _ hx, not_mem_drop hN.keys hy (Nat.le_of_lt hx)⟩

/-- What operation `n` leaves at the reference it writes is that reference's final contents. -/
theorem after_at (hN : Numbered l W) {n : Nat} {op : HloOp τ sig Val} (hn : l[n]? = some op) {y : Ref sig .tc} (hy : W[n]? = some y)
    (V : Valuation τ sig Val) :
    after l V (Proc.devRef .tc y) = op.result (after (l.take n) V) (Proc.devRef .tc y) := by
  obtain ⟨hlt, rfl⟩ := List.getElem?_eq_some_iff.mp hn
  conv_lhs => rw [← List.take_append_drop n l, after_join, List.drop_eq_getElem_cons hlt, after_cons]
  exact after_keep (List.forall₂_drop (n + 1) hN.writes) (not_mem_drop hN.keys hy (Nat.le_refl _)) _

/-! ## One equation per operation, by the builder's arity

For operation `n` of a numbered line, given as a literal builder: `hn` and `hy` by `rfl` (the `n`-th operation and
the `n`-th written reference), each operand's `key x < key y` by `decide`. -/

theorem eq_nullary (hN : Numbered l W) {n : Nat} {y : Ref sig .tc} {v : y.ty.Contents Val} {hy'}
    (hn : l[n]? = some (nullary (τ := τ) y v hy')) (hy : W[n]? = some y) (V : Valuation τ sig Val) :
    after l V (Proc.devRef .tc y) = v := by
  rw [after_at hN hn hy, nullary_result]

theorem eq_unary (hN : Numbered l W) {n : Nat} {x y : Ref sig .tc} {f : x.ty.Contents Val → y.ty.Contents Val} {hx' hy'}
    (hn : l[n]? = some (unary (τ := τ) x y f hx' hy')) (hy : W[n]? = some y) (hx : key x < key y) (V : Valuation τ sig Val) :
    after l V (Proc.devRef .tc y) = f (after l V (Proc.devRef .tc x)) := by
  rw [after_at hN hn hy, unary_result, after_take hN hy hx]

theorem eq_binary (hN : Numbered l W) {n : Nat} {a b y : Ref sig .tc}
    {f : a.ty.Contents Val → b.ty.Contents Val → y.ty.Contents Val} {ha' hb' hy'}
    (hn : l[n]? = some (binary (τ := τ) a b y f ha' hb' hy')) (hy : W[n]? = some y) (ha : key a < key y) (hb : key b < key y)
    (V : Valuation τ sig Val) :
    after l V (Proc.devRef .tc y) = f (after l V (Proc.devRef .tc a)) (after l V (Proc.devRef .tc b)) := by
  rw [after_at hN hn hy, binary_result, after_take hN hy ha, after_take hN hy hb]

theorem eq_ternary (hN : Numbered l W) {n : Nat} {c a b y : Ref sig .tc}
    {f : c.ty.Contents Val → a.ty.Contents Val → b.ty.Contents Val → y.ty.Contents Val} {hc' ha' hb' hy'}
    (hn : l[n]? = some (ternary (τ := τ) c a b y f hc' ha' hb' hy')) (hy : W[n]? = some y) (hc : key c < key y) (ha : key a < key y)
    (hb : key b < key y) (V : Valuation τ sig Val) :
    after l V (Proc.devRef .tc y)
      = f (after l V (Proc.devRef .tc c)) (after l V (Proc.devRef .tc a)) (after l V (Proc.devRef .tc b)) := by
  rw [after_at hN hn hy, ternary_result, after_take hN hy hc, after_take hN hy ha, after_take hN hy hb]

theorem eq_quaternary (hN : Numbered l W) {n : Nat} {a b c e y : Ref sig .tc}
    {f : a.ty.Contents Val → b.ty.Contents Val → c.ty.Contents Val → e.ty.Contents Val → y.ty.Contents Val} {ha' hb' hc' he' hy'}
    (hn : l[n]? = some (quaternary (τ := τ) a b c e y f ha' hb' hc' he' hy')) (hy : W[n]? = some y) (ha : key a < key y)
    (hb : key b < key y) (hc : key c < key y) (he : key e < key y) (V : Valuation τ sig Val) :
    after l V (Proc.devRef .tc y)
      = f (after l V (Proc.devRef .tc a)) (after l V (Proc.devRef .tc b)) (after l V (Proc.devRef .tc c))
          (after l V (Proc.devRef .tc e)) := by
  rw [after_at hN hn hy, quaternary_result, after_take hN hy ha, after_take hN hy hb, after_take hN hy hc, after_take hN hy he]

theorem eq_reshape (hN : Numbered l W) {n : Nat} {x y : Ref sig .tc} {he : x.ty.elt = y.ty.elt}
    {hs : x.ty.shape.ShapeCasts y.ty.shape} {hx' hy'}
    (hn : l[n]? = some (reshape (τ := τ) (Val := Val) x y he hs hx' hy')) (hy : W[n]? = some y) (hx : key x < key y)
    (V : Valuation τ sig Val) :
    after l V (Proc.devRef .tc y) = fun i => he ▸ shapeCast y.ty.shape (after l V (Proc.devRef .tc x)) hs i := by
  rw [after_at hN hn hy, reshape_result, after_take hN hy hx]

end Cert.LibLocalEq

end
-- ==== Proof.RefNumbered.lean ====
import proofs.«180817_j34041910788577_1_alg».proof.Proof.RefOps
import proofs.«180817_j34041910788577_1_alg».proof.Proof.LibLocalEq
import Idealize.ShloMosaic.PureOps.Ideal
/-
  The reference program is a line of operations in single-assignment form.

  Each of the 152 operations of the reference's main function writes exactly one buffer, a different one each, and
  those buffers carry the numbers 14, 15, …, 165 in the order they are written, after the fourteen arguments
  0, …, 13. So no result is written a second time and every operand, having a smaller number than the result made
  from it, is final when it is read: the contents at the end satisfy each operation's own equation. The fourteen
  argument buffers are written by no operation and end as they were launched.
-/

noncomputable section

namespace Cert.ReferenceIdeal.Stages

open Cert.ReferenceIdeal Cert.ReferenceIdeal.Value Cert.LibLocalEq Idealize.ShloMosaic Idealize.ShloMosaic.StableHlo
  Idealize.ShloMosaic.TcCoe Idealize.SL.Sem

/-- The buffers the 152 operations write, in the operations' order. -/
abbrev W : List (Ref sig .tc) :=
  [ main_v0, main_v1, main_v2, main_v3, main_cst, main_v4, main_cst_0, main_v5,
    main_v6, main_v7, main_cst_1, main_v8, main_v9, main_v10, main_cst_2, main_v11,
    main_v12, main_v13, main_v14, main_v15, main_v16, main_c, main_v17, main_v18,
    main_c_3, main_v19, main_v20, main_v21, main_v22, main_v23, main_c_4, main_v24,
    main_v25, main_c_5, main_v26, main_v27, main_v28, main_v29, main_v30, main_v31,
    main_c_6, main_v32, main_v33, main_c_7, main_v34, main_v35, main_v36, main_v37,
    main_v38, main_v39, main_v40, main_v41, main_cst_8, main_v42, main_v43, main_v44,
    main_v45, main_v46, main_v47, main_v48, main_v49, main_call0_cst, main_call0_v0, main_v50,
    main_v51, main_v52, main_v53, main_v54, main_c_9, main_v55, main_v56, main_c_10,
    main_v57, main_v58, main_v59, main_v60, main_v61, main_c_11, main_v62, main_v63,
    main_c_12, main_v64, main_v65, main_v66, main_v67, main_v68, main_v69, main_c_13,
    main_v70, main_v71, main_c_14, main_v72, main_v73, main_v74, main_v75, main_v76,
    main_v77, main_v78, main_v79, main_cst_15, main_v80, main_v81, main_v82, main_v83,
    main_v84, main_v85, main_v86, main_call1_cst, main_call1_v0, main_v87, main_v88, main_v89,
    main_v90, main_v91, main_call2_cst, main_call2_v0, main_v92, main_v93, main_v94, main_v95,
    main_v96, main_v97, main_v98, main_v99, main_v100, main_v101, main_v102, main_v103,
    main_v104, main_v105, main_v106, main_v107, main_v108, main_v109, main_v110, main_v111,
    main_v112, main_call3_cst, main_call3_v0, main_call3_cst_0, main_call3_v1, main_call3_v2, main_call3_v3, main_call3_v4,
    main_call3_v5, main_call3_v6, main_call3_cst_1, main_call3_v7, main_call3_v8, main_call3_v9, main_call3_v10, main_v113 ]

/-- Operation n writes exactly the n-th buffer of the list: each builder writes its result buffer and nothing else. -/
theorem writes : List.Forall₂ WritesRef (ops (F := Ideal)) W := by
  repeat' (first | exact List.Forall₂.nil | refine List.Forall₂.cons rfl ?_)

/-- The line is in single-assignment form: the written buffers' numbers are 14, 15, …, 165 in order. -/
theorem numbered : Numbered (ops (F := Ideal)) W :=
  Numbered.of_range writes 14 (by decide)

/-- Argument 0 is written by no operation: it ends as it was launched. -/
theorem kept_arg0 (m : (ℓ : Loc nD τ sig) → Buf (Elt Ideal) ℓ) (c : Dev nD) :
    after (ops (F := Ideal)) (launchContents m c) (Proc.devRef .tc main_arg0) = m ((c.tc : Thread nD τ).loc main_arg0) :=
  (after_keep numbered.writes (by decide : main_arg0 ∉ W) _).trans rfl

/-- Argument 1 is written by no operation: it ends as it was launched. -/
theorem kept_arg1 (m : (ℓ : Loc nD τ sig) → Buf (Elt Ideal) ℓ) (c : Dev nD) :
    after (ops (F := Ideal)) (launchContents m c) (Proc.devRef .tc main_arg1) = m ((c.tc : Thread nD τ).loc main_arg1) :=
  (after_keep numbered.writes (by decide : main_arg1 ∉ W) _).trans rfl

/-- Argument 2 is written by no operation: it ends as it was launched. -/
theorem kept_arg2 (m : (ℓ : Loc nD τ sig) → Buf (Elt Ideal) ℓ) (c : Dev nD) :
    after (ops (F := Ideal)) (launchContents m c) (Proc.devRef .tc main_arg2) = m ((c.tc : Thread nD τ).loc main_arg2) :=
  (after_keep numbered.writes (by decide : main_arg2 ∉ W) _).trans rfl

/-- Argument 3 is written by no operation: it ends as it was launched. -/
theorem kept_arg3 (m : (ℓ : Loc nD τ sig) → Buf (Elt Ideal) ℓ) (c : Dev nD) :
    after (ops (F := Ideal)) (launchContents m c) (Proc.devRef .tc main_arg3) = m ((c.tc : Thread nD τ).loc main_arg3) :=
  (after_keep numbered.writes (by decide : main_arg3 ∉ W) _).trans rfl

/-- Argument 4 is written by no operation: it ends as it was launched. -/
theorem kept_arg4 (m : (ℓ : Loc nD τ sig) → Buf (Elt Ideal) ℓ) (c : Dev nD) :
    after (ops (F := Ideal)) (launchContents m c) (Proc.devRef .tc main_arg4) = m ((c.tc : Thread nD τ).loc main_arg4) :=
  (after_keep numbered.writes (by decide : main_arg4 ∉ W) _).trans rfl

/-- Argument 5 is written by no operation: it ends as it was launched. -/
theorem kept_arg5 (m : (ℓ : Loc nD τ sig) → Buf (Elt Ideal) ℓ) (c : Dev nD) :
    after (ops (F := Ideal)) (launchContents m c) (Proc.devRef .tc main_arg5) = m ((c.tc : Thread nD τ).loc main_arg5) :=
  (after_keep numbered.writes (by decide : main_arg5 ∉ W) _).trans rfl

/-- Argument 6 is written by no operation: it ends as it was launched. -/
theorem kept_arg6 (m : (ℓ : Loc nD τ sig) → Buf (Elt Ideal) ℓ) (c : Dev nD) :
    after (ops (F := Ideal)) (launchContents m c) (Proc.devRef .tc main_arg6) = m ((c.tc : Thread nD τ).loc main_arg6) :=
  (after_keep numbered.writes (by decide : main_arg6 ∉ W) _).trans rfl

/-- Argument 7 is written by no operation: it ends as it was launched. -/
theorem kept_arg7 (m : (ℓ : Loc nD τ sig) → Buf (Elt Ideal) ℓ) (c : Dev nD) :
    after (ops (F := Ideal)) (launchContents m c) (Proc.devRef .tc main_arg7) = m ((c.tc : Thread nD τ).loc main_arg7) :=
  (after_keep numbered.writes (by decide : main_arg7 ∉ W) _).trans rfl

/-- Argument 8 is written by no operation: it ends as it was launched. -/
theorem kept_arg8 (m : (ℓ : Loc nD τ sig) → Buf (Elt Ideal) ℓ) (c : Dev nD) :
    after (ops (F := Ideal)) (launchContents m c) (Proc.devRef .tc main_arg8) = m ((c.tc : Thread nD τ).loc main_arg8) :=
  (after_keep numbered.writes (by decide : main_arg8 ∉ W) _).trans rfl

/-- Argument 9 is written by no operation: it ends as it was launched. -/
theorem kept_arg9 (m : (ℓ : Loc nD τ sig) → Buf (Elt Ideal) ℓ) (c : Dev nD) :
    after (ops (F := Ideal)) (launchContents m c) (Proc.devRef .tc main_arg9) = m ((c.tc : Thread nD τ).loc main_arg9) :=
  (after_keep numbered.writes (by decide : main_arg9 ∉ W) _).trans rfl

/-- Argument 10 is written by no operation: it ends as it was launched. -/
theorem kept_arg10 (m : (ℓ : Loc nD τ sig) → Buf (Elt Ideal) ℓ) (c : Dev nD) :
    after (ops (F := Ideal)) (launchContents m c) (Proc.devRef .tc main_arg10) = m ((c.tc : Thread nD τ).loc main_arg10) :=
  (after_keep numbered.writes (by decide : main_arg10 ∉ W) _).trans rfl

/-- Argument 11 is written by no operation: it ends as it was launched. -/
theorem kept_arg11 (m : (ℓ : Loc nD τ sig) → Buf (Elt Ideal) ℓ) (c : Dev nD) :
    after (ops (F := Ideal)) (launchContents m c) (Proc.devRef .tc main_arg11) = m ((c.tc : Thread nD τ).loc main_arg11) :=
  (after_keep numbered.writes (by decide : main_arg11 ∉ W) _).trans rfl

/-- Argument 12 is written by no operation: it ends as it was launched. -/
theorem kept_arg12 (m : (ℓ : Loc nD τ sig) → Buf (Elt Ideal) ℓ) (c : Dev nD) :
    after (ops (F := Ideal)) (launchContents m c) (Proc.devRef .tc main_arg12) = m ((c.tc : Thread nD τ).loc main_arg12) :=
  (after_keep numbered.writes (by decide : main_arg12 ∉ W) _).trans rfl

/-- Argument 13 is written by no operation: it ends as it was launched. -/
theorem kept_arg13 (m : (ℓ : Loc nD τ sig) → Buf (Elt Ideal) ℓ) (c : Dev nD) :
    after (ops (F := Ideal)) (launchContents m c) (Proc.devRef .tc main_arg13) = m ((c.tc : Thread nD τ).loc main_arg13) :=
  (after_keep numbered.writes (by decide : main_arg13 ∉ W) _).trans rfl

end Cert.ReferenceIdeal.Stages

end
-- ==== Proof.RefStages.lean ====
/-
  The reference program read one operation at a time.

  The program is a straight line of 152 operations in single-assignment form: each operation writes one buffer, no
  buffer is written twice, and every operand is an argument of the program or is written earlier. So what a buffer
  holds at the end is its operation's function of what its operands hold at the end, and an argument, written by no
  operation, holds at the end what it held at the start. Chaining these equations in program order gives every buffer
  as its stage function of the arguments: the slices and casts of the edge list, the degree counts and their inverse
  square roots, the three projections, the gathered, scaled and scattered aggregates, the three gates, the mixture
  and its row-wise log-softmax, the last of which is the result.
-/
import proofs.«180817_j34041910788577_1_alg».proof.Proof.RefRead
import proofs.«180817_j34041910788577_1_alg».proof.Proof.RefNumbered
import proofs.«180817_j34041910788577_1_alg».proof.Proof.LibLocalEq

noncomputable section

namespace Cert.ReferenceIdeal.Stages

open Cert.ReferenceIdeal Cert.ReferenceIdeal.Value Cert.ReferenceIdeal.Read Cert.LibLocalEq
open Idealize.ShloMosaic Idealize.ShloMosaic.StableHlo Idealize.ShloMosaic.TcCoe Idealize.SL.Sem

/-! ## Operations of a called function

  A called function's operations are the same builders stated at the type of the tensor value each buffer carries,
  moved to the buffer's own type along an equation that is `rfl` at a literal buffer; so they satisfy the same
  equations, with the function as written at the call. -/

section Typed

variable {τ : Topo} {sig : RefSig} {Val : EltTy → Type} {l : List (HloOp τ sig Val)} {W : List (Ref sig .tc)}

theorem eq_tnullary (hN : Numbered l W) {n : Nat} {y : Ref sig .tc} {dy uy} {v : y.ty.Contents Val}
    (hn : l[n]? = some (TRef.nullary (τ := τ) (⟨y, rfl, dy, uy⟩ : TRef sig y.ty) v)) (hy : W[n]? = some y)
    (V : Valuation τ sig Val) : after l V (Proc.devRef .tc y) = v :=
  eq_nullary hN hn hy V

theorem eq_tunary (hN : Numbered l W) {n : Nat} {x y : Ref sig .tc} {dx ux dy uy}
    {f : x.ty.Contents Val → y.ty.Contents Val}
    (hn : l[n]? = some (TRef.unary (τ := τ) (⟨x, rfl, dx, ux⟩ : TRef sig x.ty) (⟨y, rfl, dy, uy⟩ : TRef sig y.ty) f))
    (hy : W[n]? = some y) (hx : key x < key y) (V : Valuation τ sig Val) :
    after l V (Proc.devRef .tc y) = f (after l V (Proc.devRef .tc x)) :=
  eq_unary hN hn hy hx V

theorem eq_tbinary (hN : Numbered l W) {n : Nat} {a b y : Ref sig .tc} {da ua db ub dy uy}
    {f : a.ty.Contents Val → b.ty.Contents Val → y.ty.Contents Val}
    (hn : l[n]? = some (TRef.binary (τ := τ) (⟨a, rfl, da, ua⟩ : TRef sig a.ty) (⟨b, rfl, db, ub⟩ : TRef sig b.ty)
      (⟨y, rfl, dy, uy⟩ : TRef sig y.ty) f))
    (hy : W[n]? = some y) (ha : key a < key y) (hb : key b < key y) (V : Valuation τ sig Val) :
    after l V (Proc.devRef .tc y) = f (after l V (Proc.devRef .tc a)) (after l V (Proc.devRef .tc b)) :=
  eq_binary hN hn hy ha hb V

end Typed

/-! ## One equation per operation, in program order

  Each buffer's final contents as its stage function of the arguments: the operation's own equation, then the
  equations of its operands. -/

section Stages

variable (m : (ℓ : Loc nD τ sig) → Buf (Elt Ideal) ℓ) (c : Dev nD)

theorem st_v0 :
    after (ops (F := Ideal)) (launchContents m c) (Proc.devRef .tc main_v0)
      = val_main_v0 (F := Ideal) (m ((c.tc : Thread nD τ).loc main_arg1)) := by
  rw [eq_unary numbered (n := 0) (x := main_arg1) (y := main_v0) rfl rfl (by decide),
    kept_arg1 m c]
  rfl

theorem st_v1 :
    after (ops (F := Ideal)) (launchContents m c) (Proc.devRef .tc main_v1)
      = val_main_v1 (F := Ideal) (m ((c.tc : Thread nD τ).loc main_arg1)) := by
  rw [eq_reshape numbered (n := 1) (x := main_v0) (y := main_v1) rfl rfl (by decide),
    st_v0 m c]
  rfl

theorem st_v2 :
    after (ops (F := Ideal)) (launchContents m c) (Proc.devRef .tc main_v2)
      = val_main_v2 (F := Ideal) (m ((c.tc : Thread nD τ).loc main_arg1)) := by
  rw [eq_unary numbered (n := 2) (x := main_arg1) (y := main_v2) rfl rfl (by decide),
    kept_arg1 m c]
  rfl

theorem st_v3 :
    after (ops (F := Ideal)) (launchContents m c) (Proc.devRef .tc main_v3)
      = val_main_v3 (F := Ideal) (m ((c.tc : Thread nD τ).loc main_arg1)) := by
  rw [eq_reshape numbered (n := 3) (x := main_v2) (y := main_v3) rfl rfl (by decide),
    st_v2 m c]
  rfl

theorem st_cst :
    after (ops (F := Ideal)) (launchContents m c) (Proc.devRef .tc main_cst)
      = val_main_cst (F := Ideal) := by
  rw [eq_nullary numbered (n := 4) (y := main_cst) rfl rfl]
  rfl

theorem st_v4 :
    after (ops (F := Ideal)) (launchContents m c) (Proc.devRef .tc main_v4)
      = val_main_v4 (F := Ideal) := by
  rw [eq_unary numbered (n := 5) (x := main_cst) (y := main_v4) rfl rfl (by decide),
    st_cst m c]
  rfl

theorem st_cst_0 :
    after (ops (F := Ideal)) (launchContents m c) (Proc.devRef .tc main_cst_0)
      = val_main_cst_0 (F := Ideal) := by
  rw [eq_nullary numbered (n := 6) (y := main_cst_0) rfl rfl]
  rfl

theorem st_v5 :
    after (ops (F := Ideal)) (launchContents m c) (Proc.devRef .tc main_v5)
      = val_main_v5 (F := Ideal) := by
  rw [eq_unary numbered (n := 7) (x := main_cst_0) (y := main_v5) rfl rfl (by decide),
    st_cst_0 m c]
  rfl

theorem st_v6 :
    after (ops (F := Ideal)) (launchContents m c) (Proc.devRef .tc main_v6)
      = val_main_v6 (F := Ideal) (m ((c.tc : Thread nD τ).loc main_arg1)) := by
  rw [eq_unary numbered (n := 8) (x := main_v3) (y := main_v6) rfl rfl (by decide),
    st_v3 m c]
  rfl

theorem st_v7 :
    after (ops (F := Ideal)) (launchContents m c) (Proc.devRef .tc main_v7)
      = val_main_v7 (F := Ideal) (m ((c.tc : Thread nD τ).loc main_arg1)) := by
  rw [eq_ternary numbered (n := 9) (c := main_v5) (a := main_v6) (b := main_v4) (y := main_v7) rfl rfl (by decide) (by decide) (by decide),
    st_v5 m c,
    st_v6 m c,
    st_v4 m c]
  rfl

theorem st_cst_1 :
    after (ops (F := Ideal)) (launchContents m c) (Proc.devRef .tc main_cst_1)
      = val_main_cst_1 (F := Ideal) := by
  rw [eq_nullary numbered (n := 10) (y := main_cst_1) rfl rfl]
  rfl

theorem st_v8 :
    after (ops (F := Ideal)) (launchContents m c) (Proc.devRef .tc main_v8)
      = val_main_v8 (F := Ideal) := by
  rw [eq_unary numbered (n := 11) (x := main_cst_1) (y := main_v8) rfl rfl (by decide),
    st_cst_1 m c]
  rfl

theorem st_v9 :
    after (ops (F := Ideal)) (launchContents m c) (Proc.devRef .tc main_v9)
      = val_main_v9 (F := Ideal) (m ((c.tc : Thread nD τ).loc main_arg1)) := by
  rw [eq_binary numbered (n := 12) (a := main_v7) (b := main_v8) (y := main_v9) rfl rfl (by decide) (by decide),
    st_v7 m c,
    st_v8 m c]
  rfl

theorem st_v10 :
    after (ops (F := Ideal)) (launchContents m c) (Proc.devRef .tc main_v10)
      = val_main_v10 (F := Ideal) (m ((c.tc : Thread nD τ).loc main_arg1)) := by
  rw [eq_unary numbered (n := 13) (x := main_v9) (y := main_v10) rfl rfl (by decide),
    st_v9 m c]
  rfl

theorem st_cst_2 :
    after (ops (F := Ideal)) (launchContents m c) (Proc.devRef .tc main_cst_2)
      = val_main_cst_2 (F := Ideal) := by
  rw [eq_nullary numbered (n := 14) (y := main_cst_2) rfl rfl]
  rfl

theorem st_v11 :
    after (ops (F := Ideal)) (launchContents m c) (Proc.devRef .tc main_v11)
      = val_main_v11 (F := Ideal) := by
  rw [eq_unary numbered (n := 15) (x := main_cst_2) (y := main_v11) rfl rfl (by decide),
    st_cst_2 m c]
  rfl

theorem st_v12 :
    after (ops (F := Ideal)) (launchContents m c) (Proc.devRef .tc main_v12)
      = val_main_v12 (F := Ideal) (m ((c.tc : Thread nD τ).loc main_arg1)) := by
  rw [eq_binary numbered (n := 16) (a := main_v11) (b := main_v9) (y := main_v12) rfl rfl (by decide) (by decide),
    st_v11 m c,
    st_v9 m c]
  rfl

theorem st_v13 :
    after (ops (F := Ideal)) (launchContents m c) (Proc.devRef .tc main_v13)
      = val_main_v13 (F := Ideal) (m ((c.tc : Thread nD τ).loc main_arg0)) (m ((c.tc : Thread nD τ).loc main_arg2)) := by
  rw [eq_binary numbered (n := 17) (a := main_arg0) (b := main_arg2) (y := main_v13) rfl rfl (by decide) (by decide),
    kept_arg0 m c,
    kept_arg2 m c]
  rfl

theorem st_v14 :
    after (ops (F := Ideal)) (launchContents m c) (Proc.devRef .tc main_v14)
      = val_main_v14 (F := Ideal) (m ((c.tc : Thread nD τ).loc main_arg3)) := by
  rw [eq_unary numbered (n := 18) (x := main_arg3) (y := main_v14) rfl rfl (by decide),
    kept_arg3 m c]
  rfl

theorem st_v15 :
    after (ops (F := Ideal)) (launchContents m c) (Proc.devRef .tc main_v15)
      = val_main_v15 (F := Ideal) (m ((c.tc : Thread nD τ).loc main_arg3)) := by
  rw [eq_unary numbered (n := 19) (x := main_v14) (y := main_v15) rfl rfl (by decide),
    st_v14 m c]
  rfl

theorem st_v16 :
    after (ops (F := Ideal)) (launchContents m c) (Proc.devRef .tc main_v16)
      = val_main_v16 (F := Ideal) (m ((c.tc : Thread nD τ).loc main_arg0)) (m ((c.tc : Thread nD τ).loc main_arg2)) (m ((c.tc : Thread nD τ).loc main_arg3)) := by
  rw [eq_binary numbered (n := 20) (a := main_v13) (b := main_v15) (y := main_v16) rfl rfl (by decide) (by decide),
    st_v13 m c,
    st_v15 m c]
  rfl

theorem st_c :
    after (ops (F := Ideal)) (launchContents m c) (Proc.devRef .tc main_c)
      = val_main_c (F := Ideal) := by
  rw [eq_nullary numbered (n := 21) (y := main_c) rfl rfl]
  rfl

theorem st_v17 :
    after (ops (F := Ideal)) (launchContents m c) (Proc.devRef .tc main_v17)
      = val_main_v17 (F := Ideal) := by
  rw [eq_unary numbered (n := 22) (x := main_c) (y := main_v17) rfl rfl (by decide),
    st_c m c]
  rfl

theorem st_v18 :
    after (ops (F := Ideal)) (launchContents m c) (Proc.devRef .tc main_v18)
      = val_main_v18 (F := Ideal) (m ((c.tc : Thread nD τ).loc main_arg1)) := by
  rw [eq_binary numbered (n := 23) (a := main_v1) (b := main_v17) (y := main_v18) rfl rfl (by decide) (by decide),
    st_v1 m c,
    st_v17 m c]
  rfl

theorem st_c_3 :
    after (ops (F := Ideal)) (launchContents m c) (Proc.devRef .tc main_c_3)
      = val_main_c_3 (F := Ideal) := by
  rw [eq_nullary numbered (n := 24) (y := main_c_3) rfl rfl]
  rfl

theorem st_v19 :
    after (ops (F := Ideal)) (launchContents m c) (Proc.devRef .tc main_v19)
      = val_main_v19 (F := Ideal) := by
  rw [eq_unary numbered (n := 25) (x := main_c_3) (y := main_v19) rfl rfl (by decide),
    st_c_3 m c]
  rfl

theorem st_v20 :
    after (ops (F := Ideal)) (launchContents m c) (Proc.devRef .tc main_v20)
      = val_main_v20 (F := Ideal) (m ((c.tc : Thread nD τ).loc main_arg1)) := by
  rw [eq_binary numbered (n := 26) (a := main_v1) (b := main_v19) (y := main_v20) rfl rfl (by decide) (by decide),
    st_v1 m c,
    st_v19 m c]
  rfl

theorem st_v21 :
    after (ops (F := Ideal)) (launchContents m c) (Proc.devRef .tc main_v21)
      = val_main_v21 (F := Ideal) (m ((c.tc : Thread nD τ).loc main_arg1)) := by
  rw [eq_ternary numbered (n := 27) (c := main_v18) (a := main_v20) (b := main_v1) (y := main_v21) rfl rfl (by decide) (by decide) (by decide),
    st_v18 m c,
    st_v20 m c,
    st_v1 m c]
  rfl

theorem st_v22 :
    after (ops (F := Ideal)) (launchContents m c) (Proc.devRef .tc main_v22)
      = val_main_v22 (F := Ideal) (m ((c.tc : Thread nD τ).loc main_arg1)) := by
  rw [eq_unary numbered (n := 28) (x := main_v21) (y := main_v22) rfl rfl (by decide),
    st_v21 m c]
  rfl

theorem st_v23 :
    after (ops (F := Ideal)) (launchContents m c) (Proc.devRef .tc main_v23)
      = val_main_v23 (F := Ideal) (m ((c.tc : Thread nD τ).loc main_arg1)) := by
  rw [eq_binary numbered (n := 29) (a := main_v10) (b := main_v22) (y := main_v23) rfl rfl (by decide) (by decide),
    st_v10 m c,
    st_v22 m c]
  rfl

theorem st_c_4 :
    after (ops (F := Ideal)) (launchContents m c) (Proc.devRef .tc main_c_4)
      = val_main_c_4 (F := Ideal) := by
  rw [eq_nullary numbered (n := 30) (y := main_c_4) rfl rfl]
  rfl

theorem st_v24 :
    after (ops (F := Ideal)) (launchContents m c) (Proc.devRef .tc main_v24)
      = val_main_v24 (F := Ideal) := by
  rw [eq_unary numbered (n := 31) (x := main_c_4) (y := main_v24) rfl rfl (by decide),
    st_c_4 m c]
  rfl

theorem st_v25 :
    after (ops (F := Ideal)) (launchContents m c) (Proc.devRef .tc main_v25)
      = val_main_v25 (F := Ideal) (m ((c.tc : Thread nD τ).loc main_arg1)) := by
  rw [eq_binary numbered (n := 32) (a := main_v3) (b := main_v24) (y := main_v25) rfl rfl (by decide) (by decide),
    st_v3 m c,
    st_v24 m c]
  rfl

theorem st_c_5 :
    after (ops (F := Ideal)) (launchContents m c) (Proc.devRef .tc main_c_5)
      = val_main_c_5 (F := Ideal) := by
  rw [eq_nullary numbered (n := 33) (y := main_c_5) rfl rfl]
  rfl

theorem st_v26 :
    after (ops (F := Ideal)) (launchContents m c) (Proc.devRef .tc main_v26)
      = val_main_v26 (F := Ideal) := by
  rw [eq_unary numbered (n := 34) (x := main_c_5) (y := main_v26) rfl rfl (by decide),
    st_c_5 m c]
  rfl

theorem st_v27 :
    after (ops (F := Ideal)) (launchContents m c) (Proc.devRef .tc main_v27)
      = val_main_v27 (F := Ideal) (m ((c.tc : Thread nD τ).loc main_arg1)) := by
  rw [eq_binary numbered (n := 35) (a := main_v3) (b := main_v26) (y := main_v27) rfl rfl (by decide) (by decide),
    st_v3 m c,
    st_v26 m c]
  rfl

theorem st_v28 :
    after (ops (F := Ideal)) (launchContents m c) (Proc.devRef .tc main_v28)
      = val_main_v28 (F := Ideal) (m ((c.tc : Thread nD τ).loc main_arg1)) := by
  rw [eq_ternary numbered (n := 36) (c := main_v25) (a := main_v27) (b := main_v3) (y := main_v28) rfl rfl (by decide) (by decide) (by decide),
    st_v25 m c,
    st_v27 m c,
    st_v3 m c]
  rfl

theorem st_v29 :
    after (ops (F := Ideal)) (launchContents m c) (Proc.devRef .tc main_v29)
      = val_main_v29 (F := Ideal) (m ((c.tc : Thread nD τ).loc main_arg1)) := by
  rw [eq_unary numbered (n := 37) (x := main_v28) (y := main_v29) rfl rfl (by decide),
    st_v28 m c]
  rfl

theorem st_v30 :
    after (ops (F := Ideal)) (launchContents m c) (Proc.devRef .tc main_v30)
      = val_main_v30 (F := Ideal) (m ((c.tc : Thread nD τ).loc main_arg1)) := by
  rw [eq_binary numbered (n := 38) (a := main_v10) (b := main_v29) (y := main_v30) rfl rfl (by decide) (by decide),
    st_v10 m c,
    st_v29 m c]
  rfl

theorem st_v31 :
    after (ops (F := Ideal)) (launchContents m c) (Proc.devRef .tc main_v31)
      = val_main_v31 (F := Ideal) (m ((c.tc : Thread nD τ).loc main_arg1)) := by
  rw [eq_binary numbered (n := 39) (a := main_v23) (b := main_v30) (y := main_v31) rfl rfl (by decide) (by decide),
    st_v23 m c,
    st_v30 m c]
  rfl

theorem st_c_6 :
    after (ops (F := Ideal)) (launchContents m c) (Proc.devRef .tc main_c_6)
      = val_main_c_6 (F := Ideal) := by
  rw [eq_nullary numbered (n := 40) (y := main_c_6) rfl rfl]
  rfl

theorem st_v32 :
    after (ops (F := Ideal)) (launchContents m c) (Proc.devRef .tc main_v32)
      = val_main_v32 (F := Ideal) := by
  rw [eq_unary numbered (n := 41) (x := main_c_6) (y := main_v32) rfl rfl (by decide),
    st_c_6 m c]
  rfl

theorem st_v33 :
    after (ops (F := Ideal)) (launchContents m c) (Proc.devRef .tc main_v33)
      = val_main_v33 (F := Ideal) (m ((c.tc : Thread nD τ).loc main_arg1)) := by
  rw [eq_binary numbered (n := 42) (a := main_v1) (b := main_v32) (y := main_v33) rfl rfl (by decide) (by decide),
    st_v1 m c,
    st_v32 m c]
  rfl

theorem st_c_7 :
    after (ops (F := Ideal)) (launchContents m c) (Proc.devRef .tc main_c_7)
      = val_main_c_7 (F := Ideal) := by
  rw [eq_nullary numbered (n := 43) (y := main_c_7) rfl rfl]
  rfl

theorem st_v34 :
    after (ops (F := Ideal)) (launchContents m c) (Proc.devRef .tc main_v34)
      = val_main_v34 (F := Ideal) := by
  rw [eq_unary numbered (n := 44) (x := main_c_7) (y := main_v34) rfl rfl (by decide),
    st_c_7 m c]
  rfl

theorem st_v35 :
    after (ops (F := Ideal)) (launchContents m c) (Proc.devRef .tc main_v35)
      = val_main_v35 (F := Ideal) (m ((c.tc : Thread nD τ).loc main_arg1)) := by
  rw [eq_binary numbered (n := 45) (a := main_v1) (b := main_v34) (y := main_v35) rfl rfl (by decide) (by decide),
    st_v1 m c,
    st_v34 m c]
  rfl

theorem st_v36 :
    after (ops (F := Ideal)) (launchContents m c) (Proc.devRef .tc main_v36)
      = val_main_v36 (F := Ideal) (m ((c.tc : Thread nD τ).loc main_arg1)) := by
  rw [eq_ternary numbered (n := 46) (c := main_v33) (a := main_v35) (b := main_v1) (y := main_v36) rfl rfl (by decide) (by decide) (by decide),
    st_v33 m c,
    st_v35 m c,
    st_v1 m c]
  rfl

theorem st_v37 :
    after (ops (F := Ideal)) (launchContents m c) (Proc.devRef .tc main_v37)
      = val_main_v37 (F := Ideal) (m ((c.tc : Thread nD τ).loc main_arg1)) := by
  rw [eq_unary numbered (n := 47) (x := main_v36) (y := main_v37) rfl rfl (by decide),
    st_v36 m c]
  rfl

theorem st_v38 :
    after (ops (F := Ideal)) (launchContents m c) (Proc.devRef .tc main_v38)
      = val_main_v38 (F := Ideal) (m ((c.tc : Thread nD τ).loc main_arg0)) (m ((c.tc : Thread nD τ).loc main_arg1)) (m ((c.tc : Thread nD τ).loc main_arg2)) (m ((c.tc : Thread nD τ).loc main_arg3)) := by
  rw [eq_binary numbered (n := 48) (a := main_v16) (b := main_v37) (y := main_v38) rfl rfl (by decide) (by decide),
    st_v16 m c,
    st_v37 m c]
  rfl

theorem st_v39 :
    after (ops (F := Ideal)) (launchContents m c) (Proc.devRef .tc main_v39)
      = val_main_v39 (F := Ideal) (m ((c.tc : Thread nD τ).loc main_arg1)) := by
  rw [eq_unary numbered (n := 49) (x := main_v31) (y := main_v39) rfl rfl (by decide),
    st_v31 m c]
  rfl

theorem st_v40 :
    after (ops (F := Ideal)) (launchContents m c) (Proc.devRef .tc main_v40)
      = val_main_v40 (F := Ideal) (m ((c.tc : Thread nD τ).loc main_arg1)) := by
  rw [eq_unary numbered (n := 50) (x := main_v39) (y := main_v40) rfl rfl (by decide),
    st_v39 m c]
  rfl

theorem st_v41 :
    after (ops (F := Ideal)) (launchContents m c) (Proc.devRef .tc main_v41)
      = val_main_v41 (F := Ideal) (m ((c.tc : Thread nD τ).loc main_arg0)) (m ((c.tc : Thread nD τ).loc main_arg1)) (m ((c.tc : Thread nD τ).loc main_arg2)) (m ((c.tc : Thread nD τ).loc main_arg3)) := by
  rw [eq_binary numbered (n := 51) (a := main_v38) (b := main_v40) (y := main_v41) rfl rfl (by decide) (by decide),
    st_v38 m c,
    st_v40 m c]
  rfl

theorem st_cst_8 :
    after (ops (F := Ideal)) (launchContents m c) (Proc.devRef .tc main_cst_8)
      = val_main_cst_8 (F := Ideal) := by
  rw [eq_nullary numbered (n := 52) (y := main_cst_8) rfl rfl]
  rfl

theorem st_v42 :
    after (ops (F := Ideal)) (launchContents m c) (Proc.devRef .tc main_v42)
      = val_main_v42 (F := Ideal) := by
  rw [eq_unary numbered (n := 53) (x := main_cst_8) (y := main_v42) rfl rfl (by decide),
    st_cst_8 m c]
  rfl

theorem st_v43 :
    after (ops (F := Ideal)) (launchContents m c) (Proc.devRef .tc main_v43)
      = val_main_v43 (F := Ideal) (m ((c.tc : Thread nD τ).loc main_arg1)) := by
  rw [eq_unary numbered (n := 54) (x := main_v3) (y := main_v43) rfl rfl (by decide),
    st_v3 m c]
  rfl

theorem st_v44 :
    after (ops (F := Ideal)) (launchContents m c) (Proc.devRef .tc main_v44)
      = val_main_v44 (F := Ideal) (m ((c.tc : Thread nD τ).loc main_arg0)) (m ((c.tc : Thread nD τ).loc main_arg1)) (m ((c.tc : Thread nD τ).loc main_arg2)) (m ((c.tc : Thread nD τ).loc main_arg3)) := by
  rw [eq_ternary numbered (n := 55) (c := main_v42) (a := main_v43) (b := main_v41) (y := main_v44) rfl rfl (by decide) (by decide) (by decide),
    st_v42 m c,
    st_v43 m c,
    st_v41 m c]
  rfl

theorem st_v45 :
    after (ops (F := Ideal)) (launchContents m c) (Proc.devRef .tc main_v45)
      = val_main_v45 (F := Ideal) (m ((c.tc : Thread nD τ).loc main_arg1)) := by
  rw [eq_unary numbered (n := 56) (x := main_v12) (y := main_v45) rfl rfl (by decide),
    st_v12 m c]
  rfl

theorem st_v46 :
    after (ops (F := Ideal)) (launchContents m c) (Proc.devRef .tc main_v46)
      = val_main_v46 (F := Ideal) (m ((c.tc : Thread nD τ).loc main_arg1)) := by
  rw [eq_unary numbered (n := 57) (x := main_v45) (y := main_v46) rfl rfl (by decide),
    st_v45 m c]
  rfl

theorem st_v47 :
    after (ops (F := Ideal)) (launchContents m c) (Proc.devRef .tc main_v47)
      = val_main_v47 (F := Ideal) (m ((c.tc : Thread nD τ).loc main_arg0)) (m ((c.tc : Thread nD τ).loc main_arg1)) (m ((c.tc : Thread nD τ).loc main_arg2)) (m ((c.tc : Thread nD τ).loc main_arg3)) := by
  rw [eq_binary numbered (n := 58) (a := main_v46) (b := main_v16) (y := main_v47) rfl rfl (by decide) (by decide),
    st_v46 m c,
    st_v16 m c]
  rfl

theorem st_v48 :
    after (ops (F := Ideal)) (launchContents m c) (Proc.devRef .tc main_v48)
      = val_main_v48 (F := Ideal) (m ((c.tc : Thread nD τ).loc main_arg0)) (m ((c.tc : Thread nD τ).loc main_arg1)) (m ((c.tc : Thread nD τ).loc main_arg2)) (m ((c.tc : Thread nD τ).loc main_arg3)) := by
  rw [eq_binary numbered (n := 59) (a := main_v44) (b := main_v47) (y := main_v48) rfl rfl (by decide) (by decide),
    st_v44 m c,
    st_v47 m c]
  rfl

theorem st_v49 :
    after (ops (F := Ideal)) (launchContents m c) (Proc.devRef .tc main_v49)
      = val_main_v49 (F := Ideal) (m ((c.tc : Thread nD τ).loc main_arg0)) (m ((c.tc : Thread nD τ).loc main_arg1)) (m ((c.tc : Thread nD τ).loc main_arg2)) (m ((c.tc : Thread nD τ).loc main_arg3)) := by
  rw [eq_binary numbered (n := 60) (a := main_v16) (b := main_v48) (y := main_v49) rfl rfl (by decide) (by decide),
    st_v16 m c,
    st_v48 m c]
  rfl

theorem st_call0_cst :
    after (ops (F := Ideal)) (launchContents m c) (Proc.devRef .tc main_call0_cst)
      = val_main_call0_cst (F := Ideal) := by
  rw [eq_tnullary numbered (n := 61) (y := main_call0_cst) rfl rfl]
  rfl

theorem st_call0_v0 :
    after (ops (F := Ideal)) (launchContents m c) (Proc.devRef .tc main_call0_v0)
      = val_main_call0_v0 (F := Ideal) := by
  rw [eq_tunary numbered (n := 62) (x := main_call0_cst) (y := main_call0_v0) rfl rfl (by decide),
    st_call0_cst m c]
  rfl

theorem st_v50 :
    after (ops (F := Ideal)) (launchContents m c) (Proc.devRef .tc main_v50)
      = val_main_v50 (F := Ideal) (m ((c.tc : Thread nD τ).loc main_arg0)) (m ((c.tc : Thread nD τ).loc main_arg1)) (m ((c.tc : Thread nD τ).loc main_arg2)) (m ((c.tc : Thread nD τ).loc main_arg3)) := by
  rw [eq_tbinary numbered (n := 63) (a := main_v49) (b := main_call0_v0) (y := main_v50) rfl rfl (by decide) (by decide),
    st_v49 m c,
    st_call0_v0 m c]
  rfl

theorem st_v51 :
    after (ops (F := Ideal)) (launchContents m c) (Proc.devRef .tc main_v51)
      = val_main_v51 (F := Ideal) (m ((c.tc : Thread nD τ).loc main_arg0)) (m ((c.tc : Thread nD τ).loc main_arg4)) := by
  rw [eq_binary numbered (n := 64) (a := main_arg0) (b := main_arg4) (y := main_v51) rfl rfl (by decide) (by decide),
    kept_arg0 m c,
    kept_arg4 m c]
  rfl

theorem st_v52 :
    after (ops (F := Ideal)) (launchContents m c) (Proc.devRef .tc main_v52)
      = val_main_v52 (F := Ideal) (m ((c.tc : Thread nD τ).loc main_arg5)) := by
  rw [eq_unary numbered (n := 65) (x := main_arg5) (y := main_v52) rfl rfl (by decide),
    kept_arg5 m c]
  rfl

theorem st_v53 :
    after (ops (F := Ideal)) (launchContents m c) (Proc.devRef .tc main_v53)
      = val_main_v53 (F := Ideal) (m ((c.tc : Thread nD τ).loc main_arg5)) := by
  rw [eq_unary numbered (n := 66) (x := main_v52) (y := main_v53) rfl rfl (by decide),
    st_v52 m c]
  rfl

theorem st_v54 :
    after (ops (F := Ideal)) (launchContents m c) (Proc.devRef .tc main_v54)
      = val_main_v54 (F := Ideal) (m ((c.tc : Thread nD τ).loc main_arg0)) (m ((c.tc : Thread nD τ).loc main_arg4)) (m ((c.tc : Thread nD τ).loc main_arg5)) := by
  rw [eq_binary numbered (n := 67) (a := main_v51) (b := main_v53) (y := main_v54) rfl rfl (by decide) (by decide),
    st_v51 m c,
    st_v53 m c]
  rfl

theorem st_c_9 :
    after (ops (F := Ideal)) (launchContents m c) (Proc.devRef .tc main_c_9)
      = val_main_c_9 (F := Ideal) := by
  rw [eq_nullary numbered (n := 68) (y := main_c_9) rfl rfl]
  rfl

theorem st_v55 :
    after (ops (F := Ideal)) (launchContents m c) (Proc.devRef .tc main_v55)
      = val_main_v55 (F := Ideal) := by
  rw [eq_unary numbered (n := 69) (x := main_c_9) (y := main_v55) rfl rfl (by decide),
    st_c_9 m c]
  rfl

theorem st_v56 :
    after (ops (F := Ideal)) (launchContents m c) (Proc.devRef .tc main_v56)
      = val_main_v56 (F := Ideal) (m ((c.tc : Thread nD τ).loc main_arg1)) := by
  rw [eq_binary numbered (n := 70) (a := main_v1) (b := main_v55) (y := main_v56) rfl rfl (by decide) (by decide),
    st_v1 m c,
    st_v55 m c]
  rfl

theorem st_c_10 :
    after (ops (F := Ideal)) (launchContents m c) (Proc.devRef .tc main_c_10)
      = val_main_c_10 (F := Ideal) := by
  rw [eq_nullary numbered (n := 71) (y := main_c_10) rfl rfl]
  rfl

theorem st_v57 :
    after (ops (F := Ideal)) (launchContents m c) (Proc.devRef .tc main_v57)
      = val_main_v57 (F := Ideal) := by
  rw [eq_unary numbered (n := 72) (x := main_c_10) (y := main_v57) rfl rfl (by decide),
    st_c_10 m c]
  rfl

theorem st_v58 :
    after (ops (F := Ideal)) (launchContents m c) (Proc.devRef .tc main_v58)
      = val_main_v58 (F := Ideal) (m ((c.tc : Thread nD τ).loc main_arg1)) := by
  rw [eq_binary numbered (n := 73) (a := main_v1) (b := main_v57) (y := main_v58) rfl rfl (by decide) (by decide),
    st_v1 m c,
    st_v57 m c]
  rfl

theorem st_v59 :
    after (ops (F := Ideal)) (launchContents m c) (Proc.devRef .tc main_v59)
      = val_main_v59 (F := Ideal) (m ((c.tc : Thread nD τ).loc main_arg1)) := by
  rw [eq_ternary numbered (n := 74) (c := main_v56) (a := main_v58) (b := main_v1) (y := main_v59) rfl rfl (by decide) (by decide) (by decide),
    st_v56 m c,
    st_v58 m c,
    st_v1 m c]
  rfl

theorem st_v60 :
    after (ops (F := Ideal)) (launchContents m c) (Proc.devRef .tc main_v60)
      = val_main_v60 (F := Ideal) (m ((c.tc : Thread nD τ).loc main_arg1)) := by
  rw [eq_unary numbered (n := 75) (x := main_v59) (y := main_v60) rfl rfl (by decide),
    st_v59 m c]
  rfl

theorem st_v61 :
    after (ops (F := Ideal)) (launchContents m c) (Proc.devRef .tc main_v61)
      = val_main_v61 (F := Ideal) (m ((c.tc : Thread nD τ).loc main_arg1)) := by
  rw [eq_binary numbered (n := 76) (a := main_v10) (b := main_v60) (y := main_v61) rfl rfl (by decide) (by decide),
    st_v10 m c,
    st_v60 m c]
  rfl

theorem st_c_11 :
    after (ops (F := Ideal)) (launchContents m c) (Proc.devRef .tc main_c_11)
      = val_main_c_11 (F := Ideal) := by
  rw [eq_nullary numbered (n := 77) (y := main_c_11) rfl rfl]
  rfl

theorem st_v62 :
    after (ops (F := Ideal)) (launchContents m c) (Proc.devRef .tc main_v62)
      = val_main_v62 (F := Ideal) := by
  rw [eq_unary numbered (n := 78) (x := main_c_11) (y := main_v62) rfl rfl (by decide),
    st_c_11 m c]
  rfl

theorem st_v63 :
    after (ops (F := Ideal)) (launchContents m c) (Proc.devRef .tc main_v63)
      = val_main_v63 (F := Ideal) (m ((c.tc : Thread nD τ).loc main_arg1)) := by
  rw [eq_binary numbered (n := 79) (a := main_v3) (b := main_v62) (y := main_v63) rfl rfl (by decide) (by decide),
    st_v3 m c,
    st_v62 m c]
  rfl

theorem st_c_12 :
    after (ops (F := Ideal)) (launchContents m c) (Proc.devRef .tc main_c_12)
      = val_main_c_12 (F := Ideal) := by
  rw [eq_nullary numbered (n := 80) (y := main_c_12) rfl rfl]
  rfl

theorem st_v64 :
    after (ops (F := Ideal)) (launchContents m c) (Proc.devRef .tc main_v64)
      = val_main_v64 (F := Ideal) := by
  rw [eq_unary numbered (n := 81) (x := main_c_12) (y := main_v64) rfl rfl (by decide),
    st_c_12 m c]
  rfl

theorem st_v65 :
    after (ops (F := Ideal)) (launchContents m c) (Proc.devRef .tc main_v65)
      = val_main_v65 (F := Ideal) (m ((c.tc : Thread nD τ).loc main_arg1)) := by
  rw [eq_binary numbered (n := 82) (a := main_v3) (b := main_v64) (y := main_v65) rfl rfl (by decide) (by decide),
    st_v3 m c,
    st_v64 m c]
  rfl

theorem st_v66 :
    after (ops (F := Ideal)) (launchContents m c) (Proc.devRef .tc main_v66)
      = val_main_v66 (F := Ideal) (m ((c.tc : Thread nD τ).loc main_arg1)) := by
  rw [eq_ternary numbered (n := 83) (c := main_v63) (a := main_v65) (b := main_v3) (y := main_v66) rfl rfl (by decide) (by decide) (by decide),
    st_v63 m c,
    st_v65 m c,
    st_v3 m c]
  rfl

theorem st_v67 :
    after (ops (F := Ideal)) (launchContents m c) (Proc.devRef .tc main_v67)
      = val_main_v67 (F := Ideal) (m ((c.tc : Thread nD τ).loc main_arg1)) := by
  rw [eq_unary numbered (n := 84) (x := main_v66) (y := main_v67) rfl rfl (by decide),
    st_v66 m c]
  rfl

theorem st_v68 :
    after (ops (F := Ideal)) (launchContents m c) (Proc.devRef .tc main_v68)
      = val_main_v68 (F := Ideal) (m ((c.tc : Thread nD τ).loc main_arg1)) := by
  rw [eq_binary numbered (n := 85) (a := main_v10) (b := main_v67) (y := main_v68) rfl rfl (by decide) (by decide),
    st_v10 m c,
    st_v67 m c]
  rfl

theorem st_v69 :
    after (ops (F := Ideal)) (launchContents m c) (Proc.devRef .tc main_v69)
      = val_main_v69 (F := Ideal) (m ((c.tc : Thread nD τ).loc main_arg1)) := by
  rw [eq_binary numbered (n := 86) (a := main_v61) (b := main_v68) (y := main_v69) rfl rfl (by decide) (by decide),
    st_v61 m c,
    st_v68 m c]
  rfl

theorem st_c_13 :
    after (ops (F := Ideal)) (launchContents m c) (Proc.devRef .tc main_c_13)
      = val_main_c_13 (F := Ideal) := by
  rw [eq_nullary numbered (n := 87) (y := main_c_13) rfl rfl]
  rfl

theorem st_v70 :
    after (ops (F := Ideal)) (launchContents m c) (Proc.devRef .tc main_v70)
      = val_main_v70 (F := Ideal) := by
  rw [eq_unary numbered (n := 88) (x := main_c_13) (y := main_v70) rfl rfl (by decide),
    st_c_13 m c]
  rfl

theorem st_v71 :
    after (ops (F := Ideal)) (launchContents m c) (Proc.devRef .tc main_v71)
      = val_main_v71 (F := Ideal) (m ((c.tc : Thread nD τ).loc main_arg1)) := by
  rw [eq_binary numbered (n := 89) (a := main_v1) (b := main_v70) (y := main_v71) rfl rfl (by decide) (by decide),
    st_v1 m c,
    st_v70 m c]
  rfl

theorem st_c_14 :
    after (ops (F := Ideal)) (launchContents m c) (Proc.devRef .tc main_c_14)
      = val_main_c_14 (F := Ideal) := by
  rw [eq_nullary numbered (n := 90) (y := main_c_14) rfl rfl]
  rfl

theorem st_v72 :
    after (ops (F := Ideal)) (launchContents m c) (Proc.devRef .tc main_v72)
      = val_main_v72 (F := Ideal) := by
  rw [eq_unary numbered (n := 91) (x := main_c_14) (y := main_v72) rfl rfl (by decide),
    st_c_14 m c]
  rfl

theorem st_v73 :
    after (ops (F := Ideal)) (launchContents m c) (Proc.devRef .tc main_v73)
      = val_main_v73 (F := Ideal) (m ((c.tc : Thread nD τ).loc main_arg1)) := by
  rw [eq_binary numbered (n := 92) (a := main_v1) (b := main_v72) (y := main_v73) rfl rfl (by decide) (by decide),
    st_v1 m c,
    st_v72 m c]
  rfl

theorem st_v74 :
    after (ops (F := Ideal)) (launchContents m c) (Proc.devRef .tc main_v74)
      = val_main_v74 (F := Ideal) (m ((c.tc : Thread nD τ).loc main_arg1)) := by
  rw [eq_ternary numbered (n := 93) (c := main_v71) (a := main_v73) (b := main_v1) (y := main_v74) rfl rfl (by decide) (by decide) (by decide),
    st_v71 m c,
    st_v73 m c,
    st_v1 m c]
  rfl

theorem st_v75 :
    after (ops (F := Ideal)) (launchContents m c) (Proc.devRef .tc main_v75)
      = val_main_v75 (F := Ideal) (m ((c.tc : Thread nD τ).loc main_arg1)) := by
  rw [eq_unary numbered (n := 94) (x := main_v74) (y := main_v75) rfl rfl (by decide),
    st_v74 m c]
  rfl

theorem st_v76 :
    after (ops (F := Ideal)) (launchContents m c) (Proc.devRef .tc main_v76)
      = val_main_v76 (F := Ideal) (m ((c.tc : Thread nD τ).loc main_arg0)) (m ((c.tc : Thread nD τ).loc main_arg1)) (m ((c.tc : Thread nD τ).loc main_arg4)) (m ((c.tc : Thread nD τ).loc main_arg5)) := by
  rw [eq_binary numbered (n := 95) (a := main_v54) (b := main_v75) (y := main_v76) rfl rfl (by decide) (by decide),
    st_v54 m c,
    st_v75 m c]
  rfl

theorem st_v77 :
    after (ops (F := Ideal)) (launchContents m c) (Proc.devRef .tc main_v77)
      = val_main_v77 (F := Ideal) (m ((c.tc : Thread nD τ).loc main_arg1)) := by
  rw [eq_unary numbered (n := 96) (x := main_v69) (y := main_v77) rfl rfl (by decide),
    st_v69 m c]
  rfl

theorem st_v78 :
    after (ops (F := Ideal)) (launchContents m c) (Proc.devRef .tc main_v78)
      = val_main_v78 (F := Ideal) (m ((c.tc : Thread nD τ).loc main_arg1)) := by
  rw [eq_unary numbered (n := 97) (x := main_v77) (y := main_v78) rfl rfl (by decide),
    st_v77 m c]
  rfl

theorem st_v79 :
    after (ops (F := Ideal)) (launchContents m c) (Proc.devRef .tc main_v79)
      = val_main_v79 (F := Ideal) (m ((c.tc : Thread nD τ).loc main_arg0)) (m ((c.tc : Thread nD τ).loc main_arg1)) (m ((c.tc : Thread nD τ).loc main_arg4)) (m ((c.tc : Thread nD τ).loc main_arg5)) := by
  rw [eq_binary numbered (n := 98) (a := main_v76) (b := main_v78) (y := main_v79) rfl rfl (by decide) (by decide),
    st_v76 m c,
    st_v78 m c]
  rfl

theorem st_cst_15 :
    after (ops (F := Ideal)) (launchContents m c) (Proc.devRef .tc main_cst_15)
      = val_main_cst_15 (F := Ideal) := by
  rw [eq_nullary numbered (n := 99) (y := main_cst_15) rfl rfl]
  rfl

theorem st_v80 :
    after (ops (F := Ideal)) (launchContents m c) (Proc.devRef .tc main_v80)
      = val_main_v80 (F := Ideal) := by
  rw [eq_unary numbered (n := 100) (x := main_cst_15) (y := main_v80) rfl rfl (by decide),
    st_cst_15 m c]
  rfl

theorem st_v81 :
    after (ops (F := Ideal)) (launchContents m c) (Proc.devRef .tc main_v81)
      = val_main_v81 (F := Ideal) (m ((c.tc : Thread nD τ).loc main_arg1)) := by
  rw [eq_unary numbered (n := 101) (x := main_v3) (y := main_v81) rfl rfl (by decide),
    st_v3 m c]
  rfl

theorem st_v82 :
    after (ops (F := Ideal)) (launchContents m c) (Proc.devRef .tc main_v82)
      = val_main_v82 (F := Ideal) (m ((c.tc : Thread nD τ).loc main_arg0)) (m ((c.tc : Thread nD τ).loc main_arg1)) (m ((c.tc : Thread nD τ).loc main_arg4)) (m ((c.tc : Thread nD τ).loc main_arg5)) := by
  rw [eq_ternary numbered (n := 102) (c := main_v80) (a := main_v81) (b := main_v79) (y := main_v82) rfl rfl (by decide) (by decide) (by decide),
    st_v80 m c,
    st_v81 m c,
    st_v79 m c]
  rfl

theorem st_v83 :
    after (ops (F := Ideal)) (launchContents m c) (Proc.devRef .tc main_v83)
      = val_main_v83 (F := Ideal) (m ((c.tc : Thread nD τ).loc main_arg1)) := by
  rw [eq_unary numbered (n := 103) (x := main_v12) (y := main_v83) rfl rfl (by decide),
    st_v12 m c]
  rfl

theorem st_v84 :
    after (ops (F := Ideal)) (launchContents m c) (Proc.devRef .tc main_v84)
      = val_main_v84 (F := Ideal) (m ((c.tc : Thread nD τ).loc main_arg1)) := by
  rw [eq_unary numbered (n := 104) (x := main_v83) (y := main_v84) rfl rfl (by decide),
    st_v83 m c]
  rfl

theorem st_v85 :
    after (ops (F := Ideal)) (launchContents m c) (Proc.devRef .tc main_v85)
      = val_main_v85 (F := Ideal) (m ((c.tc : Thread nD τ).loc main_arg0)) (m ((c.tc : Thread nD τ).loc main_arg1)) (m ((c.tc : Thread nD τ).loc main_arg4)) (m ((c.tc : Thread nD τ).loc main_arg5)) := by
  rw [eq_binary numbered (n := 105) (a := main_v84) (b := main_v54) (y := main_v85) rfl rfl (by decide) (by decide),
    st_v84 m c,
    st_v54 m c]
  rfl

theorem st_v86 :
    after (ops (F := Ideal)) (launchContents m c) (Proc.devRef .tc main_v86)
      = val_main_v86 (F := Ideal) (m ((c.tc : Thread nD τ).loc main_arg0)) (m ((c.tc : Thread nD τ).loc main_arg1)) (m ((c.tc : Thread nD τ).loc main_arg4)) (m ((c.tc : Thread nD τ).loc main_arg5)) := by
  rw [eq_binary numbered (n := 106) (a := main_v82) (b := main_v85) (y := main_v86) rfl rfl (by decide) (by decide),
    st_v82 m c,
    st_v85 m c]
  rfl

theorem st_call1_cst :
    after (ops (F := Ideal)) (launchContents m c) (Proc.devRef .tc main_call1_cst)
      = val_main_call1_cst (F := Ideal) := by
  rw [eq_tnullary numbered (n := 107) (y := main_call1_cst) rfl rfl]
  rfl

theorem st_call1_v0 :
    after (ops (F := Ideal)) (launchContents m c) (Proc.devRef .tc main_call1_v0)
      = val_main_call1_v0 (F := Ideal) := by
  rw [eq_tunary numbered (n := 108) (x := main_call1_cst) (y := main_call1_v0) rfl rfl (by decide),
    st_call1_cst m c]
  rfl

theorem st_v87 :
    after (ops (F := Ideal)) (launchContents m c) (Proc.devRef .tc main_v87)
      = val_main_v87 (F := Ideal) (m ((c.tc : Thread nD τ).loc main_arg0)) (m ((c.tc : Thread nD τ).loc main_arg1)) (m ((c.tc : Thread nD τ).loc main_arg4)) (m ((c.tc : Thread nD τ).loc main_arg5)) := by
  rw [eq_tbinary numbered (n := 109) (a := main_v86) (b := main_call1_v0) (y := main_v87) rfl rfl (by decide) (by decide),
    st_v86 m c,
    st_call1_v0 m c]
  rfl

theorem st_v88 :
    after (ops (F := Ideal)) (launchContents m c) (Proc.devRef .tc main_v88)
      = val_main_v88 (F := Ideal) (m ((c.tc : Thread nD τ).loc main_arg0)) (m ((c.tc : Thread nD τ).loc main_arg6)) := by
  rw [eq_binary numbered (n := 110) (a := main_arg0) (b := main_arg6) (y := main_v88) rfl rfl (by decide) (by decide),
    kept_arg0 m c,
    kept_arg6 m c]
  rfl

theorem st_v89 :
    after (ops (F := Ideal)) (launchContents m c) (Proc.devRef .tc main_v89)
      = val_main_v89 (F := Ideal) (m ((c.tc : Thread nD τ).loc main_arg7)) := by
  rw [eq_unary numbered (n := 111) (x := main_arg7) (y := main_v89) rfl rfl (by decide),
    kept_arg7 m c]
  rfl

theorem st_v90 :
    after (ops (F := Ideal)) (launchContents m c) (Proc.devRef .tc main_v90)
      = val_main_v90 (F := Ideal) (m ((c.tc : Thread nD τ).loc main_arg7)) := by
  rw [eq_unary numbered (n := 112) (x := main_v89) (y := main_v90) rfl rfl (by decide),
    st_v89 m c]
  rfl

theorem st_v91 :
    after (ops (F := Ideal)) (launchContents m c) (Proc.devRef .tc main_v91)
      = val_main_v91 (F := Ideal) (m ((c.tc : Thread nD τ).loc main_arg0)) (m ((c.tc : Thread nD τ).loc main_arg6)) (m ((c.tc : Thread nD τ).loc main_arg7)) := by
  rw [eq_binary numbered (n := 113) (a := main_v88) (b := main_v90) (y := main_v91) rfl rfl (by decide) (by decide),
    st_v88 m c,
    st_v90 m c]
  rfl

theorem st_call2_cst :
    after (ops (F := Ideal)) (launchContents m c) (Proc.devRef .tc main_call2_cst)
      = val_main_call2_cst (F := Ideal) := by
  rw [eq_tnullary numbered (n := 114) (y := main_call2_cst) rfl rfl]
  rfl

theorem st_call2_v0 :
    after (ops (F := Ideal)) (launchContents m c) (Proc.devRef .tc main_call2_v0)
      = val_main_call2_v0 (F := Ideal) := by
  rw [eq_tunary numbered (n := 115) (x := main_call2_cst) (y := main_call2_v0) rfl rfl (by decide),
    st_call2_cst m c]
  rfl

theorem st_v92 :
    after (ops (F := Ideal)) (launchContents m c) (Proc.devRef .tc main_v92)
      = val_main_v92 (F := Ideal) (m ((c.tc : Thread nD τ).loc main_arg0)) (m ((c.tc : Thread nD τ).loc main_arg6)) (m ((c.tc : Thread nD τ).loc main_arg7)) := by
  rw [eq_tbinary numbered (n := 116) (a := main_v91) (b := main_call2_v0) (y := main_v92) rfl rfl (by decide) (by decide),
    st_v91 m c,
    st_call2_v0 m c]
  rfl

theorem st_v93 :
    after (ops (F := Ideal)) (launchContents m c) (Proc.devRef .tc main_v93)
      = val_main_v93 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) := by
  rw [eq_binary numbered (n := 117) (a := main_v50) (b := main_arg8) (y := main_v93) rfl rfl (by decide) (by decide),
    st_v50 m c,
    kept_arg8 m c]
  rfl

theorem st_v94 :
    after (ops (F := Ideal)) (launchContents m c) (Proc.devRef .tc main_v94)
      = val_main_v94 (F := Ideal) (m ((c.tc : Thread nD τ).loc main_arg9)) := by
  rw [eq_unary numbered (n := 118) (x := main_arg9) (y := main_v94) rfl rfl (by decide),
    kept_arg9 m c]
  rfl

theorem st_v95 :
    after (ops (F := Ideal)) (launchContents m c) (Proc.devRef .tc main_v95)
      = val_main_v95 (F := Ideal) (m ((c.tc : Thread nD τ).loc main_arg9)) := by
  rw [eq_unary numbered (n := 119) (x := main_v94) (y := main_v95) rfl rfl (by decide),
    st_v94 m c]
  rfl

theorem st_v96 :
    after (ops (F := Ideal)) (launchContents m c) (Proc.devRef .tc main_v96)
      = val_main_v96 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) := by
  rw [eq_binary numbered (n := 120) (a := main_v93) (b := main_v95) (y := main_v96) rfl rfl (by decide) (by decide),
    st_v93 m c,
    st_v95 m c]
  rfl

theorem st_v97 :
    after (ops (F := Ideal)) (launchContents m c) (Proc.devRef .tc main_v97)
      = val_main_v97 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg10)) := by
  rw [eq_binary numbered (n := 121) (a := main_v87) (b := main_arg10) (y := main_v97) rfl rfl (by decide) (by decide),
    st_v87 m c,
    kept_arg10 m c]
  rfl

theorem st_v98 :
    after (ops (F := Ideal)) (launchContents m c) (Proc.devRef .tc main_v98)
      = val_main_v98 (F := Ideal) (m ((c.tc : Thread nD τ).loc main_arg11)) := by
  rw [eq_unary numbered (n := 122) (x := main_arg11) (y := main_v98) rfl rfl (by decide),
    kept_arg11 m c]
  rfl

theorem st_v99 :
    after (ops (F := Ideal)) (launchContents m c) (Proc.devRef .tc main_v99)
      = val_main_v99 (F := Ideal) (m ((c.tc : Thread nD τ).loc main_arg11)) := by
  rw [eq_unary numbered (n := 123) (x := main_v98) (y := main_v99) rfl rfl (by decide),
    st_v98 m c]
  rfl

theorem st_v100 :
    after (ops (F := Ideal)) (launchContents m c) (Proc.devRef .tc main_v100)
      = val_main_v100 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg10)) (m ((c.tc : Thread nD τ).loc main_arg11)) := by
  rw [eq_binary numbered (n := 124) (a := main_v97) (b := main_v99) (y := main_v100) rfl rfl (by decide) (by decide),
    st_v97 m c,
    st_v99 m c]
  rfl

theorem st_v101 :
    after (ops (F := Ideal)) (launchContents m c) (Proc.devRef .tc main_v101)
      = val_main_v101 (F := Ideal) (m ((c.tc : Thread nD τ).loc main_arg0)) (m ((c.tc : Thread nD τ).loc main_arg6)) (m ((c.tc : Thread nD τ).loc main_arg7)) (m ((c.tc : Thread nD τ).loc main_arg12)) := by
  rw [eq_binary numbered (n := 125) (a := main_v92) (b := main_arg12) (y := main_v101) rfl rfl (by decide) (by decide),
    st_v92 m c,
    kept_arg12 m c]
  rfl

theorem st_v102 :
    after (ops (F := Ideal)) (launchContents m c) (Proc.devRef .tc main_v102)
      = val_main_v102 (F := Ideal) (m ((c.tc : Thread nD τ).loc main_arg13)) := by
  rw [eq_unary numbered (n := 126) (x := main_arg13) (y := main_v102) rfl rfl (by decide),
    kept_arg13 m c]
  rfl

theorem st_v103 :
    after (ops (F := Ideal)) (launchContents m c) (Proc.devRef .tc main_v103)
      = val_main_v103 (F := Ideal) (m ((c.tc : Thread nD τ).loc main_arg13)) := by
  rw [eq_unary numbered (n := 127) (x := main_v102) (y := main_v103) rfl rfl (by decide),
    st_v102 m c]
  rfl

theorem st_v104 :
    after (ops (F := Ideal)) (launchContents m c) (Proc.devRef .tc main_v104)
      = val_main_v104 (F := Ideal) (m ((c.tc : Thread nD τ).loc main_arg0)) (m ((c.tc : Thread nD τ).loc main_arg6)) (m ((c.tc : Thread nD τ).loc main_arg7)) (m ((c.tc : Thread nD τ).loc main_arg12)) (m ((c.tc : Thread nD τ).loc main_arg13)) := by
  rw [eq_binary numbered (n := 128) (a := main_v101) (b := main_v103) (y := main_v104) rfl rfl (by decide) (by decide),
    st_v101 m c,
    st_v103 m c]
  rfl

theorem st_v105 :
    after (ops (F := Ideal)) (launchContents m c) (Proc.devRef .tc main_v105)
      = val_main_v105 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) := by
  rw [eq_unary numbered (n := 129) (x := main_v96) (y := main_v105) rfl rfl (by decide),
    st_v96 m c]
  rfl

theorem st_v106 :
    after (ops (F := Ideal)) (launchContents m c) (Proc.devRef .tc main_v106)
      = val_main_v106 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) := by
  rw [eq_binary numbered (n := 130) (a := main_v105) (b := main_v50) (y := main_v106) rfl rfl (by decide) (by decide),
    st_v105 m c,
    st_v50 m c]
  rfl

theorem st_v107 :
    after (ops (F := Ideal)) (launchContents m c) (Proc.devRef .tc main_v107)
      = val_main_v107 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg10)) (m ((c.tc : Thread nD τ).loc main_arg11)) := by
  rw [eq_unary numbered (n := 131) (x := main_v100) (y := main_v107) rfl rfl (by decide),
    st_v100 m c]
  rfl

theorem st_v108 :
    after (ops (F := Ideal)) (launchContents m c) (Proc.devRef .tc main_v108)
      = val_main_v108 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg10)) (m ((c.tc : Thread nD τ).loc main_arg11)) := by
  rw [eq_binary numbered (n := 132) (a := main_v107) (b := main_v87) (y := main_v108) rfl rfl (by decide) (by decide),
    st_v107 m c,
    st_v87 m c]
  rfl

theorem st_v109 :
    after (ops (F := Ideal)) (launchContents m c) (Proc.devRef .tc main_v109)
      = val_main_v109 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11)) := by
  rw [eq_binary numbered (n := 133) (a := main_v106) (b := main_v108) (y := main_v109) rfl rfl (by decide) (by decide),
    st_v106 m c,
    st_v108 m c]
  rfl

theorem st_v110 :
    after (ops (F := Ideal)) (launchContents m c) (Proc.devRef .tc main_v110)
      = val_main_v110 (F := Ideal) (m ((c.tc : Thread nD τ).loc main_arg0)) (m ((c.tc : Thread nD τ).loc main_arg6)) (m ((c.tc : Thread nD τ).loc main_arg7)) (m ((c.tc : Thread nD τ).loc main_arg12)) (m ((c.tc : Thread nD τ).loc main_arg13)) := by
  rw [eq_unary numbered (n := 134) (x := main_v104) (y := main_v110) rfl rfl (by decide),
    st_v104 m c]
  rfl

theorem st_v111 :
    after (ops (F := Ideal)) (launchContents m c) (Proc.devRef .tc main_v111)
      = val_main_v111 (F := Ideal) (m ((c.tc : Thread nD τ).loc main_arg0)) (m ((c.tc : Thread nD τ).loc main_arg6)) (m ((c.tc : Thread nD τ).loc main_arg7)) (m ((c.tc : Thread nD τ).loc main_arg12)) (m ((c.tc : Thread nD τ).loc main_arg13)) := by
  rw [eq_binary numbered (n := 135) (a := main_v110) (b := main_v92) (y := main_v111) rfl rfl (by decide) (by decide),
    st_v110 m c,
    st_v92 m c]
  rfl

theorem st_v112 :
    after (ops (F := Ideal)) (launchContents m c) (Proc.devRef .tc main_v112)
      = val_main_v112 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [eq_binary numbered (n := 136) (a := main_v109) (b := main_v111) (y := main_v112) rfl rfl (by decide) (by decide),
    st_v109 m c,
    st_v111 m c]
  rfl

theorem st_call3_cst :
    after (ops (F := Ideal)) (launchContents m c) (Proc.devRef .tc main_call3_cst)
      = val_main_call3_cst (F := Ideal) := by
  rw [eq_tnullary numbered (n := 137) (y := main_call3_cst) rfl rfl]
  rfl

theorem st_call3_v0 :
    after (ops (F := Ideal)) (launchContents m c) (Proc.devRef .tc main_call3_v0)
      = val_main_call3_v0 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [eq_tbinary numbered (n := 138) (a := main_v112) (b := main_call3_cst) (y := main_call3_v0) rfl rfl (by decide) (by decide),
    st_v112 m c,
    st_call3_cst m c]
  rfl

theorem st_call3_cst_0 :
    after (ops (F := Ideal)) (launchContents m c) (Proc.devRef .tc main_call3_cst_0)
      = val_main_call3_cst_0 (F := Ideal) := by
  rw [eq_tnullary numbered (n := 139) (y := main_call3_cst_0) rfl rfl]
  rfl

theorem st_call3_v1 :
    after (ops (F := Ideal)) (launchContents m c) (Proc.devRef .tc main_call3_v1)
      = val_main_call3_v1 (F := Ideal) := by
  rw [eq_tunary numbered (n := 140) (x := main_call3_cst_0) (y := main_call3_v1) rfl rfl (by decide),
    st_call3_cst_0 m c]
  rfl

theorem st_call3_v2 :
    after (ops (F := Ideal)) (launchContents m c) (Proc.devRef .tc main_call3_v2)
      = val_main_call3_v2 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [eq_tbinary numbered (n := 141) (a := main_call3_v1) (b := main_call3_v0) (y := main_call3_v2) rfl rfl (by decide) (by decide),
    st_call3_v1 m c,
    st_call3_v0 m c]
  rfl

theorem st_call3_v3 :
    after (ops (F := Ideal)) (launchContents m c) (Proc.devRef .tc main_call3_v3)
      = val_main_call3_v3 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [eq_tunary numbered (n := 142) (x := main_call3_v2) (y := main_call3_v3) rfl rfl (by decide),
    st_call3_v2 m c]
  rfl

theorem st_call3_v4 :
    after (ops (F := Ideal)) (launchContents m c) (Proc.devRef .tc main_call3_v4)
      = val_main_call3_v4 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [eq_tunary numbered (n := 143) (x := main_call3_v3) (y := main_call3_v4) rfl rfl (by decide),
    st_call3_v3 m c]
  rfl

theorem st_call3_v5 :
    after (ops (F := Ideal)) (launchContents m c) (Proc.devRef .tc main_call3_v5)
      = val_main_call3_v5 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [eq_tbinary numbered (n := 144) (a := main_v112) (b := main_call3_v4) (y := main_call3_v5) rfl rfl (by decide) (by decide),
    st_v112 m c,
    st_call3_v4 m c]
  rfl

theorem st_call3_v6 :
    after (ops (F := Ideal)) (launchContents m c) (Proc.devRef .tc main_call3_v6)
      = val_main_call3_v6 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [eq_tunary numbered (n := 145) (x := main_call3_v5) (y := main_call3_v6) rfl rfl (by decide),
    st_call3_v5 m c]
  rfl

theorem st_call3_cst_1 :
    after (ops (F := Ideal)) (launchContents m c) (Proc.devRef .tc main_call3_cst_1)
      = val_main_call3_cst_1 (F := Ideal) := by
  rw [eq_tnullary numbered (n := 146) (y := main_call3_cst_1) rfl rfl]
  rfl

theorem st_call3_v7 :
    after (ops (F := Ideal)) (launchContents m c) (Proc.devRef .tc main_call3_v7)
      = val_main_call3_v7 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [eq_tbinary numbered (n := 147) (a := main_call3_v6) (b := main_call3_cst_1) (y := main_call3_v7) rfl rfl (by decide) (by decide),
    st_call3_v6 m c,
    st_call3_cst_1 m c]
  rfl

theorem st_call3_v8 :
    after (ops (F := Ideal)) (launchContents m c) (Proc.devRef .tc main_call3_v8)
      = val_main_call3_v8 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [eq_tunary numbered (n := 148) (x := main_call3_v7) (y := main_call3_v8) rfl rfl (by decide),
    st_call3_v7 m c]
  rfl

theorem st_call3_v9 :
    after (ops (F := Ideal)) (launchContents m c) (Proc.devRef .tc main_call3_v9)
      = val_main_call3_v9 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [eq_tunary numbered (n := 149) (x := main_call3_v8) (y := main_call3_v9) rfl rfl (by decide),
    st_call3_v8 m c]
  rfl

theorem st_call3_v10 :
    after (ops (F := Ideal)) (launchContents m c) (Proc.devRef .tc main_call3_v10)
      = val_main_call3_v10 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [eq_tunary numbered (n := 150) (x := main_call3_v9) (y := main_call3_v10) rfl rfl (by decide),
    st_call3_v9 m c]
  rfl

theorem st_v113 :
    after (ops (F := Ideal)) (launchContents m c) (Proc.devRef .tc main_v113)
      = val_main_v113 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [eq_tbinary numbered (n := 151) (a := main_call3_v5) (b := main_call3_v10) (y := main_v113) rfl rfl (by decide) (by decide),
    st_call3_v5 m c,
    st_call3_v10 m c]
  rfl

/-- The result buffer's final contents as its stage function of the arguments. -/
theorem result_eq :
    after (ops (F := Ideal)) (launchContents m c) (Proc.devRef .tc main_v113)
      = val_main_v113 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  st_v113 m c

end Stages

/-- From any memory with zero counters, every weakly fair execution of the program terminates with the result buffer
    at its stage function of the arguments, and with the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v113) = val_main_v113 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v113).trans (result_eq m c),
      (h c main_arg0).trans (kept_arg0 m c),
      (h c main_arg1).trans (kept_arg1 m c),
      (h c main_arg2).trans (kept_arg2 m c),
      (h c main_arg3).trans (kept_arg3 m c),
      (h c main_arg4).trans (kept_arg4 m c),
      (h c main_arg5).trans (kept_arg5 m c),
      (h c main_arg6).trans (kept_arg6 m c),
      (h c main_arg7).trans (kept_arg7 m c),
      (h c main_arg8).trans (kept_arg8 m c),
      (h c main_arg9).trans (kept_arg9 m c),
      (h c main_arg10).trans (kept_arg10 m c),
      (h c main_arg11).trans (kept_arg11 m c),
      (h c main_arg12).trans (kept_arg12 m c),
      (h c main_arg13).trans (kept_arg13 m c)⟩)
    (run_seq scopedRefs_eq scopedSems_eq defs main (fun _ => ops) main_eq (fun _ => ops_sub) m ρ)

end Cert.ReferenceIdeal.Stages

end
-- ==== Proof.lean ====
/-
  The certificate of a graph-network layer computed by two Pallas calls against its plain jax reference.

  The layer projects every node's features three ways (high-pass, low-pass, identity), aggregates the first two
  projections over the graph with symmetric degree normalisation and self-loops, cuts the branches at zero, mixes
  them with three per-node scalar gates, and takes the row-wise log-softmax. The kernel program does the projections
  in a first call, 5000 rows at a time, leaves the graph aggregation to the same host operations the reference uses,
  and does the cuts, the gates, the mixture and the log-softmax in a second call, again 5000 rows at a time.

  On the extended reals the two programs compute the same function of the arguments, `Cert.Bridge.out`, with no
  condition on the inputs: rounding the matrix products' operands to bf16 is the identity there; a product
  accumulated block by block is the same sum; a lane sum against a weight row is the reference's product with the
  weight column; every entry of the result depends on one row of the arrays it is computed from, so working on a
  block of rows computes the whole-array function; and the shifted log-softmax is written the same way on both
  sides. The precondition (finite inputs) is not used.

  The three frames: the two kernel programs' are the generated frames; the reference's is its run, read back one
  operation at a time. `preserves` asks nothing: the idealization rewrote no operation.
-/
import proofs.«180817_j34041910788577_1_alg».proof.Defs
import proofs.«180817_j34041910788577_1_alg».proof.Proof.Gen.Kernel
import proofs.«180817_j34041910788577_1_alg».proof.Proof.Gen.Kernel.Frame
import proofs.«180817_j34041910788577_1_alg».proof.Proof.Gen.KernelIdeal
import proofs.«180817_j34041910788577_1_alg».proof.Proof.Gen.KernelIdeal.Frame
import proofs.«180817_j34041910788577_1_alg».proof.Proof.Gen.ReferenceIdeal
import proofs.«180817_j34041910788577_1_alg».proof.Proof.Gen.Pre_finite_inputs
import proofs.«180817_j34041910788577_1_alg».proof.Proof.KernelRun
import proofs.«180817_j34041910788577_1_alg».proof.Proof.Bridge
import proofs.«180817_j34041910788577_1_alg».proof.Proof.RefStages
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments unchanged. -/
theorem frame_p : Cert.frame_Kernel := fun m ρ _ => Cert.Kernel.Gen.frame m ρ

/-- So does the idealized kernel program. -/
theorem frame_pi : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Stages.run m ρ)

/-- The idealization rewrote nothing. -/
theorem preserves : Cert.preserves_Kernel_KernelIdeal := trivial

/-- From memories that agree on the arguments both programs end with `Cert.Bridge.out` of the arguments in their
    result buffers, and with their arguments unchanged. -/
theorem algebraic : Cert.algebraic_KernelIdeal_ReferenceIdeal := by
  intro m ρ m' ρ' _ hagree
  refine ⟨fun c => Cert.Bridge.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)), ?_, ?_⟩
  · refine (θ_run Cert.KernelIdeal.defs _ _).mono (fun r h c => ?_) (Cert.KernelIdeal.Whole.run_all m ρ)
    exact ⟨(h c _ (Cert.KernelIdeal.Gen.mem_uc Cert.KernelIdeal.main_v72 (by decide))).trans (Cert.Bridge.kernel_value m ρ c),
        (h c _ (Cert.KernelIdeal.Gen.mem_uc Cert.KernelIdeal.main_arg0 (by decide))).trans (Cert.KernelIdeal.Gen.W4_main_arg0 m ρ c),
        (h c _ (Cert.KernelIdeal.Gen.mem_uc Cert.KernelIdeal.main_arg1 (by decide))).trans (Cert.KernelIdeal.Gen.W4_main_arg1 m ρ c),
        (h c _ (Cert.KernelIdeal.Gen.mem_uc Cert.KernelIdeal.main_arg2 (by decide))).trans (Cert.KernelIdeal.Gen.W4_main_arg2 m ρ c),
        (h c _ (Cert.KernelIdeal.Gen.mem_uc Cert.KernelIdeal.main_arg3 (by decide))).trans (Cert.KernelIdeal.Gen.W4_main_arg3 m ρ c),
        (h c _ (Cert.KernelIdeal.Gen.mem_uc Cert.KernelIdeal.main_arg4 (by decide))).trans (Cert.KernelIdeal.Gen.W4_main_arg4 m ρ c),
        (h c _ (Cert.KernelIdeal.Gen.mem_uc Cert.KernelIdeal.main_arg5 (by decide))).trans (Cert.KernelIdeal.Gen.W4_main_arg5 m ρ c),
        (h c _ (Cert.KernelIdeal.Gen.mem_uc Cert.KernelIdeal.main_arg6 (by decide))).trans (Cert.KernelIdeal.Gen.W4_main_arg6 m ρ c),
        (h c _ (Cert.KernelIdeal.Gen.mem_uc Cert.KernelIdeal.main_arg7 (by decide))).trans (Cert.KernelIdeal.Gen.W4_main_arg7 m ρ c),
        (h c _ (Cert.KernelIdeal.Gen.mem_uc Cert.KernelIdeal.main_arg8 (by decide))).trans (Cert.KernelIdeal.Gen.W4_main_arg8 m ρ c),
        (h c _ (Cert.KernelIdeal.Gen.mem_uc Cert.KernelIdeal.main_arg9 (by decide))).trans (Cert.KernelIdeal.Gen.W4_main_arg9 m ρ c),
        (h c _ (Cert.KernelIdeal.Gen.mem_uc Cert.KernelIdeal.main_arg10 (by decide))).trans (Cert.KernelIdeal.Gen.W4_main_arg10 m ρ c),
        (h c _ (Cert.KernelIdeal.Gen.mem_uc Cert.KernelIdeal.main_arg11 (by decide))).trans (Cert.KernelIdeal.Gen.W4_main_arg11 m ρ c),
        (h c _ (Cert.KernelIdeal.Gen.mem_uc Cert.KernelIdeal.main_arg12 (by decide))).trans (Cert.KernelIdeal.Gen.W4_main_arg12 m ρ c),
        (h c _ (Cert.KernelIdeal.Gen.mem_uc Cert.KernelIdeal.main_arg13 (by decide))).trans (Cert.KernelIdeal.Gen.W4_main_arg13 m ρ c)⟩
  · refine (θ_run Cert.ReferenceIdeal.defs _ _).mono (fun _ h c => ⟨(h c).1.trans ?_, (h c).2⟩)
      (Cert.ReferenceIdeal.Stages.run m' ρ')
    obtain ⟨h0, h1, h2, h3, h4, h5, h6, h7, h8, h9, h10, h11, h12, h13⟩ := hagree c
    rw [Cert.Bridge.ref_value, h0, h1, h2, h3, h4, h5, h6, h7, h8, h9, h10, h11, h12, h13]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
